-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x768 : Shape := ⟨3, ![4, 4096, 768]⟩
abbrev S768x768 : Shape := ⟨2, ![768, 768]⟩
abbrev S768 : Shape := ⟨1, ![768]⟩
abbrev S_ : Shape := ⟨0, ![]⟩

class Facts : Prop where
  bcast_S_S4x4096x768 : S_.BroadcastsInDim S4x4096x768 (![] : Fin 0 → Fin S4x4096x768.rank)
  reducesTo_S4x4096x768_S_d0_1_2 : S4x4096x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_arg5 : FVec F S768x768 .f32) (main_arg6 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768x768 .f32 := Host.absf main_arg5
  let main_cst_8 : FVec F S_ .f32 := constant S_ .f32 0x7F800000#32
  let main_v25 : FVec F S768x768 .f32 := broadcastInDim S768x768 ![] bcast_S_S768x768 main_cst_8
  let main_v26 : IVec S768x768 1 := cmpf .olt main_v24 main_v25
  let main_c_9 : IVec S_ 1 := constantI S_ 1 1#1
  let main_v27 : IVec S_ 1 := (fun x v => Host.reduce IntOp.andi x v reducesTo_S768x768_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  main_v33

def fn {F : FTy → Type} [FloatOps F] (main_arg0 : FVec F S4x4096x768 .f32) (main_arg1 : FVec F S768x768 .f32) (main_arg2 : FVec F S768 .f32) (main_arg3 : FVec F S768x768 .f32) (main_arg4 : FVec F S768 .f32) (main_arg5 : FVec F S768x768 .f32) (main_arg6 : FVec F S768 .f32) : IVec S_ 1 :=
  let main_v0 : FVec F S4x4096x768 .f32 := Host.absf main_arg0
  let main_cst : FVec F S_ .f32 := constant S_ .f32 0x7F800000#32
  let main_v1 : FVec F S4x4096x768 .f32 := broadcastInDim S4x4096x768 ![] bcast_S_S4x4096x768 main_cst
  let main_v2 : IVec S4x4096x768 1 := cmpf .olt main_v0 main_v1
  let main_c : IVec S_ 1 := constantI S_ 1 1#1
  let main_v3 : IVec S_ 1 := (fun x v => Host.reduce IntOp.andi x v reducesTo_S4x4096x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_arg5 main_arg6 main_v13 main_v16
-- ==== Kernel.lean ====
abbrev S4x4096x768 : Shape := ⟨3, ![4, 4096, 768]⟩
abbrev S768x768 : Shape := ⟨2, ![768, 768]⟩
abbrev S768 : Shape := ⟨1, ![768]⟩
abbrev S_ : Shape := ⟨0, ![]⟩
abbrev S4x768x768 : Shape := ⟨3, ![4, 768, 768]⟩
abbrev S1x1024x768 : Shape := ⟨3, ![1, 1024, 768]⟩
abbrev S1x768x768 : Shape := ⟨3, ![1, 768, 768]⟩
abbrev S1024x768 : Shape := ⟨2, ![1024, 768]⟩
abbrev S1x768 : Shape := ⟨2, ![1, 768]⟩

abbrev nBuf : Space → Nat
  | .hbm => 22
  | .vmem => 17
  | .smem => 0
  | _ => 0

abbrev bufTy : (tb : Table) → Fin (tcTables nBuf tb) → BufTy
  | .hbm, ⟨0, _⟩ => ⟨S4x4096x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S768x768, .f32⟩
  | .hbm, ⟨8, _⟩ => ⟨S768x768, .bf16⟩
  | .hbm, ⟨9, _⟩ => ⟨S768x768, .f32⟩
  | .hbm, ⟨10, _⟩ => ⟨S768x768, .bf16⟩
  | .hbm, ⟨11, _⟩ => ⟨S768x768, .f32⟩
  | .hbm, ⟨12, _⟩ => ⟨S_, .f32⟩
  | .hbm, ⟨13, _⟩ => ⟨S768x768, .f32⟩
  | .hbm, ⟨14, _⟩ => ⟨S768x768, .f32⟩
  | .hbm, ⟨15, _⟩ => ⟨S768x768, .bf16⟩
  | .hbm, ⟨16, _⟩ => ⟨S_, .f32⟩
  | .hbm, ⟨17, _⟩ => ⟨S768, .f32⟩
  | .hbm, ⟨18, _⟩ => ⟨S768, .f32⟩
  | .hbm, ⟨19, _⟩ => ⟨S4x4096x768, .bf16⟩
  | .hbm, ⟨20, _⟩ => ⟨S4x768x768, .bf16⟩
  | .hbm, ⟨21, _⟩ => ⟨S4x4096x768, .f32⟩
  | .local _ .vmem, ⟨0, _⟩ => ⟨S1x1024x768, .bf16⟩
  | .local _ .vmem, ⟨1, _⟩ => ⟨S1x1024x768, .bf16⟩
  | .local _ .vmem, ⟨2, _⟩ => ⟨S768x768, .bf16⟩
  | .local _ .vmem, ⟨3, _⟩ => ⟨S768, .f32⟩
  | .local _ .vmem, ⟨4, _⟩ => ⟨S768x768, .bf16⟩
  | .local _ .vmem, ⟨5, _⟩ => ⟨S768, .f32⟩
  | .local _ .vmem, ⟨6, _⟩ => ⟨S1x768x768, .bf16⟩
  | .local _ .vmem, ⟨7, _⟩ => ⟨S1x768x768, .bf16⟩
  | .local _ .vmem, ⟨8, _⟩ => ⟨S768x768, .f32⟩
  | .local _ .vmem, ⟨9, _⟩ => ⟨S1x1024x768, .bf16⟩
  | .local _ .vmem, ⟨10, _⟩ => ⟨S1x1024x768, .bf16⟩
  | .local _ .vmem, ⟨11, _⟩ => ⟨S768x768, .bf16⟩
  | .local _ .vmem, ⟨12, _⟩ => ⟨S768, .f32⟩
  | .local _ .vmem, ⟨13, _⟩ => ⟨S1x768x768, .bf16⟩
  | .local _ .vmem, ⟨14, _⟩ => ⟨S1x768x768, .bf16⟩
  | .local _ .vmem, ⟨15, _⟩ => ⟨S1x1024x768, .f32⟩
  | .local _ .vmem, ⟨16, _⟩ => ⟨S1x1024x768, .f32⟩
  | _, _ => ⟨S4x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v28 : BitVec 1 := Scalar.cmpi .eq arg1 c3_i32
  let v29 : BitVec 32 := Scalar.extui v28
  let c0_i32_15 : BitVec 32 := 0#32
  let v30 : BitVec 1 := Scalar.cmpi .ne v29 c0_i32_15
  v30

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x768x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S768x768 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x768x768 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1024x768 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  transposes_S768x768_S768x768_1_0 : S768x768.Transposes [1, 0] S768x768
  bitsLt_bf16_f32 : FTy.bits .bf16 < FTy.bits .f32
  bcast_S_S768x768 : S_.BroadcastsInDim S768x768 (![] : Fin 0 → Fin S768x768.rank)
  bcast_S_S768 : S_.BroadcastsInDim S768 (![] : Fin 0 → Fin S768.rank)
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  inb_S768_S768_0 : ∀ a, (![0] : Fin 1 → Nat) a + S768.size a ≤ S768.size a
  h_S768 : 0 < S768.numel
  shapeCasts_S768_S1x768 : S768.ShapeCasts S1x768
  broadcasts_S1x768_S1024x768 : S1x768.Broadcasts S1024x768
  shapeCasts_S768_S768 : S768.ShapeCasts S768
  inb_S1x768x768_S1x768x768_0_0_0 : ∀ a, (![0, 0, 0] : Fin 3 → Nat) a + S1x768x768.size a ≤ S1x768x768.size a
  h_S1x768x768 : 0 < S1x768x768.numel
  shapeCasts_S1x768x768_S768x768 : S1x768x768.ShapeCasts S768x768
  shapeCasts_S768x768_S1x768x768 : S768x768.ShapeCasts S1x768x768
  packedbf16_S1x768x768_S1x768x768_0_0_0 : (Rect.unit (s := S1x768x768) ![0, 0, 0] S1x768x768.size inb_S1x768x768_S1x768x768_0_0_0).PackedRows (EltTy.packing .bf16)
  shapeCasts_S1024x768_S1x1024x768 : S1024x768.ShapeCasts S1x1024x768
  dot_S1024x768_S768x768_S1024x768_1_0_0_1_n_n_wf : DotDims.WF S1024x768 S768x768 S1024x768 [1] [0] [0] [1] [] []
  dot_S1024x768_S1024x768_S768x768_0_0_1_1_n_n_wf : DotDims.WF S1024x768 S1024x768 S768x768 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S4x4096x768.size a
  hwx0_0 : ∀ i : grid0.Coords, EltTy.bits .bf16 = 32 ∨ (Rect.block (s := S4x4096x768) S1x1024x768.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .bf16 = 32 ∨ (Rect.block (s := S768x768) S768x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768.size a ≤ S768.size a
  hwx0_2 : ∀ i : grid0.Coords, EltTy.bits .f32 = 32 ∨ (Rect.block (s := S768) S768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x768.size a ≤ S768x768.size a
  hwx0_3 : ∀ i : grid0.Coords, EltTy.bits .bf16 = 32 ∨ (Rect.block (s := S768x768) S768x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768.size a ≤ S768.size a
  hwx0_4 : ∀ i : grid0.Coords, EltTy.bits .f32 = 32 ∨ (Rect.block (s := S768) S768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x768x768.size a ≤ S4x768x768.size a
  hwx0_5 : ∀ i : grid0.Coords, EltTy.bits .bf16 = 32 ∨ (Rect.block (s := S4x768x768) S1x768x768.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x768.size a ≤ S4x4096x768.size a
  hwx1_0 : ∀ i : grid1.Coords, EltTy.bits .bf16 = 32 ∨ (Rect.block (s := S4x4096x768) S1x1024x768.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S768x768.size a ≤ S768x768.size a
  hwx1_1 : ∀ i : grid1.Coords, EltTy.bits .bf16 = 32 ∨ (Rect.block (s := S768x768) S768x768.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S768.size a ≤ S768.size a
  hwx1_2 : ∀ i : grid1.Coords, EltTy.bits .f32 = 32 ∨ (Rect.block (s := S768) S768.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x768x768.size a ≤ S4x768x768.size a
  hwx1_3 : ∀ i : grid1.Coords, EltTy.bits .bf16 = 32 ∨ (Rect.block (s := S4x768x768) S1x768x768.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x768.size a ≤ S4x4096x768.size a
  hwx1_4 : ∀ i : grid1.Coords, EltTy.bits .f32 = 32 ∨ (Rect.block (s := S4x4096x768) S1x1024x768.size (cc1_transform_4 i) (hinb1_4 i)).WholeWords (EltTy.packing .f32)

variable [Facts₀]

def dot_S1024x768_S768x768_S1024x768_1_0_0_1_n_n : DotDims S1024x768 S768x768 S1024x768 where
  lhsContracting := [1]
  rhsContracting := [0]
  lhsNonContracting := [0]
  rhsNonContracting := [1]
  lhsBatch := []
  rhsBatch := []
  wf := dot_S1024x768_S768x768_S1024x768_1_0_0_1_n_n_wf
def dot_S1024x768_S1024x768_S768x768_0_0_1_1_n_n : DotDims S1024x768 S1024x768 S768x768 where
  lhsContracting := [0]
  rhsContracting := [0]
  lhsNonContracting := [1]
  rhsNonContracting := [1]
  lhsBatch := []
  rhsBatch := []
  wf := dot_S1024x768_S1024x768_S768x768_0_0_1_1_n_n_wf

abbrev win0_0 : Pipeline.Window sig grid0 :=
  Pipeline.Window.ofSpec (Memref.whole main_v10) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S768x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x768x768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v10) S1x1024x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S768x768.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S768.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x768x768.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v12) S1x1024x768.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x4096x768 : Shape := ⟨3, ![4, 4096, 768]⟩
abbrev S768x768 : Shape := ⟨2, ![768, 768]⟩
abbrev S768 : Shape := ⟨1, ![768]⟩
abbrev S1x1x768 : Shape := ⟨3, ![1, 1, 768]⟩
abbrev S4x4096x4096 : Shape := ⟨3, ![4, 4096, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4x4096x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S4x4096x768, .f32⟩
  | .hbm, ⟨8, _⟩ => ⟨S1x1x768, .f32⟩
  | .hbm, ⟨9, _⟩ => ⟨S4x4096x768, .f32⟩
  | .hbm, ⟨10, _⟩ => ⟨S4x4096x768, .f32⟩
  | .hbm, ⟨11, _⟩ => ⟨S4x4096x768, .f32⟩
  | .hbm, ⟨12, _⟩ => ⟨S1x1x768, .f32⟩
  | .hbm, ⟨13, _⟩ => ⟨S4x4096x768, .f32⟩
  | .hbm, ⟨14, _⟩ => ⟨S4x4096x768, .f32⟩
  | .hbm, ⟨15, _⟩ => ⟨S4x4096x768, .f32⟩
  | .hbm, ⟨16, _⟩ => ⟨S1x1x768, .f32⟩
  | .hbm, ⟨17, _⟩ => ⟨S4x4096x768, .f32⟩
  | .hbm, ⟨18, _⟩ => ⟨S4x4096x768, .f32⟩
  | .hbm, ⟨19, _⟩ => ⟨S4x4096x4096, .f32⟩
  | .hbm, ⟨20, _⟩ => ⟨S_, .f32⟩
  | .hbm, ⟨21, _⟩ => ⟨S4x4096x4096, .f32⟩
  | .hbm, ⟨22, _⟩ => ⟨S4x4096x4096, .f32⟩
  | .hbm, ⟨23, _⟩ => ⟨S4x4096x768, .f32⟩
  | _, _ => ⟨S4x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S4x4096x768_0_1_2 : S1x1x768.BroadcastsInDim S4x4096x768 (![0, 1, 2] : Fin 3 → Fin S4x4096x768.rank)
  bcast_S_S4x4096x4096 : S_.BroadcastsInDim S4x4096x4096 (![] : Fin 0 → Fin S4x4096x4096.rank)
  dot_S4x4096x768_S768x768_S4x4096x768_2_1_01_0_n_n_wf : DotDims.WF S4x4096x768 S768x768 S4x4096x768 [2] [1] [0, 1] [0] [] []
  dot_S4x4096x768_S4x4096x768_S4x4096x4096_2_2_1_1_0_0_wf : DotDims.WF S4x4096x768 S4x4096x768 S4x4096x4096 [2] [2] [1] [1] [0] [0]
  dot_S4x4096x4096_S4x4096x768_S4x4096x768_2_1_1_2_0_0_wf : DotDims.WF S4x4096x4096 S4x4096x768 S4x4096x768 [2] [1] [1] [2] [0] [0]

variable [Facts₀]

def dot_S4x4096x768_S768x768_S4x4096x768_2_1_01_0_n_n : DotDims S4x4096x768 S768x768 S4x4096x768 where
  lhsContracting := [2]
  rhsContracting := [1]
  lhsNonContracting := [0, 1]
  rhsNonContracting := [0]
  lhsBatch := []
  rhsBatch := []
  wf := dot_S4x4096x768_S768x768_S4x4096x768_2_1_01_0_n_n_wf
def dot_S4x4096x768_S4x4096x768_S4x4096x4096_2_2_1_1_0_0 : DotDims S4x4096x768 S4x4096x768 S4x4096x4096 where
  lhsContracting := [2]
  rhsContracting := [2]
  lhsNonContracting := [1]
  rhsNonContracting := [1]
  lhsBatch := [0]
  rhsBatch := [0]
  wf := dot_S4x4096x768_S4x4096x768_S4x4096x4096_2_2_1_1_0_0_wf
def dot_S4x4096x4096_S4x4096x768_S4x4096x768_2_1_1_2_0_0 : DotDims S4x4096x4096 S4x4096x768 S4x4096x768 where
  lhsContracting := [2]
  rhsContracting := [1]
  lhsNonContracting := [1]
  rhsNonContracting := [2]
  lhsBatch := [0]
  rhsBatch := [0]
  wf := dot_S4x4096x4096_S4x4096x768_S4x4096x768_2_1_1_2_0_0_wf

class Facts : Prop extends Facts₀ where

variable [Facts]
-- ==== Proof.Bits.R0Base.lean ====
/-
  Region 0 of the program, the key/value accumulation kernel, seen from any contents `V` of the TensorCore's buffers at
  the region's entry: each window's block at a grid point, the fact that an input window's staging buffer holds its
  block at every point (fetched there or carried over: the block index has not moved), the two branch conditions of
  the body decided over the 4 × 4 grid (the accumulator is cleared at the first sequence tile of a batch, the output
  block is stored at the last), where the output window is idle, and the invariant's shape: the accumulator scratch
  owned beside the other scoped buffers and the generator register.
-/
import proofs.«158100_j22514218565864_2_alg».proof.Proof.Gen.Kernel.Launch
import proofs.«158100_j22514218565864_2_alg».proof.Proof.Gen.Kernel.Skeleton
import proofs.«158100_j22514218565864_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, for any proof data over `V` whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

end Entry

/-! ## The body's branch conditions -/

/-- The accumulator is cleared: the sequence-tile coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The output block is stored: the sequence-tile coordinate is the last, 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Where the output block is not stored the output window is idle and not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

/-! ## The staging memrefs and the scratch -/

abbrev VO0_5 : View sig .tc .vmem S1x768x768 .bf16 := (Memref.whole cc0_stg5_0 : Memref sig .tc .vmem S1x768x768 .bf16).view
abbrev ms0_0 (t : Fin cfg0.N) : Memref sig .tc .vmem S1x1024x768 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S768x768 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S768 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S768x768 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S768 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x768x768 .bf16 := win0_5.stage (cfg0.slots t 5)
abbrev hs0_5 (t : Fin cfg0.N) : (ms0_5 t).IsWhole := hstage0_5 ((cfg0.slots t 5).cast nbuf0_5)
/-- The accumulator: a whole scoped buffer of the kernel's own, carried from one grid point to the next. -/
abbrev scM0_0 : Memref sig .tc .vmem S768x768 .f32 := Memref.whole cc0_scratch0
abbrev VS0_0 : View sig .tc .vmem S768x768 .f32 := scM0_0.view

/-- The scoped buffers the kernel never names (the other region's staging buffers), each whole at some contents. -/
def otherScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The class invariant spelt out: the accumulator owned at some contents, the other scoped buffers, the generator register. -/
theorem PhiA0_eq (c : Dev nD) :
    (Pipeline.ΦA spec0 c : sProp 𝕄)
      = iprop(iprop((∃ d, owns (c : Thread nD τ) scM0_0 fullShare d) ∗ otherScoped0 c) ∗ (∃ r, prngReg c r)) := by
  unfold Pipeline.ΦA otherScoped0; rw [scopedRest0_eq]; simp only [scM0_0, owns_whole]; try rfl

end Cert.Kernel.Hand

end
-- ==== Proof.Bits.R0RunA.lean ====
/-
  The key/value kernel's body at a first sequence tile (the accumulator is cleared, then the tile's product added; nothing is stored into the output block).
-/
import proofs.«158100_j22514218565864_2_alg».proof.Proof.Bits.R0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block's staging buffer and in the accumulator in this case (last
    first), with the triple: on whole staging memrefs holding the input blocks, the body runs to its continuation with
    the inputs as they were and each written buffer at its pieces written over what it held. -/
noncomputable def kernelRun0_A (c : Dev nD) (i : grid0.Coords) (arg2 : Memref sig .tc .vmem S1x1024x768 .bf16) (harg2 : arg2.IsWhole) (arg3 : Memref sig .tc .vmem S768x768 .bf16) (harg3 : arg3.IsWhole) (arg4 : Memref sig .tc .vmem S768 .f32) (harg4 : arg4.IsWhole) (arg5 : Memref sig .tc .vmem S768x768 .bf16) (harg5 : arg5.IsWhole) (arg6 : Memref sig .tc .vmem S768 .f32) (harg6 : arg6.IsWhole) (arg7 : Memref sig .tc .vmem S1x768x768 .bf16) (harg7 : arg7.IsWhole) (arg8 : Memref sig .tc .vmem S768x768 .f32) (harg8 : arg8.IsWhole) (hc0 : cond0_0 i) (hc1 : ¬cond0_1 i)
    (x0 : Vec F S1x1024x768 .bf16) (x1 : Vec F S768x768 .bf16) (x2 : Vec F S768 .f32) (x3 : Vec F S768x768 .bf16) (x4 : Vec F S768 .f32) :
    Σ' (L5 : List (View.Piece (Elt F) S1x768x768 .bf16)), { LS0 : List (View.Piece (Elt F) S768x768 .f32) //
      ∀ (xi5 : Vec F S1x768x768 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__kv_kernel i arg2 harg2 arg3 harg3 arg4 harg4 arg5 harg5 arg6 harg6 arg7 harg7 arg8 harg8) K } := by
  refine ⟨[], ?_, fun xi5 E K => ?run⟩
  case run =>
    simp only [cc0__kv_kernel_eq_skeleton]; unfold cc0__kv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.Bits.R0RunB.lean ====
/-
  The key/value kernel's body at a middle sequence tile (the tile's product is added to the accumulator the tile before left; nothing is stored into the output block).
-/
import proofs.«158100_j22514218565864_2_alg».proof.Proof.Bits.R0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block's staging buffer and in the accumulator in this case (last
    first), with the triple: on whole staging memrefs holding the input blocks, the body runs to its continuation with
    the inputs as they were and each written buffer at its pieces written over what it held. -/
noncomputable def kernelRun0_B (c : Dev nD) (i : grid0.Coords) (arg2 : Memref sig .tc .vmem S1x1024x768 .bf16) (harg2 : arg2.IsWhole) (arg3 : Memref sig .tc .vmem S768x768 .bf16) (harg3 : arg3.IsWhole) (arg4 : Memref sig .tc .vmem S768 .f32) (harg4 : arg4.IsWhole) (arg5 : Memref sig .tc .vmem S768x768 .bf16) (harg5 : arg5.IsWhole) (arg6 : Memref sig .tc .vmem S768 .f32) (harg6 : arg6.IsWhole) (arg7 : Memref sig .tc .vmem S1x768x768 .bf16) (harg7 : arg7.IsWhole) (arg8 : Memref sig .tc .vmem S768x768 .f32) (harg8 : arg8.IsWhole) (hc0 : ¬cond0_0 i) (hc1 : ¬cond0_1 i)
    (x0 : Vec F S1x1024x768 .bf16) (x1 : Vec F S768x768 .bf16) (x2 : Vec F S768 .f32) (x3 : Vec F S768x768 .bf16) (x4 : Vec F S768 .f32) (xs0 : Vec F S768x768 .f32) :
    Σ' (L5 : List (View.Piece (Elt F) S1x768x768 .bf16)), { LS0 : List (View.Piece (Elt F) S768x768 .f32) //
      ∀ (xi5 : Vec F S1x768x768 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__kv_kernel i arg2 harg2 arg3 harg3 arg4 harg4 arg5 harg5 arg6 harg6 arg7 harg7 arg8 harg8) K } := by
  refine ⟨[], ?_, fun xi5 E K => ?run⟩
  case run =>
    simp only [cc0__kv_kernel_eq_skeleton]; unfold cc0__kv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.Bits.R0RunC.lean ====
/-
  The key/value kernel's body at a last sequence tile (the tile's product is added to the accumulator, and the accumulator, narrowed, is stored as the output block).
-/
import proofs.«158100_j22514218565864_2_alg».proof.Proof.Bits.R0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block's staging buffer and in the accumulator in this case (last
    first), with the triple: on whole staging memrefs holding the input blocks, the body runs to its continuation with
    the inputs as they were and each written buffer at its pieces written over what it held. -/
noncomputable def kernelRun0_C (c : Dev nD) (i : grid0.Coords) (arg2 : Memref sig .tc .vmem S1x1024x768 .bf16) (harg2 : arg2.IsWhole) (arg3 : Memref sig .tc .vmem S768x768 .bf16) (harg3 : arg3.IsWhole) (arg4 : Memref sig .tc .vmem S768 .f32) (harg4 : arg4.IsWhole) (arg5 : Memref sig .tc .vmem S768x768 .bf16) (harg5 : arg5.IsWhole) (arg6 : Memref sig .tc .vmem S768 .f32) (harg6 : arg6.IsWhole) (arg7 : Memref sig .tc .vmem S1x768x768 .bf16) (harg7 : arg7.IsWhole) (arg8 : Memref sig .tc .vmem S768x768 .f32) (harg8 : arg8.IsWhole) (hc0 : ¬cond0_0 i) (hc1 : cond0_1 i)
    (x0 : Vec F S1x1024x768 .bf16) (x1 : Vec F S768x768 .bf16) (x2 : Vec F S768 .f32) (x3 : Vec F S768x768 .bf16) (x4 : Vec F S768 .f32) (xs0 : Vec F S768x768 .f32) :
    Σ' (L5 : List (View.Piece (Elt F) S1x768x768 .bf16)), { LS0 : List (View.Piece (Elt F) S768x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0__kv_kernel i arg2 harg2 arg3 harg3 arg4 harg4 arg5 harg5 arg6 harg6 arg7 harg7 arg8 harg8) K } := by
  refine ⟨?_, ?_, fun E K => ?run⟩
  case run =>
    simp only [cc0__kv_kernel_eq_skeleton]; unfold cc0__kv_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Hand

end
-- ==== Proof.Bits.R0Frame.lean ====
/-
  Region 0, the key/value accumulation kernel, as a pipeline over any entry contents `V`: what each of the three cases
  of the body leaves in the output block's staging buffer and in the accumulator; what they hold after each of the 16
  grid points, by recursion on the point (a first tile starts the accumulator afresh, a middle or last tile adds to
  what the tile before left, and only a last tile stores the output block); the invariant carrying the accumulator
  from a point to the next; the proof data; and the body obligation at every point.
-/
import proofs.«158100_j22514218565864_2_alg».proof.Proof.Bits.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What this case leaves in the output block's staging buffer (nothing is stored: a placeholder nothing consults, the window being idle and not written back at these points). -/
def out0_A_5 (c : Dev nD) (i : grid0.Coords) (arg2 : Memref sig .tc .vmem S1x1024x768 .bf16) (harg2 : arg2.IsWhole) (arg3 : Memref sig .tc .vmem S768x768 .bf16) (harg3 : arg3.IsWhole) (arg4 : Memref sig .tc .vmem S768 .f32) (harg4 : arg4.IsWhole) (arg5 : Memref sig .tc .vmem S768x768 .bf16) (harg5 : arg5.IsWhole) (arg6 : Memref sig .tc .vmem S768 .f32) (harg6 : arg6.IsWhole) (arg7 : Memref sig .tc .vmem S1x768x768 .bf16) (harg7 : arg7.IsWhole) (arg8 : Memref sig .tc .vmem S768x768 .f32) (harg8 : arg8.IsWhole) (hc0 : cond0_0 i) (hc1 : ¬cond0_1 i)
    (x0 : Vec F S1x1024x768 .bf16) (x1 : Vec F S768x768 .bf16) (x2 : Vec F S768 .f32) (x3 : Vec F S768x768 .bf16) (x4 : Vec F S768 .f32) : Vec F S1x768x768 .bf16 :=
  VO0_5.read (Elt F) (VO0_5.writes (Elt F) VO0_5.junk (kernelRun0_A c i arg2 harg2 arg3 harg3 arg4 harg4 arg5 harg5 arg6 harg6 arg7 harg7 arg8 harg8 hc0 hc1 x0 x1 x2 x3 x4).1)

/-- In this case the body's stores into the accumulator tile it. -/
theorem scover0_A_0 (c : Dev nD) (i : grid0.Coords) (arg2 : Memref sig .tc .vmem S1x1024x768 .bf16) (harg2 : arg2.IsWhole) (arg3 : Memref sig .tc .vmem S768x768 .bf16) (harg3 : arg3.IsWhole) (arg4 : Memref sig .tc .vmem S768 .f32) (harg4 : arg4.IsWhole) (arg5 : Memref sig .tc .vmem S768x768 .bf16) (harg5 : arg5.IsWhole) (arg6 : Memref sig .tc .vmem S768 .f32) (harg6 : arg6.IsWhole) (arg7 : Memref sig .tc .vmem S1x768x768 .bf16) (harg7 : arg7.IsWhole) (arg8 : Memref sig .tc .vmem S768x768 .f32) (harg8 : arg8.IsWhole) (hc0 : cond0_0 i) (hc1 : ¬cond0_1 i)
    (x0 : Vec F S1x1024x768 .bf16) (x1 : Vec F S768x768 .bf16) (x2 : Vec F S768 .f32) (x3 : Vec F S768x768 .bf16) (x4 : Vec F S768 .f32) (y : S768x768.Idx) :
    ∃ pc ∈ (kernelRun0_A c i arg2 harg2 arg3 harg3 arg4 harg4 arg5 harg5 arg6 harg6 arg7 harg7 arg8 harg8 hc0 hc1 x0 x1 x2 x3 x4).2.1, y ∈ pc.1.set :=
  View.cover_of_tiledL (kernelRun0_A c i arg2 harg2 arg3 harg3 arg4 harg4 arg5 harg5 arg6 harg6 arg7 harg7 arg8 harg8 hc0 hc1 x0 x1 x2 x3 x4).2.1 S768x768.size (by sl_kernel_rfl) y

/-- What this case leaves in the accumulator. -/
def sout0_A_0 (c : Dev nD) (i : grid0.Coords) (arg2 : Memref sig .tc .vmem S1x1024x768 .bf16) (harg2 : arg2.IsWhole) (arg3 : Memref sig .tc .vmem S768x768 .bf16) (harg3 : arg3.IsWhole) (arg4 : Memref sig .tc .vmem S768 .f32) (harg4 : arg4.IsWhole) (arg5 : Memref sig .tc .vmem S768x768 .bf16) (harg5 : arg5.IsWhole) (arg6 : Memref sig .tc .vmem S768 .f32) (harg6 : arg6.IsWhole) (arg7 : Memref sig .tc .vmem S1x768x768 .bf16) (harg7 : arg7.IsWhole) (arg8 : Memref sig .tc .vmem S768x768 .f32) (harg8 : arg8.IsWhole) (hc0 : cond0_0 i) (hc1 : ¬cond0_1 i)
    (x0 : Vec F S1x1024x768 .bf16) (x1 : Vec F S768x768 .bf16) (x2 : Vec F S768 .f32) (x3 : Vec F S768x768 .bf16) (x4 : Vec F S768 .f32) : Vec F S768x768 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3 x4).2.1)

/-- What this case leaves in the output block's staging buffer (nothing is stored: a placeholder nothing consults, the window being idle and not written back at these points). -/
def out0_B_5 (c : Dev nD) (i : grid0.Coords) (arg2 : Memref sig .tc .vmem S1x1024x768 .bf16) (harg2 : arg2.IsWhole) (arg3 : Memref sig .tc .vmem S768x768 .bf16) (harg3 : arg3.IsWhole) (arg4 : Memref sig .tc .vmem S768 .f32) (harg4 : arg4.IsWhole) (arg5 : Memref sig .tc .vmem S768x768 .bf16) (harg5 : arg5.IsWhole) (arg6 : Memref sig .tc .vmem S768 .f32) (harg6 : arg6.IsWhole) (arg7 : Memref sig .tc .vmem S1x768x768 .bf16) (harg7 : arg7.IsWhole) (arg8 : Memref sig .tc .vmem S768x768 .f32) (harg8 : arg8.IsWhole) (hc0 : ¬cond0_0 i) (hc1 : ¬cond0_1 i)
    (x0 : Vec F S1x1024x768 .bf16) (x1 : Vec F S768x768 .bf16) (x2 : Vec F S768 .f32) (x3 : Vec F S768x768 .bf16) (x4 : Vec F S768 .f32) (xs0 : Vec F S768x768 .f32) : Vec F S1x768x768 .bf16 :=
  VO0_5.read (Elt F) (VO0_5.writes (Elt F) VO0_5.junk (kernelRun0_B c i arg2 harg2 arg3 harg3 arg4 harg4 arg5 harg5 arg6 harg6 arg7 harg7 arg8 harg8 hc0 hc1 x0 x1 x2 x3 x4 xs0).1)

/-- In this case the body's stores into the accumulator tile it. -/
theorem scover0_B_0 (c : Dev nD) (i : grid0.Coords) (arg2 : Memref sig .tc .vmem S1x1024x768 .bf16) (harg2 : arg2.IsWhole) (arg3 : Memref sig .tc .vmem S768x768 .bf16) (harg3 : arg3.IsWhole) (arg4 : Memref sig .tc .vmem S768 .f32) (harg4 : arg4.IsWhole) (arg5 : Memref sig .tc .vmem S768x768 .bf16) (harg5 : arg5.IsWhole) (arg6 : Memref sig .tc .vmem S768 .f32) (harg6 : arg6.IsWhole) (arg7 : Memref sig .tc .vmem S1x768x768 .bf16) (harg7 : arg7.IsWhole) (arg8 : Memref sig .tc .vmem S768x768 .f32) (harg8 : arg8.IsWhole) (hc0 : ¬cond0_0 i) (hc1 : ¬cond0_1 i)
    (x0 : Vec F S1x1024x768 .bf16) (x1 : Vec F S768x768 .bf16) (x2 : Vec F S768 .f32) (x3 : Vec F S768x768 .bf16) (x4 : Vec F S768 .f32) (xs0 : Vec F S768x768 .f32) (y : S768x768.Idx) :
    ∃ pc ∈ (kernelRun0_B c i arg2 harg2 arg3 harg3 arg4 harg4 arg5 harg5 arg6 harg6 arg7 harg7 arg8 harg8 hc0 hc1 x0 x1 x2 x3 x4 xs0).2.1, y ∈ pc.1.set :=
  View.cover_of_tiledL (kernelRun0_B c i arg2 harg2 arg3 harg3 arg4 harg4 arg5 harg5 arg6 harg6 arg7 harg7 arg8 harg8 hc0 hc1 x0 x1 x2 x3 x4 xs0).2.1 S768x768.size (by sl_kernel_rfl) y

/-- What this case leaves in the accumulator. -/
def sout0_B_0 (c : Dev nD) (i : grid0.Coords) (arg2 : Memref sig .tc .vmem S1x1024x768 .bf16) (harg2 : arg2.IsWhole) (arg3 : Memref sig .tc .vmem S768x768 .bf16) (harg3 : arg3.IsWhole) (arg4 : Memref sig .tc .vmem S768 .f32) (harg4 : arg4.IsWhole) (arg5 : Memref sig .tc .vmem S768x768 .bf16) (harg5 : arg5.IsWhole) (arg6 : Memref sig .tc .vmem S768 .f32) (harg6 : arg6.IsWhole) (arg7 : Memref sig .tc .vmem S1x768x768 .bf16) (harg7 : arg7.IsWhole) (arg8 : Memref sig .tc .vmem S768x768 .f32) (harg8 : arg8.IsWhole) (hc0 : ¬cond0_0 i) (hc1 : ¬cond0_1 i)
    (x0 : Vec F S1x1024x768 .bf16) (x1 : Vec F S768x768 .bf16) (x2 : Vec F S768 .f32) (x3 : Vec F S768x768 .bf16) (x4 : Vec F S768 .f32) (xs0 : Vec F S768x768 .f32) : Vec F S768x768 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 x4 xs0).2.1)

/-- In this case the body's store tiles the output block's staging buffer. -/
theorem cover0_C_5 (c : Dev nD) (i : grid0.Coords) (arg2 : Memref sig .tc .vmem S1x1024x768 .bf16) (harg2 : arg2.IsWhole) (arg3 : Memref sig .tc .vmem S768x768 .bf16) (harg3 : arg3.IsWhole) (arg4 : Memref sig .tc .vmem S768 .f32) (harg4 : arg4.IsWhole) (arg5 : Memref sig .tc .vmem S768x768 .bf16) (harg5 : arg5.IsWhole) (arg6 : Memref sig .tc .vmem S768 .f32) (harg6 : arg6.IsWhole) (arg7 : Memref sig .tc .vmem S1x768x768 .bf16) (harg7 : arg7.IsWhole) (arg8 : Memref sig .tc .vmem S768x768 .f32) (harg8 : arg8.IsWhole) (hc0 : ¬cond0_0 i) (hc1 : cond0_1 i)
    (x0 : Vec F S1x1024x768 .bf16) (x1 : Vec F S768x768 .bf16) (x2 : Vec F S768 .f32) (x3 : Vec F S768x768 .bf16) (x4 : Vec F S768 .f32) (xs0 : Vec F S768x768 .f32) (y : S1x768x768.Idx) :
    ∃ pc ∈ (kernelRun0_C c i arg2 harg2 arg3 harg3 arg4 harg4 arg5 harg5 arg6 harg6 arg7 harg7 arg8 harg8 hc0 hc1 x0 x1 x2 x3 x4 xs0).1, y ∈ pc.1.set :=
  View.cover_of_tiledL (kernelRun0_C c i arg2 harg2 arg3 harg3 arg4 harg4 arg5 harg5 arg6 harg6 arg7 harg7 arg8 harg8 hc0 hc1 x0 x1 x2 x3 x4 xs0).1 S1x768x768.size (by sl_kernel_rfl) y

/-- What this case leaves in the output block's staging buffer. -/
def out0_C_5 (c : Dev nD) (i : grid0.Coords) (arg2 : Memref sig .tc .vmem S1x1024x768 .bf16) (harg2 : arg2.IsWhole) (arg3 : Memref sig .tc .vmem S768x768 .bf16) (harg3 : arg3.IsWhole) (arg4 : Memref sig .tc .vmem S768 .f32) (harg4 : arg4.IsWhole) (arg5 : Memref sig .tc .vmem S768x768 .bf16) (harg5 : arg5.IsWhole) (arg6 : Memref sig .tc .vmem S768 .f32) (harg6 : arg6.IsWhole) (arg7 : Memref sig .tc .vmem S1x768x768 .bf16) (harg7 : arg7.IsWhole) (arg8 : Memref sig .tc .vmem S768x768 .f32) (harg8 : arg8.IsWhole) (hc0 : ¬cond0_0 i) (hc1 : cond0_1 i)
    (x0 : Vec F S1x1024x768 .bf16) (x1 : Vec F S768x768 .bf16) (x2 : Vec F S768 .f32) (x3 : Vec F S768x768 .bf16) (x4 : Vec F S768 .f32) (xs0 : Vec F S768x768 .f32) : Vec F S1x768x768 .bf16 :=
  VO0_5.read (Elt F) (VO0_5.writes (Elt F) VO0_5.junk (kernelRun0_C c i arg2 harg2 arg3 harg3 arg4 harg4 arg5 harg5 arg6 harg6 arg7 harg7 arg8 harg8 hc0 hc1 x0 x1 x2 x3 x4 xs0).1)

/-- In this case the body's stores into the accumulator tile it. -/
theorem scover0_C_0 (c : Dev nD) (i : grid0.Coords) (arg2 : Memref sig .tc .vmem S1x1024x768 .bf16) (harg2 : arg2.IsWhole) (arg3 : Memref sig .tc .vmem S768x768 .bf16) (harg3 : arg3.IsWhole) (arg4 : Memref sig .tc .vmem S768 .f32) (harg4 : arg4.IsWhole) (arg5 : Memref sig .tc .vmem S768x768 .bf16) (harg5 : arg5.IsWhole) (arg6 : Memref sig .tc .vmem S768 .f32) (harg6 : arg6.IsWhole) (arg7 : Memref sig .tc .vmem S1x768x768 .bf16) (harg7 : arg7.IsWhole) (arg8 : Memref sig .tc .vmem S768x768 .f32) (harg8 : arg8.IsWhole) (hc0 : ¬cond0_0 i) (hc1 : cond0_1 i)
    (x0 : Vec F S1x1024x768 .bf16) (x1 : Vec F S768x768 .bf16) (x2 : Vec F S768 .f32) (x3 : Vec F S768x768 .bf16) (x4 : Vec F S768 .f32) (xs0 : Vec F S768x768 .f32) (y : S768x768.Idx) :
    ∃ pc ∈ (kernelRun0_C c i arg2 harg2 arg3 harg3 arg4 harg4 arg5 harg5 arg6 harg6 arg7 harg7 arg8 harg8 hc0 hc1 x0 x1 x2 x3 x4 xs0).2.1, y ∈ pc.1.set :=
  View.cover_of_tiledL (kernelRun0_C c i arg2 harg2 arg3 harg3 arg4 harg4 arg5 harg5 arg6 harg6 arg7 harg7 arg8 harg8 hc0 hc1 x0 x1 x2 x3 x4 xs0).2.1 S768x768.size (by sl_kernel_rfl) y

/-- What this case leaves in the accumulator. -/
def sout0_C_0 (c : Dev nD) (i : grid0.Coords) (arg2 : Memref sig .tc .vmem S1x1024x768 .bf16) (harg2 : arg2.IsWhole) (arg3 : Memref sig .tc .vmem S768x768 .bf16) (harg3 : arg3.IsWhole) (arg4 : Memref sig .tc .vmem S768 .f32) (harg4 : arg4.IsWhole) (arg5 : Memref sig .tc .vmem S768x768 .bf16) (harg5 : arg5.IsWhole) (arg6 : Memref sig .tc .vmem S768 .f32) (harg6 : arg6.IsWhole) (arg7 : Memref sig .tc .vmem S1x768x768 .bf16) (harg7 : arg7.IsWhole) (arg8 : Memref sig .tc .vmem S768x768 .f32) (harg8 : arg8.IsWhole) (hc0 : ¬cond0_0 i) (hc1 : cond0_1 i)
    (x0 : Vec F S1x1024x768 .bf16) (x1 : Vec F S768x768 .bf16) (x2 : Vec F S768 .f32) (x3 : Vec F S768x768 .bf16) (x4 : Vec F S768 .f32) (xs0 : Vec F S768x768 .f32) : Vec F S768x768 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 x3 x4 xs0).2.1)

section Entry
variable (V : (c : Dev nD) → (b : Ref sig .tc) → Buf (Elt F) ((c : Thread nD τ).loc b))

/-! ## What the output block's buffer and the accumulator hold after each point -/

/-- After the body at position `n`: the output block's staging buffer, and the accumulator. -/
def outsAt0 (c : Dev nD) : (n : ℕ) → n < cfg0.N → Vec F S1x768x768 .bf16 × Vec F S768x768 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 4 = 0 then
      if h1 : (n + 1) % 4 = 3 then
        False.elim (by omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      if h1 : (n + 1) % 4 = 3 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)

theorem outsAt0_A (c : Dev nD) (t : Fin cfg0.N) (h0 : t.val % 4 = 0) (h1 : ¬t.val % 4 = 3) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point every scoped buffer at anything; afterwards the
    accumulator at what the point before left in it, the other scoped buffers at anything, the generator register at
    some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ otherScoped0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ otherScoped0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ otherScoped0 c) ∗ (∃ r, prngReg c r)) := by
  cases n with
  | zero => exact absurd rfl hz
  | succ n => rfl

/-! ## The pipeline's proof data -/

/-- The arrays as the region finds them; after the body at point `t` each input's buffer at its block and the output's
    at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 8000000 in
/-- The body at any point: the inputs' memrefs hold their blocks; the point's position among the four sequence tiles
    says which case it is in; the invariant hands the body the accumulator at what the point before left (at anything at
    the very first point) and takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hN : t.val < 16 := lt_of_lt_of_eq t.isLt (show cfg0.N = 16 from N_0)
  rw [show (dat0 V c).leavesExact 0 t = owns (c : Thread nD τ) (ms0_0 t) fullShare ((dat0 V c).after 0 t) from by
        unfold Dat.leavesExact; rw [liveAt0_0 t], after0_0]
  rw [show (dat0 V c).leavesExact 1 t = owns (c : Thread nD τ) (ms0_1 t) fullShare ((dat0 V c).after 1 t) from by
        unfold Dat.leavesExact; rw [liveAt0_1 t], after0_1]
  rw [show (dat0 V c).leavesExact 2 t = owns (c : Thread nD τ) (ms0_2 t) fullShare ((dat0 V c).after 2 t) from by
        unfold Dat.leavesExact; rw [liveAt0_2 t], after0_2]
  rw [show (dat0 V c).leavesExact 3 t = owns (c : Thread nD τ) (ms0_3 t) fullShare ((dat0 V c).after 3 t) from by
        unfold Dat.leavesExact; rw [liveAt0_3 t], after0_3]
  rw [show (dat0 V c).leavesExact 4 t = owns (c : Thread nD τ) (ms0_4 t) fullShare ((dat0 V c).after 4 t) from by
        unfold Dat.leavesExact; rw [liveAt0_4 t], after0_4]
  by_cases h0 : t.val % 4 = 0
  · by_cases h1 : t.val % 4 = 3
    · exfalso; omega
    · rw [Dat.leavesExact_idle (dat0 V c) 5 t (idleAt0_5 t (fun h => h1 ((hcond0_1 t).mp h))) (noFlush0_5 t (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, Hoth⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc V c t, PhiS_pos V c _ _ hz]
        iintro ⟨⟨⟨HS0, Hoth⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    · rw [show (dat0 V c).leavesExact 5 t = owns (c : Thread nD τ) (ms0_5 t) fullShare ((dat0 V c).after 5 t) from by
        unfold Dat.leavesExact; rw [liveAt0_5 t ((hcond0_1 t).mpr h1)], after0_5]
      rw [outsAt0_C V c t h0 h1]
      unfold out0_C_5 sout0_C_0; (try dsimp only)
      by_cases hz : t.val = 0
      · exfalso; omega
      · rw [PhiS_castSucc V c t, PhiS_pos V c _ _ hz]
        iintro ⟨⟨⟨HS0, Hoth⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_C_5 c _ _ _ _ _ _ _ _ _ _ _ _ _ _ _ _ _ _ _ _ _ _ _)
    · rw [Dat.leavesExact_idle (dat0 V c) 5 t (idleAt0_5 t (fun h => h1 ((hcond0_1 t).mp h))) (noFlush0_5 t (fun h => h1 ((hcond0_1 t).mp h)))]
      rw [outsAt0_B V c t h0 h1]
      unfold sout0_B_0; (try dsimp only)
      by_cases hz : t.val = 0
      · exfalso; omega
      · rw [PhiS_castSucc V c t, PhiS_pos V c _ _ hz]
        iintro ⟨⟨⟨HS0, Hoth⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the scoped buffers back, the accumulator's contents forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 16 := N_0; omega), PhiA0_eq]
  iintro ⟨⟨HS0, Hoth⟩, Hg⟩
  isplitl [HS0 Hoth]
  · isplitl [HS0]
    · iexists _; iexact HS0
    iexact Hoth
  iexact Hg

end Entry

end Cert.Kernel.Hand

end
-- ==== Proof.Bits.R1Frame.lean ====
/-
  Region 1, the output kernel (q = x·Wqᵀ + bq on a tile of 1024 rows, then q·KV for the batch's key/value product), as a
  pipeline over any entry contents `V`: each window's block at a grid point, what the body's one store leaves in the
  output block's staging buffer as a function of the four input blocks, the body's triple, the proof data, and the
  body obligation at every point.  The body keeps nothing between points.
-/
import proofs.«158100_j22514218565864_2_alg».proof.Proof.Gen.Kernel.Launch
import proofs.«158100_j22514218565864_2_alg».proof.Proof.Gen.Kernel.Skeleton
import proofs.«158100_j22514218565864_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Entry

/-! ## The body's accesses and what it leaves in the output block's buffer -/

abbrev r1_x : Rect S1x1024x768 := Rect.unit (s := S1x1024x768) ![0, 0, 0] S1x1024x768.size inb_S1x1024x768_S1x1024x768_0_0_0
abbrev r1_w : Rect S768x768 := Rect.unit (s := S768x768) ![0, 0] S768x768.size inb_S768x768_S768x768_0_0
abbrev r1_b : Rect S768 := Rect.unit (s := S768) ![0] S768.size inb_S768_S768_0
abbrev r1_kv : Rect S1x768x768 := Rect.unit (s := S1x768x768) ![0, 0, 0] S1x768x768.size inb_S1x768x768_S1x768x768_0_0_0

/-- The output block's staging buffer after the body: its one store, over the payload of the four loads. -/
def out1_4 (x0 : Vec F S1x1024x768 .bf16) (x1 : Vec F S768x768 .bf16) (x2 : Vec F S768 .f32) (x3 : Vec F S1x768x768 .bf16) : Vec F S1x1024x768 .f32 :=
  View.canon [⟨r1_x, k1_pay1 (View.ld x0 r1_x) (View.ld x1 r1_w) (View.ld x2 r1_b) (View.ld x3 r1_kv)⟩]

theorem cover1_4 (p0 : Vec F S1x1024x768 .f32) (y : S1x1024x768.Idx) :
    ∃ pc ∈ ([⟨r1_x, p0⟩] : List (View.Piece (Elt F) S1x1024x768 .f32)), y ∈ pc.1.set :=
  View.cover_of_tiled [⟨r1_x, p0⟩] S1x1024x768.size (by rfl) y

set_option maxHeartbeats 4000000 in
/-- The body on whole staging memrefs, the inputs' at read contents and the output's at anything, runs to its
    continuation holding the inputs' as they were and the output's at `out1_4` of them. -/
theorem sound_kernel1 (c : Dev nD) (E : Set ℕ) (i : grid1.Coords) (arg2 : Memref sig .tc .vmem S1x1024x768 .bf16) (harg2 : arg2.IsWhole) (arg3 : Memref sig .tc .vmem S768x768 .bf16) (harg3 : arg3.IsWhole) (arg4 : Memref sig .tc .vmem S768 .f32) (harg4 : arg4.IsWhole) (arg5 : Memref sig .tc .vmem S1x768x768 .bf16) (harg5 : arg5.IsWhole) (arg6 : Memref sig .tc .vmem S1x1024x768 .f32) (harg6 : arg6.IsWhole)
    (x0 : Vec F S1x1024x768 .bf16) (x1 : Vec F S768x768 .bf16) (x2 : Vec F S768 .f32) (x3 : Vec F S1x768x768 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out1_4 x0 x1 x2 x3)) -∗ K ⟨⟩))
      ⊢ wp frame (wpE (defs₀ (F := F)) Variants.none c none) E (cc1__out_kernel i arg2 harg2 arg3 harg3 arg4 harg4 arg5 harg5 arg6 harg6) K := by
  simp only [cc1__out_kernel_eq_skeleton]; unfold cc1__out_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

section Entry
variable (V : (c : Dev nD) → (b : Ref sig .tc) → Buf (Elt F) ((c : Thread nD τ).loc b))

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Entry

end Cert.Kernel.Hand

end
-- ==== Proof.Bits.Run.lean ====
/-
  The whole program as three segments — the host operations that lay the operands out, the key/value region, the
  output region — run from the launch to the return: the contents of every buffer at each segment boundary (the host
  stretch's fold over the launch memory; then each region's arrays at what its write-backs leave, every other buffer as
  entered), every pipeline's proof data at its region's entry contents, and the run, whose final memory holds every
  unscoped buffer at the last boundary's contents.  The frame claim follows: no segment writes an argument.
-/
import proofs.«158100_j22514218565864_2_alg».proof.Proof.Bits.R0Frame
import proofs.«158100_j22514218565864_2_alg».proof.Proof.Bits.R1Frame
import proofs.«158100_j22514218565864_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- After the host operations (region 0's entry). -/
abbrev W1 : Dev nD → Valuation τ sig (Elt F) := fun c => Gen.V1 m c
abbrev E1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- At region 1's exit. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem hF1 (c : Dev nD) (w : Fin cfg1.W) : (dat1 (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-! ### The arguments end as launched -/

theorem W3_main_arg0 (c : Dev nD) : W3 m c (Proc.devRef .tc main_arg0) = m ((c : Thread nD τ).loc main_arg0) :=
  (W3_of_ne m c main_arg0 (by decide)).trans <| (W2_of_ne m c main_arg0 (by decide)).trans <| (Gen.V1_of m c main_arg0 (by decide)).trans rfl
theorem W3_main_arg1 (c : Dev nD) : W3 m c (Proc.devRef .tc main_arg1) = m ((c : Thread nD τ).loc main_arg1) :=
  (W3_of_ne m c main_arg1 (by decide)).trans <| (W2_of_ne m c main_arg1 (by decide)).trans <| (Gen.V1_of m c main_arg1 (by decide)).trans rfl
theorem W3_main_arg2 (c : Dev nD) : W3 m c (Proc.devRef .tc main_arg2) = m ((c : Thread nD τ).loc main_arg2) :=
  (W3_arr m c 2).trans <| ((dat1 (E2 m) c).arrAt_in 2 rfl _).trans <| (A_eq1 (E2 m) c 2).trans <| (W2_of_ne m c main_arg2 (by decide)).trans <| (Gen.V1_of m c main_arg2 (by decide)).trans rfl
theorem W3_main_arg3 (c : Dev nD) : W3 m c (Proc.devRef .tc main_arg3) = m ((c : Thread nD τ).loc main_arg3) :=
  (W3_of_ne m c main_arg3 (by decide)).trans <| (W2_of_ne m c main_arg3 (by decide)).trans <| (Gen.V1_of m c main_arg3 (by decide)).trans rfl
theorem W3_main_arg4 (c : Dev nD) : W3 m c (Proc.devRef .tc main_arg4) = m ((c : Thread nD τ).loc main_arg4) :=
  (W3_of_ne m c main_arg4 (by decide)).trans <| (W2_arr m c 2).trans <| ((dat0 (E1 m) c).arrAt_in 2 rfl _).trans <| (A_eq0 (E1 m) c 2).trans <| (Gen.V1_of m c main_arg4 (by decide)).trans rfl
theorem W3_main_arg5 (c : Dev nD) : W3 m c (Proc.devRef .tc main_arg5) = m ((c : Thread nD τ).loc main_arg5) :=
  (W3_of_ne m c main_arg5 (by decide)).trans <| (W2_of_ne m c main_arg5 (by decide)).trans <| (Gen.V1_of m c main_arg5 (by decide)).trans rfl
theorem W3_main_arg6 (c : Dev nD) : W3 m c (Proc.devRef .tc main_arg6) = m ((c : Thread nD τ).loc main_arg6) :=
  (W3_of_ne m c main_arg6 (by decide)).trans <| (W2_of_ne m c main_arg6 (by decide)).trans <| (Gen.V1_of m c main_arg6 (by decide)).trans rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- Region 0 over the thread state: entered from every unscoped buffer at `W1`, left at `W2`; its arrays
    split out of the unscoped buffers and put back at what the pipeline leaves; the generator register and the scoped
    buffers into the kernel's invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest spec0 c ∗ ∃ r, prngReg c r) : sProp 𝕄) ⊢ (pdats m 0 c).Φ 0 := hin0 (E1 m) c
    iintro ⟨Hp, -, Hr⟩
    iapply h
    isplitl [Hr]; · iexact Hr
    iexact Hp
  hout c := by
    rw [Pipeline.ownSems0_none]
    have h : (pdats m 0 c).Φ (Fin.last _) ⊢ (iprop(Pipeline.scopedRest spec0 c ∗ ∃ r, prngReg c r) : sProp 𝕄) := hout0 (E1 m) c
    iintro HΦ
    ihave H := h $$ HΦ
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`; its arrays
    split out of the unscoped buffers and put back at what the pipeline leaves; the generator register and the scoped
    buffers into the kernel's invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub Gen.hostOps0_fresh (Gen.V0 m)),
    .region (reg0 m),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and every final memory holds every unscoped buffer at the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame claim: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c),
     (h c _ (mem_uc main_arg6 (by decide))).trans (W3_main_arg6 m c)⟩) (run_all m ρ)

end Cert.Kernel.Hand

end
-- ==== Proof.Ideal.R0Base.lean ====
/-
  Region 0 of the program, the key/value accumulation kernel, seen from any contents `V` of the TensorCore's buffers at
  the region's entry: each window's block at a grid point, the fact that an input window's staging buffer holds its
  block at every point (fetched there or carried over: the block index has not moved), the two branch conditions of
  the body decided over the 4 × 4 grid (the accumulator is cleared at the first sequence tile of a batch, the output
  block is stored at the last), where the output window is idle, and the invariant's shape: the accumulator scratch
  owned beside the other scoped buffers and the generator register.
-/
import proofs.«158100_j22514218565864_2_alg».proof.Proof.Gen.KernelIdeal.Launch
import proofs.«158100_j22514218565864_2_alg».proof.Proof.Gen.KernelIdeal.Skeleton
import proofs.«158100_j22514218565864_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, for any proof data over `V` whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

end Entry

/-! ## The body's branch conditions -/

/-- The accumulator is cleared: the sequence-tile coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The output block is stored: the sequence-tile coordinate is the last, 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Where the output block is not stored the output window is idle and not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

/-! ## The staging memrefs and the scratch -/

abbrev VO0_5 : View sig .tc .vmem S1x768x768 .bf16 := (Memref.whole cc0_stg5_0 : Memref sig .tc .vmem S1x768x768 .bf16).view
abbrev ms0_0 (t : Fin cfg0.N) : Memref sig .tc .vmem S1x1024x768 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S768x768 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S768 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S768x768 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S768 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x768x768 .bf16 := win0_5.stage (cfg0.slots t 5)
abbrev hs0_5 (t : Fin cfg0.N) : (ms0_5 t).IsWhole := hstage0_5 ((cfg0.slots t 5).cast nbuf0_5)
/-- The accumulator: a whole scoped buffer of the kernel's own, carried from one grid point to the next. -/
abbrev scM0_0 : Memref sig .tc .vmem S768x768 .f32 := Memref.whole cc0_scratch0
abbrev VS0_0 : View sig .tc .vmem S768x768 .f32 := scM0_0.view

/-- The scoped buffers the kernel never names (the other region's staging buffers), each whole at some contents. -/
def otherScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The class invariant spelt out: the accumulator owned at some contents, the other scoped buffers, the generator register. -/
theorem PhiA0_eq (c : Dev nD) :
    (Pipeline.ΦA spec0 c : sProp 𝕄)
      = iprop(iprop((∃ d, owns (c : Thread nD τ) scM0_0 fullShare d) ∗ otherScoped0 c) ∗ (∃ r, prngReg c r)) := by
  unfold Pipeline.ΦA otherScoped0; rw [scopedRest0_eq]; simp only [scM0_0, owns_whole]; try rfl

end Cert.KernelIdeal.Hand

end
-- ==== Proof.Ideal.R0RunA.lean ====
/-
  The key/value kernel's body at a first sequence tile (the accumulator is cleared, then the tile's product added; nothing is stored into the output block).
-/
import proofs.«158100_j22514218565864_2_alg».proof.Proof.Ideal.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block's staging buffer and in the accumulator in this case (last
    first), with the triple: on whole staging memrefs holding the input blocks, the body runs to its continuation with
    the inputs as they were and each written buffer at its pieces written over what it held. -/
noncomputable def kernelRun0_A (c : Dev nD) (i : grid0.Coords) (arg2 : Memref sig .tc .vmem S1x1024x768 .bf16) (harg2 : arg2.IsWhole) (arg3 : Memref sig .tc .vmem S768x768 .bf16) (harg3 : arg3.IsWhole) (arg4 : Memref sig .tc .vmem S768 .f32) (harg4 : arg4.IsWhole) (arg5 : Memref sig .tc .vmem S768x768 .bf16) (harg5 : arg5.IsWhole) (arg6 : Memref sig .tc .vmem S768 .f32) (harg6 : arg6.IsWhole) (arg7 : Memref sig .tc .vmem S1x768x768 .bf16) (harg7 : arg7.IsWhole) (arg8 : Memref sig .tc .vmem S768x768 .f32) (harg8 : arg8.IsWhole) (hc0 : cond0_0 i) (hc1 : ¬cond0_1 i)
    (x0 : Vec F S1x1024x768 .bf16) (x1 : Vec F S768x768 .bf16) (x2 : Vec F S768 .f32) (x3 : Vec F S768x768 .bf16) (x4 : Vec F S768 .f32) :
    Σ' (L5 : List (View.Piece (Elt F) S1x768x768 .bf16)), { LS0 : List (View.Piece (Elt F) S768x768 .f32) //
      ∀ (xi5 : Vec F S1x768x768 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__kv_kernel i arg2 harg2 arg3 harg3 arg4 harg4 arg5 harg5 arg6 harg6 arg7 harg7 arg8 harg8) K } := by
  refine ⟨[], ?_, fun xi5 E K => ?run⟩
  case run =>
    simp only [cc0__kv_kernel_eq_skeleton]; unfold cc0__kv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.Ideal.R0RunB.lean ====
/-
  The key/value kernel's body at a middle sequence tile (the tile's product is added to the accumulator the tile before left; nothing is stored into the output block).
-/
import proofs.«158100_j22514218565864_2_alg».proof.Proof.Ideal.R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block's staging buffer and in the accumulator in this case (last
    first), with the triple: on whole staging memrefs holding the input blocks, the body runs to its continuation with
    the inputs as they were and each written buffer at its pieces written over what it held. -/
noncomputable def kernelRun0_B (c : Dev nD) (i : grid0.Coords) (arg2 : Memref sig .tc .vmem S1x1024x768 .bf16) (harg2 : arg2.IsWhole) (arg3 : Memref sig .tc .vmem S768x768 .bf16) (harg3 : arg3.IsWhole) (arg4 : Memref sig .tc .vmem S768 .f32) (harg4 : arg4.IsWhole) (arg5 : Memref sig .tc .vmem S768x768 .bf16) (harg5 : arg5.IsWhole) (arg6 : Memref sig .tc .vmem S768 .f32) (harg6 : arg6.IsWhole) (arg7 : Memref sig .tc .vmem S1x768x768 .bf16) (harg7 : arg7.IsWhole) (arg8 : Memref sig .tc .vmem S768x768 .f32) (harg8 : arg8.IsWhole) (hc0 : ¬cond0_0 i) (hc1 : ¬cond0_1 i)
    (x0 : Vec F S1x1024x768 .bf16) (x1 : Vec F S768x768 .bf16) (x2 : Vec F S768 .f32) (x3 : Vec F S768x768 .bf16) (x4 : Vec F S768 .f32) (xs0 : Vec F S768x768 .f32) :
    Σ' (L5 : List (View.Piece (Elt F) S1x768x768 .bf16)), { LS0 : List (View.Piece (Elt F) S768x768 .f32) //
      ∀ (xi5 : Vec F S1x768x768 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__kv_kernel i arg2 harg2 arg3 harg3 arg4 harg4 arg5 harg5 arg6 harg6 arg7 harg7 arg8 harg8) K } := by
  refine ⟨[], ?_, fun xi5 E K => ?run⟩
  case run =>
    simp only [cc0__kv_kernel_eq_skeleton]; unfold cc0__kv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.Ideal.R0RunC.lean ====
/-
  The key/value kernel's body at a last sequence tile (the tile's product is added to the accumulator, and the accumulator, narrowed, is stored as the output block).
-/
import proofs.«158100_j22514218565864_2_alg».proof.Proof.Ideal.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block's staging buffer and in the accumulator in this case (last
    first), with the triple: on whole staging memrefs holding the input blocks, the body runs to its continuation with
    the inputs as they were and each written buffer at its pieces written over what it held. -/
noncomputable def kernelRun0_C (c : Dev nD) (i : grid0.Coords) (arg2 : Memref sig .tc .vmem S1x1024x768 .bf16) (harg2 : arg2.IsWhole) (arg3 : Memref sig .tc .vmem S768x768 .bf16) (harg3 : arg3.IsWhole) (arg4 : Memref sig .tc .vmem S768 .f32) (harg4 : arg4.IsWhole) (arg5 : Memref sig .tc .vmem S768x768 .bf16) (harg5 : arg5.IsWhole) (arg6 : Memref sig .tc .vmem S768 .f32) (harg6 : arg6.IsWhole) (arg7 : Memref sig .tc .vmem S1x768x768 .bf16) (harg7 : arg7.IsWhole) (arg8 : Memref sig .tc .vmem S768x768 .f32) (harg8 : arg8.IsWhole) (hc0 : ¬cond0_0 i) (hc1 : cond0_1 i)
    (x0 : Vec F S1x1024x768 .bf16) (x1 : Vec F S768x768 .bf16) (x2 : Vec F S768 .f32) (x3 : Vec F S768x768 .bf16) (x4 : Vec F S768 .f32) (xs0 : Vec F S768x768 .f32) :
    Σ' (L5 : List (View.Piece (Elt F) S1x768x768 .bf16)), { LS0 : List (View.Piece (Elt F) S768x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0__kv_kernel i arg2 harg2 arg3 harg3 arg4 harg4 arg5 harg5 arg6 harg6 arg7 harg7 arg8 harg8) K } := by
  refine ⟨?_, ?_, fun E K => ?run⟩
  case run =>
    simp only [cc0__kv_kernel_eq_skeleton]; unfold cc0__kv_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Hand

end
-- ==== Proof.Ideal.R0Frame.lean ====
/-
  Region 0, the key/value accumulation kernel, as a pipeline over any entry contents `V`: what each of the three cases
  of the body leaves in the output block's staging buffer and in the accumulator; what they hold after each of the 16
  grid points, by recursion on the point (a first tile starts the accumulator afresh, a middle or last tile adds to
  what the tile before left, and only a last tile stores the output block); the invariant carrying the accumulator
  from a point to the next; the proof data; and the body obligation at every point.
-/
import proofs.«158100_j22514218565864_2_alg».proof.Proof.Ideal.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What this case leaves in the output block's staging buffer (nothing is stored: a placeholder nothing consults, the window being idle and not written back at these points). -/
def out0_A_5 (c : Dev nD) (i : grid0.Coords) (arg2 : Memref sig .tc .vmem S1x1024x768 .bf16) (harg2 : arg2.IsWhole) (arg3 : Memref sig .tc .vmem S768x768 .bf16) (harg3 : arg3.IsWhole) (arg4 : Memref sig .tc .vmem S768 .f32) (harg4 : arg4.IsWhole) (arg5 : Memref sig .tc .vmem S768x768 .bf16) (harg5 : arg5.IsWhole) (arg6 : Memref sig .tc .vmem S768 .f32) (harg6 : arg6.IsWhole) (arg7 : Memref sig .tc .vmem S1x768x768 .bf16) (harg7 : arg7.IsWhole) (arg8 : Memref sig .tc .vmem S768x768 .f32) (harg8 : arg8.IsWhole) (hc0 : cond0_0 i) (hc1 : ¬cond0_1 i)
    (x0 : Vec F S1x1024x768 .bf16) (x1 : Vec F S768x768 .bf16) (x2 : Vec F S768 .f32) (x3 : Vec F S768x768 .bf16) (x4 : Vec F S768 .f32) : Vec F S1x768x768 .bf16 :=
  VO0_5.read (Elt F) (VO0_5.writes (Elt F) VO0_5.junk (kernelRun0_A c i arg2 harg2 arg3 harg3 arg4 harg4 arg5 harg5 arg6 harg6 arg7 harg7 arg8 harg8 hc0 hc1 x0 x1 x2 x3 x4).1)

/-- In this case the body's stores into the accumulator tile it. -/
theorem scover0_A_0 (c : Dev nD) (i : grid0.Coords) (arg2 : Memref sig .tc .vmem S1x1024x768 .bf16) (harg2 : arg2.IsWhole) (arg3 : Memref sig .tc .vmem S768x768 .bf16) (harg3 : arg3.IsWhole) (arg4 : Memref sig .tc .vmem S768 .f32) (harg4 : arg4.IsWhole) (arg5 : Memref sig .tc .vmem S768x768 .bf16) (harg5 : arg5.IsWhole) (arg6 : Memref sig .tc .vmem S768 .f32) (harg6 : arg6.IsWhole) (arg7 : Memref sig .tc .vmem S1x768x768 .bf16) (harg7 : arg7.IsWhole) (arg8 : Memref sig .tc .vmem S768x768 .f32) (harg8 : arg8.IsWhole) (hc0 : cond0_0 i) (hc1 : ¬cond0_1 i)
    (x0 : Vec F S1x1024x768 .bf16) (x1 : Vec F S768x768 .bf16) (x2 : Vec F S768 .f32) (x3 : Vec F S768x768 .bf16) (x4 : Vec F S768 .f32) (y : S768x768.Idx) :
    ∃ pc ∈ (kernelRun0_A c i arg2 harg2 arg3 harg3 arg4 harg4 arg5 harg5 arg6 harg6 arg7 harg7 arg8 harg8 hc0 hc1 x0 x1 x2 x3 x4).2.1, y ∈ pc.1.set :=
  View.cover_of_tiledL (kernelRun0_A c i arg2 harg2 arg3 harg3 arg4 harg4 arg5 harg5 arg6 harg6 arg7 harg7 arg8 harg8 hc0 hc1 x0 x1 x2 x3 x4).2.1 S768x768.size (by sl_kernel_rfl) y

/-- What this case leaves in the accumulator. -/
def sout0_A_0 (c : Dev nD) (i : grid0.Coords) (arg2 : Memref sig .tc .vmem S1x1024x768 .bf16) (harg2 : arg2.IsWhole) (arg3 : Memref sig .tc .vmem S768x768 .bf16) (harg3 : arg3.IsWhole) (arg4 : Memref sig .tc .vmem S768 .f32) (harg4 : arg4.IsWhole) (arg5 : Memref sig .tc .vmem S768x768 .bf16) (harg5 : arg5.IsWhole) (arg6 : Memref sig .tc .vmem S768 .f32) (harg6 : arg6.IsWhole) (arg7 : Memref sig .tc .vmem S1x768x768 .bf16) (harg7 : arg7.IsWhole) (arg8 : Memref sig .tc .vmem S768x768 .f32) (harg8 : arg8.IsWhole) (hc0 : cond0_0 i) (hc1 : ¬cond0_1 i)
    (x0 : Vec F S1x1024x768 .bf16) (x1 : Vec F S768x768 .bf16) (x2 : Vec F S768 .f32) (x3 : Vec F S768x768 .bf16) (x4 : Vec F S768 .f32) : Vec F S768x768 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3 x4).2.1)

/-- What this case leaves in the output block's staging buffer (nothing is stored: a placeholder nothing consults, the window being idle and not written back at these points). -/
def out0_B_5 (c : Dev nD) (i : grid0.Coords) (arg2 : Memref sig .tc .vmem S1x1024x768 .bf16) (harg2 : arg2.IsWhole) (arg3 : Memref sig .tc .vmem S768x768 .bf16) (harg3 : arg3.IsWhole) (arg4 : Memref sig .tc .vmem S768 .f32) (harg4 : arg4.IsWhole) (arg5 : Memref sig .tc .vmem S768x768 .bf16) (harg5 : arg5.IsWhole) (arg6 : Memref sig .tc .vmem S768 .f32) (harg6 : arg6.IsWhole) (arg7 : Memref sig .tc .vmem S1x768x768 .bf16) (harg7 : arg7.IsWhole) (arg8 : Memref sig .tc .vmem S768x768 .f32) (harg8 : arg8.IsWhole) (hc0 : ¬cond0_0 i) (hc1 : ¬cond0_1 i)
    (x0 : Vec F S1x1024x768 .bf16) (x1 : Vec F S768x768 .bf16) (x2 : Vec F S768 .f32) (x3 : Vec F S768x768 .bf16) (x4 : Vec F S768 .f32) (xs0 : Vec F S768x768 .f32) : Vec F S1x768x768 .bf16 :=
  VO0_5.read (Elt F) (VO0_5.writes (Elt F) VO0_5.junk (kernelRun0_B c i arg2 harg2 arg3 harg3 arg4 harg4 arg5 harg5 arg6 harg6 arg7 harg7 arg8 harg8 hc0 hc1 x0 x1 x2 x3 x4 xs0).1)

/-- In this case the body's stores into the accumulator tile it. -/
theorem scover0_B_0 (c : Dev nD) (i : grid0.Coords) (arg2 : Memref sig .tc .vmem S1x1024x768 .bf16) (harg2 : arg2.IsWhole) (arg3 : Memref sig .tc .vmem S768x768 .bf16) (harg3 : arg3.IsWhole) (arg4 : Memref sig .tc .vmem S768 .f32) (harg4 : arg4.IsWhole) (arg5 : Memref sig .tc .vmem S768x768 .bf16) (harg5 : arg5.IsWhole) (arg6 : Memref sig .tc .vmem S768 .f32) (harg6 : arg6.IsWhole) (arg7 : Memref sig .tc .vmem S1x768x768 .bf16) (harg7 : arg7.IsWhole) (arg8 : Memref sig .tc .vmem S768x768 .f32) (harg8 : arg8.IsWhole) (hc0 : ¬cond0_0 i) (hc1 : ¬cond0_1 i)
    (x0 : Vec F S1x1024x768 .bf16) (x1 : Vec F S768x768 .bf16) (x2 : Vec F S768 .f32) (x3 : Vec F S768x768 .bf16) (x4 : Vec F S768 .f32) (xs0 : Vec F S768x768 .f32) (y : S768x768.Idx) :
    ∃ pc ∈ (kernelRun0_B c i arg2 harg2 arg3 harg3 arg4 harg4 arg5 harg5 arg6 harg6 arg7 harg7 arg8 harg8 hc0 hc1 x0 x1 x2 x3 x4 xs0).2.1, y ∈ pc.1.set :=
  View.cover_of_tiledL (kernelRun0_B c i arg2 harg2 arg3 harg3 arg4 harg4 arg5 harg5 arg6 harg6 arg7 harg7 arg8 harg8 hc0 hc1 x0 x1 x2 x3 x4 xs0).2.1 S768x768.size (by sl_kernel_rfl) y

/-- What this case leaves in the accumulator. -/
def sout0_B_0 (c : Dev nD) (i : grid0.Coords) (arg2 : Memref sig .tc .vmem S1x1024x768 .bf16) (harg2 : arg2.IsWhole) (arg3 : Memref sig .tc .vmem S768x768 .bf16) (harg3 : arg3.IsWhole) (arg4 : Memref sig .tc .vmem S768 .f32) (harg4 : arg4.IsWhole) (arg5 : Memref sig .tc .vmem S768x768 .bf16) (harg5 : arg5.IsWhole) (arg6 : Memref sig .tc .vmem S768 .f32) (harg6 : arg6.IsWhole) (arg7 : Memref sig .tc .vmem S1x768x768 .bf16) (harg7 : arg7.IsWhole) (arg8 : Memref sig .tc .vmem S768x768 .f32) (harg8 : arg8.IsWhole) (hc0 : ¬cond0_0 i) (hc1 : ¬cond0_1 i)
    (x0 : Vec F S1x1024x768 .bf16) (x1 : Vec F S768x768 .bf16) (x2 : Vec F S768 .f32) (x3 : Vec F S768x768 .bf16) (x4 : Vec F S768 .f32) (xs0 : Vec F S768x768 .f32) : Vec F S768x768 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 x4 xs0).2.1)

/-- In this case the body's store tiles the output block's staging buffer. -/
theorem cover0_C_5 (c : Dev nD) (i : grid0.Coords) (arg2 : Memref sig .tc .vmem S1x1024x768 .bf16) (harg2 : arg2.IsWhole) (arg3 : Memref sig .tc .vmem S768x768 .bf16) (harg3 : arg3.IsWhole) (arg4 : Memref sig .tc .vmem S768 .f32) (harg4 : arg4.IsWhole) (arg5 : Memref sig .tc .vmem S768x768 .bf16) (harg5 : arg5.IsWhole) (arg6 : Memref sig .tc .vmem S768 .f32) (harg6 : arg6.IsWhole) (arg7 : Memref sig .tc .vmem S1x768x768 .bf16) (harg7 : arg7.IsWhole) (arg8 : Memref sig .tc .vmem S768x768 .f32) (harg8 : arg8.IsWhole) (hc0 : ¬cond0_0 i) (hc1 : cond0_1 i)
    (x0 : Vec F S1x1024x768 .bf16) (x1 : Vec F S768x768 .bf16) (x2 : Vec F S768 .f32) (x3 : Vec F S768x768 .bf16) (x4 : Vec F S768 .f32) (xs0 : Vec F S768x768 .f32) (y : S1x768x768.Idx) :
    ∃ pc ∈ (kernelRun0_C c i arg2 harg2 arg3 harg3 arg4 harg4 arg5 harg5 arg6 harg6 arg7 harg7 arg8 harg8 hc0 hc1 x0 x1 x2 x3 x4 xs0).1, y ∈ pc.1.set :=
  View.cover_of_tiledL (kernelRun0_C c i arg2 harg2 arg3 harg3 arg4 harg4 arg5 harg5 arg6 harg6 arg7 harg7 arg8 harg8 hc0 hc1 x0 x1 x2 x3 x4 xs0).1 S1x768x768.size (by sl_kernel_rfl) y

/-- What this case leaves in the output block's staging buffer. -/
def out0_C_5 (c : Dev nD) (i : grid0.Coords) (arg2 : Memref sig .tc .vmem S1x1024x768 .bf16) (harg2 : arg2.IsWhole) (arg3 : Memref sig .tc .vmem S768x768 .bf16) (harg3 : arg3.IsWhole) (arg4 : Memref sig .tc .vmem S768 .f32) (harg4 : arg4.IsWhole) (arg5 : Memref sig .tc .vmem S768x768 .bf16) (harg5 : arg5.IsWhole) (arg6 : Memref sig .tc .vmem S768 .f32) (harg6 : arg6.IsWhole) (arg7 : Memref sig .tc .vmem S1x768x768 .bf16) (harg7 : arg7.IsWhole) (arg8 : Memref sig .tc .vmem S768x768 .f32) (harg8 : arg8.IsWhole) (hc0 : ¬cond0_0 i) (hc1 : cond0_1 i)
    (x0 : Vec F S1x1024x768 .bf16) (x1 : Vec F S768x768 .bf16) (x2 : Vec F S768 .f32) (x3 : Vec F S768x768 .bf16) (x4 : Vec F S768 .f32) (xs0 : Vec F S768x768 .f32) : Vec F S1x768x768 .bf16 :=
  VO0_5.read (Elt F) (VO0_5.writes (Elt F) VO0_5.junk (kernelRun0_C c i arg2 harg2 arg3 harg3 arg4 harg4 arg5 harg5 arg6 harg6 arg7 harg7 arg8 harg8 hc0 hc1 x0 x1 x2 x3 x4 xs0).1)

/-- In this case the body's stores into the accumulator tile it. -/
theorem scover0_C_0 (c : Dev nD) (i : grid0.Coords) (arg2 : Memref sig .tc .vmem S1x1024x768 .bf16) (harg2 : arg2.IsWhole) (arg3 : Memref sig .tc .vmem S768x768 .bf16) (harg3 : arg3.IsWhole) (arg4 : Memref sig .tc .vmem S768 .f32) (harg4 : arg4.IsWhole) (arg5 : Memref sig .tc .vmem S768x768 .bf16) (harg5 : arg5.IsWhole) (arg6 : Memref sig .tc .vmem S768 .f32) (harg6 : arg6.IsWhole) (arg7 : Memref sig .tc .vmem S1x768x768 .bf16) (harg7 : arg7.IsWhole) (arg8 : Memref sig .tc .vmem S768x768 .f32) (harg8 : arg8.IsWhole) (hc0 : ¬cond0_0 i) (hc1 : cond0_1 i)
    (x0 : Vec F S1x1024x768 .bf16) (x1 : Vec F S768x768 .bf16) (x2 : Vec F S768 .f32) (x3 : Vec F S768x768 .bf16) (x4 : Vec F S768 .f32) (xs0 : Vec F S768x768 .f32) (y : S768x768.Idx) :
    ∃ pc ∈ (kernelRun0_C c i arg2 harg2 arg3 harg3 arg4 harg4 arg5 harg5 arg6 harg6 arg7 harg7 arg8 harg8 hc0 hc1 x0 x1 x2 x3 x4 xs0).2.1, y ∈ pc.1.set :=
  View.cover_of_tiledL (kernelRun0_C c i arg2 harg2 arg3 harg3 arg4 harg4 arg5 harg5 arg6 harg6 arg7 harg7 arg8 harg8 hc0 hc1 x0 x1 x2 x3 x4 xs0).2.1 S768x768.size (by sl_kernel_rfl) y

/-- What this case leaves in the accumulator. -/
def sout0_C_0 (c : Dev nD) (i : grid0.Coords) (arg2 : Memref sig .tc .vmem S1x1024x768 .bf16) (harg2 : arg2.IsWhole) (arg3 : Memref sig .tc .vmem S768x768 .bf16) (harg3 : arg3.IsWhole) (arg4 : Memref sig .tc .vmem S768 .f32) (harg4 : arg4.IsWhole) (arg5 : Memref sig .tc .vmem S768x768 .bf16) (harg5 : arg5.IsWhole) (arg6 : Memref sig .tc .vmem S768 .f32) (harg6 : arg6.IsWhole) (arg7 : Memref sig .tc .vmem S1x768x768 .bf16) (harg7 : arg7.IsWhole) (arg8 : Memref sig .tc .vmem S768x768 .f32) (harg8 : arg8.IsWhole) (hc0 : ¬cond0_0 i) (hc1 : cond0_1 i)
    (x0 : Vec F S1x1024x768 .bf16) (x1 : Vec F S768x768 .bf16) (x2 : Vec F S768 .f32) (x3 : Vec F S768x768 .bf16) (x4 : Vec F S768 .f32) (xs0 : Vec F S768x768 .f32) : Vec F S768x768 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 x3 x4 xs0).2.1)

section Entry
variable (V : (c : Dev nD) → (b : Ref sig .tc) → Buf (Elt F) ((c : Thread nD τ).loc b))

/-! ## What the output block's buffer and the accumulator hold after each point -/

/-- After the body at position `n`: the output block's staging buffer, and the accumulator. -/
def outsAt0 (c : Dev nD) : (n : ℕ) → n < cfg0.N → Vec F S1x768x768 .bf16 × Vec F S768x768 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 4 = 0 then
      if h1 : (n + 1) % 4 = 3 then
        False.elim (by omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      if h1 : (n + 1) % 4 = 3 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)

theorem outsAt0_A (c : Dev nD) (t : Fin cfg0.N) (h0 : t.val % 4 = 0) (h1 : ¬t.val % 4 = 3) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point every scoped buffer at anything; afterwards the
    accumulator at what the point before left in it, the other scoped buffers at anything, the generator register at
    some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ otherScoped0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ otherScoped0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ otherScoped0 c) ∗ (∃ r, prngReg c r)) := by
  cases n with
  | zero => exact absurd rfl hz
  | succ n => rfl

/-! ## The pipeline's proof data -/

/-- The arrays as the region finds them; after the body at point `t` each input's buffer at its block and the output's
    at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 8000000 in
/-- The body at any point: the inputs' memrefs hold their blocks; the point's position among the four sequence tiles
    says which case it is in; the invariant hands the body the accumulator at what the point before left (at anything at
    the very first point) and takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hN : t.val < 16 := lt_of_lt_of_eq t.isLt (show cfg0.N = 16 from N_0)
  rw [show (dat0 V c).leavesExact 0 t = owns (c : Thread nD τ) (ms0_0 t) fullShare ((dat0 V c).after 0 t) from by
        unfold Dat.leavesExact; rw [liveAt0_0 t], after0_0]
  rw [show (dat0 V c).leavesExact 1 t = owns (c : Thread nD τ) (ms0_1 t) fullShare ((dat0 V c).after 1 t) from by
        unfold Dat.leavesExact; rw [liveAt0_1 t], after0_1]
  rw [show (dat0 V c).leavesExact 2 t = owns (c : Thread nD τ) (ms0_2 t) fullShare ((dat0 V c).after 2 t) from by
        unfold Dat.leavesExact; rw [liveAt0_2 t], after0_2]
  rw [show (dat0 V c).leavesExact 3 t = owns (c : Thread nD τ) (ms0_3 t) fullShare ((dat0 V c).after 3 t) from by
        unfold Dat.leavesExact; rw [liveAt0_3 t], after0_3]
  rw [show (dat0 V c).leavesExact 4 t = owns (c : Thread nD τ) (ms0_4 t) fullShare ((dat0 V c).after 4 t) from by
        unfold Dat.leavesExact; rw [liveAt0_4 t], after0_4]
  by_cases h0 : t.val % 4 = 0
  · by_cases h1 : t.val % 4 = 3
    · exfalso; omega
    · rw [Dat.leavesExact_idle (dat0 V c) 5 t (idleAt0_5 t (fun h => h1 ((hcond0_1 t).mp h))) (noFlush0_5 t (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, Hoth⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc V c t, PhiS_pos V c _ _ hz]
        iintro ⟨⟨⟨HS0, Hoth⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    · rw [show (dat0 V c).leavesExact 5 t = owns (c : Thread nD τ) (ms0_5 t) fullShare ((dat0 V c).after 5 t) from by
        unfold Dat.leavesExact; rw [liveAt0_5 t ((hcond0_1 t).mpr h1)], after0_5]
      rw [outsAt0_C V c t h0 h1]
      unfold out0_C_5 sout0_C_0; (try dsimp only)
      by_cases hz : t.val = 0
      · exfalso; omega
      · rw [PhiS_castSucc V c t, PhiS_pos V c _ _ hz]
        iintro ⟨⟨⟨HS0, Hoth⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_C_5 c _ _ _ _ _ _ _ _ _ _ _ _ _ _ _ _ _ _ _ _ _ _ _)
    · rw [Dat.leavesExact_idle (dat0 V c) 5 t (idleAt0_5 t (fun h => h1 ((hcond0_1 t).mp h))) (noFlush0_5 t (fun h => h1 ((hcond0_1 t).mp h)))]
      rw [outsAt0_B V c t h0 h1]
      unfold sout0_B_0; (try dsimp only)
      by_cases hz : t.val = 0
      · exfalso; omega
      · rw [PhiS_castSucc V c t, PhiS_pos V c _ _ hz]
        iintro ⟨⟨⟨HS0, Hoth⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the scoped buffers back, the accumulator's contents forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 16 := N_0; omega), PhiA0_eq]
  iintro ⟨⟨HS0, Hoth⟩, Hg⟩
  isplitl [HS0 Hoth]
  · isplitl [HS0]
    · iexists _; iexact HS0
    iexact Hoth
  iexact Hg

end Entry

end Cert.KernelIdeal.Hand

end
-- ==== Proof.Ideal.R1Frame.lean ====
/-
  Region 1, the output kernel (q = x·Wqᵀ + bq on a tile of 1024 rows, then q·KV for the batch's key/value product), as a
  pipeline over any entry contents `V`: each window's block at a grid point, what the body's one store leaves in the
  output block's staging buffer as a function of the four input blocks, the body's triple, the proof data, and the
  body obligation at every point.  The body keeps nothing between points.
-/
import proofs.«158100_j22514218565864_2_alg».proof.Proof.Gen.KernelIdeal.Launch
import proofs.«158100_j22514218565864_2_alg».proof.Proof.Gen.KernelIdeal.Skeleton
import proofs.«158100_j22514218565864_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Entry

/-! ## The body's accesses and what it leaves in the output block's buffer -/

abbrev r1_x : Rect S1x1024x768 := Rect.unit (s := S1x1024x768) ![0, 0, 0] S1x1024x768.size inb_S1x1024x768_S1x1024x768_0_0_0
abbrev r1_w : Rect S768x768 := Rect.unit (s := S768x768) ![0, 0] S768x768.size inb_S768x768_S768x768_0_0
abbrev r1_b : Rect S768 := Rect.unit (s := S768) ![0] S768.size inb_S768_S768_0
abbrev r1_kv : Rect S1x768x768 := Rect.unit (s := S1x768x768) ![0, 0, 0] S1x768x768.size inb_S1x768x768_S1x768x768_0_0_0

/-- The output block's staging buffer after the body: its one store, over the payload of the four loads. -/
def out1_4 (x0 : Vec F S1x1024x768 .bf16) (x1 : Vec F S768x768 .bf16) (x2 : Vec F S768 .f32) (x3 : Vec F S1x768x768 .bf16) : Vec F S1x1024x768 .f32 :=
  View.canon [⟨r1_x, k1_pay1 (View.ld x0 r1_x) (View.ld x1 r1_w) (View.ld x2 r1_b) (View.ld x3 r1_kv)⟩]

theorem cover1_4 (p0 : Vec F S1x1024x768 .f32) (y : S1x1024x768.Idx) :
    ∃ pc ∈ ([⟨r1_x, p0⟩] : List (View.Piece (Elt F) S1x1024x768 .f32)), y ∈ pc.1.set :=
  View.cover_of_tiled [⟨r1_x, p0⟩] S1x1024x768.size (by rfl) y

set_option maxHeartbeats 4000000 in
/-- The body on whole staging memrefs, the inputs' at read contents and the output's at anything, runs to its
    continuation holding the inputs' as they were and the output's at `out1_4` of them. -/
theorem sound_kernel1 (c : Dev nD) (E : Set ℕ) (i : grid1.Coords) (arg2 : Memref sig .tc .vmem S1x1024x768 .bf16) (harg2 : arg2.IsWhole) (arg3 : Memref sig .tc .vmem S768x768 .bf16) (harg3 : arg3.IsWhole) (arg4 : Memref sig .tc .vmem S768 .f32) (harg4 : arg4.IsWhole) (arg5 : Memref sig .tc .vmem S1x768x768 .bf16) (harg5 : arg5.IsWhole) (arg6 : Memref sig .tc .vmem S1x1024x768 .f32) (harg6 : arg6.IsWhole)
    (x0 : Vec F S1x1024x768 .bf16) (x1 : Vec F S768x768 .bf16) (x2 : Vec F S768 .f32) (x3 : Vec F S1x768x768 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out1_4 x0 x1 x2 x3)) -∗ K ⟨⟩))
      ⊢ wp frame (wpE (defs₀ (F := F)) Variants.none c none) E (cc1__out_kernel i arg2 harg2 arg3 harg3 arg4 harg4 arg5 harg5 arg6 harg6) K := by
  simp only [cc1__out_kernel_eq_skeleton]; unfold cc1__out_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

section Entry
variable (V : (c : Dev nD) → (b : Ref sig .tc) → Buf (Elt F) ((c : Thread nD τ).loc b))

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Entry

end Cert.KernelIdeal.Hand

end
-- ==== Proof.Ideal.Run.lean ====
/-
  The whole program as three segments — the host operations that lay the operands out, the key/value region, the
  output region — run from the launch to the return: the contents of every buffer at each segment boundary (the host
  stretch's fold over the launch memory; then each region's arrays at what its write-backs leave, every other buffer as
  entered), every pipeline's proof data at its region's entry contents, and the run, whose final memory holds every
  unscoped buffer at the last boundary's contents.  The frame claim follows: no segment writes an argument.
-/
import proofs.«158100_j22514218565864_2_alg».proof.Proof.Ideal.R0Frame
import proofs.«158100_j22514218565864_2_alg».proof.Proof.Ideal.R1Frame
import proofs.«158100_j22514218565864_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- After the host operations (region 0's entry). -/
abbrev W1 : Dev nD → Valuation τ sig (Elt F) := fun c => Gen.V1 m c
abbrev E1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- At region 1's exit. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem hF1 (c : Dev nD) (w : Fin cfg1.W) : (dat1 (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-! ### The arguments end as launched -/

theorem W3_main_arg0 (c : Dev nD) : W3 m c (Proc.devRef .tc main_arg0) = m ((c : Thread nD τ).loc main_arg0) :=
  (W3_of_ne m c main_arg0 (by decide)).trans <| (W2_of_ne m c main_arg0 (by decide)).trans <| (Gen.V1_of m c main_arg0 (by decide)).trans rfl
theorem W3_main_arg1 (c : Dev nD) : W3 m c (Proc.devRef .tc main_arg1) = m ((c : Thread nD τ).loc main_arg1) :=
  (W3_of_ne m c main_arg1 (by decide)).trans <| (W2_of_ne m c main_arg1 (by decide)).trans <| (Gen.V1_of m c main_arg1 (by decide)).trans rfl
theorem W3_main_arg2 (c : Dev nD) : W3 m c (Proc.devRef .tc main_arg2) = m ((c : Thread nD τ).loc main_arg2) :=
  (W3_arr m c 2).trans <| ((dat1 (E2 m) c).arrAt_in 2 rfl _).trans <| (A_eq1 (E2 m) c 2).trans <| (W2_of_ne m c main_arg2 (by decide)).trans <| (Gen.V1_of m c main_arg2 (by decide)).trans rfl
theorem W3_main_arg3 (c : Dev nD) : W3 m c (Proc.devRef .tc main_arg3) = m ((c : Thread nD τ).loc main_arg3) :=
  (W3_of_ne m c main_arg3 (by decide)).trans <| (W2_of_ne m c main_arg3 (by decide)).trans <| (Gen.V1_of m c main_arg3 (by decide)).trans rfl
theorem W3_main_arg4 (c : Dev nD) : W3 m c (Proc.devRef .tc main_arg4) = m ((c : Thread nD τ).loc main_arg4) :=
  (W3_of_ne m c main_arg4 (by decide)).trans <| (W2_arr m c 2).trans <| ((dat0 (E1 m) c).arrAt_in 2 rfl _).trans <| (A_eq0 (E1 m) c 2).trans <| (Gen.V1_of m c main_arg4 (by decide)).trans rfl
theorem W3_main_arg5 (c : Dev nD) : W3 m c (Proc.devRef .tc main_arg5) = m ((c : Thread nD τ).loc main_arg5) :=
  (W3_of_ne m c main_arg5 (by decide)).trans <| (W2_of_ne m c main_arg5 (by decide)).trans <| (Gen.V1_of m c main_arg5 (by decide)).trans rfl
theorem W3_main_arg6 (c : Dev nD) : W3 m c (Proc.devRef .tc main_arg6) = m ((c : Thread nD τ).loc main_arg6) :=
  (W3_of_ne m c main_arg6 (by decide)).trans <| (W2_of_ne m c main_arg6 (by decide)).trans <| (Gen.V1_of m c main_arg6 (by decide)).trans rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- Region 0 over the thread state: entered from every unscoped buffer at `W1`, left at `W2`; its arrays
    split out of the unscoped buffers and put back at what the pipeline leaves; the generator register and the scoped
    buffers into the kernel's invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest spec0 c ∗ ∃ r, prngReg c r) : sProp 𝕄) ⊢ (pdats m 0 c).Φ 0 := hin0 (E1 m) c
    iintro ⟨Hp, -, Hr⟩
    iapply h
    isplitl [Hr]; · iexact Hr
    iexact Hp
  hout c := by
    rw [Pipeline.ownSems0_none]
    have h : (pdats m 0 c).Φ (Fin.last _) ⊢ (iprop(Pipeline.scopedRest spec0 c ∗ ∃ r, prngReg c r) : sProp 𝕄) := hout0 (E1 m) c
    iintro HΦ
    ihave H := h $$ HΦ
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`; its arrays
    split out of the unscoped buffers and put back at what the pipeline leaves; the generator register and the scoped
    buffers into the kernel's invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub Gen.hostOps0_fresh (Gen.V0 m)),
    .region (reg0 m),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and every final memory holds every unscoped buffer at the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame claim: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c),
     (h c _ (mem_uc main_arg6 (by decide))).trans (W3_main_arg6 m c)⟩) (run_all m ρ)

end Cert.KernelIdeal.Hand

end
-- ==== Proof.Ideal.HostVals.lean ====
/-
  What the host operations before the two regions leave in the buffers the regions read, as functions of the
  argument arrays: the rows `x` narrowed (the same numbers at the exact values), each weight matrix transposed, the
  value projection's weights and bias multiplied by the scale literal.  Then the same read at an index at the exact
  values: a transposed matrix at (j, e) is the matrix at (e, j); narrowing changes nothing.
-/
import proofs.«158100_j22514218565864_2_alg».proof.Proof.Ideal.Run
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo Idealize.ShloMosaic.ValueIdx

section Fold
variable (V : Valuation τ sig (Elt F))

theorem host_v10 : after hostOps0 V (main_v10 : DevRef τ sig) = truncf .bf16 (V (main_arg0 : DevRef τ sig)) bitsLt_bf16_f32 := by
  after_results
theorem host_v1 : after hostOps0 V (main_v1 : DevRef τ sig) = truncf .bf16 (transpose S768x768 [1, 0] (V (main_arg1 : DevRef τ sig)) transposes_S768x768_S768x768_1_0) bitsLt_bf16_f32 := by
  after_results
theorem host_v3 : after hostOps0 V (main_v3 : DevRef τ sig) = truncf .bf16 (transpose S768x768 [1, 0] (V (main_arg3 : DevRef τ sig)) transposes_S768x768_S768x768_1_0) bitsLt_bf16_f32 := by
  after_results
theorem host_v7 : after hostOps0 V (main_v7 : DevRef τ sig) = truncf .bf16 (mulf (transpose S768x768 [1, 0] (V (main_arg5 : DevRef τ sig)) transposes_S768x768_S768x768_1_0) (broadcastInDim S768x768 ![] bcast_S_S768x768 (constant (F := F) S_ .f32 0x3D13CD3A#32))) bitsLt_bf16_f32 := by
  after_results
theorem host_v9 : after hostOps0 V (main_v9 : DevRef τ sig) = mulf (V (main_arg6 : DevRef τ sig)) (broadcastInDim S768 ![] bcast_S_S768 (constant (F := F) S_ .f32 0x3D13CD3A#32)) := by
  after_results

end Fold

/-! ## The regions' entry contents at the exact values, index by index -/

section Reads
variable (m : (ℓ : Loc nD τ sig) → Buf (Elt Ideal) ℓ) (c : Dev nD)

/-- The scale literal both programs multiply by, as an extended real. -/
abbrev scaleLit : EReal := Ideal.ofBits .f32 0x3D13CD3A#32

/-- The seven argument arrays as launched, as extended-real arrays. -/
abbrev A0 : S4x4096x768.Idx → EReal := m ((c : Thread nD τ).loc main_arg0)
abbrev A1 : S768x768.Idx → EReal := m ((c : Thread nD τ).loc main_arg1)
abbrev A2 : S768.Idx → EReal := m ((c : Thread nD τ).loc main_arg2)
abbrev A3 : S768x768.Idx → EReal := m ((c : Thread nD τ).loc main_arg3)
abbrev A4 : S768.Idx → EReal := m ((c : Thread nD τ).loc main_arg4)
abbrev A5 : S768x768.Idx → EReal := m ((c : Thread nD τ).loc main_arg5)
abbrev A6 : S768.Idx → EReal := m ((c : Thread nD τ).loc main_arg6)

/-- The rows enter region 0 as the argument's (narrowing is the identity at the exact values). -/
theorem E1_x : (E1 m c main_v10 : S4x4096x768.Idx → EReal) = A0 m c :=
  host_v10 (Gen.V0 m c)

/-- The key weights enter transposed. -/
theorem E1_wk (j e : Fin 768) : (E1 m c main_v3 : S768x768.Idx → EReal) (ix2 j e) = A3 m c (ix2 e j) := by
  rw [show (E1 m c main_v3 : S768x768.Idx → EReal) = _ from host_v3 (Gen.V0 m c)]
  exact transpose_ix2_apply _ _ j e

/-- The query weights enter transposed. -/
theorem E1_wq (j e : Fin 768) : (E1 m c main_v1 : S768x768.Idx → EReal) (ix2 j e) = A1 m c (ix2 e j) := by
  rw [show (E1 m c main_v1 : S768x768.Idx → EReal) = _ from host_v1 (Gen.V0 m c)]
  exact transpose_ix2_apply _ _ j e

/-- The value weights enter transposed and scaled. -/
theorem E1_wv (j d : Fin 768) : (E1 m c main_v7 : S768x768.Idx → EReal) (ix2 j d) = A5 m c (ix2 d j) * scaleLit := by
  rw [show (E1 m c main_v7 : S768x768.Idx → EReal) = _ from host_v7 (Gen.V0 m c)]
  rw [truncf_apply, mulf_apply, transpose_ix2_apply _ _ j d]
  rfl

/-- The value bias enters scaled. -/
theorem E1_bv (d : Fin 768) : (E1 m c main_v9 : S768.Idx → EReal) (ix1 d) = A6 m c (ix1 d) * scaleLit := by
  rw [show (E1 m c main_v9 : S768.Idx → EReal) = _ from host_v9 (Gen.V0 m c), mulf_apply]
  rfl

/-- The key bias and the query bias enter as the arguments'. -/
theorem E1_bk : (E1 m c main_arg4 : S768.Idx → EReal) = A4 m c :=
  (Gen.V1_of m c main_arg4 (by decide)).trans rfl
theorem E1_bq : (E1 m c main_arg2 : S768.Idx → EReal) = A2 m c :=
  (Gen.V1_of m c main_arg2 (by decide)).trans rfl

/-! Region 1 is entered with what region 0 left: its own inputs untouched, and the key/value product. -/

theorem E2_x : E2 m c main_v10 = E1 m c main_v10 :=
  (W2_arr m c 0).trans (((dat0 (E1 m) c).arrAt_in 0 rfl _).trans (A_eq0 (E1 m) c 0))
theorem E2_wq : E2 m c main_v1 = E1 m c main_v1 := W2_of_ne m c main_v1 (by decide)
theorem E2_bq : E2 m c main_arg2 = E1 m c main_arg2 := W2_of_ne m c main_arg2 (by decide)
theorem E2_kv : E2 m c main_v11 = (dat0 (E1 m) c).arrAt 5 cfg0.N := W2_arr m c 5
theorem W3_out : W3 m c (Proc.devRef .tc main_v12) = (dat1 (E2 m) c).arrAt 4 cfg1.N := W3_arr m c 4

end Reads

end Cert.KernelIdeal.Hand

end
-- ==== Proof.Spec.lean ====
/-
  The mathematics of the two programs, over the real numbers.

  Both compute attention WITHOUT a softmax over a batch of 4 sequences of 4096 rows of width 768.  With the three
  affine projections  q = x·Wqᵀ + bq,  k = x·Wkᵀ + bk,  v = x·Wvᵀ + bv  (`proj`), and a scalar `c`,

    reference:  out[b,s,d] = ∑ₜ ((∑ₑ q[b,s,e]·k[b,t,e])·c)·v[b,t,d]                         (`outRef`)
    kernel:     out[b,s,d] = ∑ₑ q[b,s,e]·KV[b,e,d],   KV[b,e,d] = ∑ₜ k[b,t,e]·(c·v)[b,t,d]   (`outKer`)

  where the kernel forms c·v as  x·(Wvᵀ·c) + bv·c  (`vScaled`) and adds KV up over the four tiles of 1024 rows, starting
  from zero (`kvTile`, `kv`).  Over the reals the two agree: the scalar distributes over the projection's sum, and the
  sums over t and e are exchanged (`outKer_eq_outRef`).
-/
import Mathlib.Algebra.BigOperators.Ring.Finset
import Mathlib.Algebra.BigOperators.Fin
import Mathlib.Data.Real.Basic
import Mathlib.Tactic.Ring

namespace Cert.Attn

open Finset

/-- The rows. -/
abbrev Rows := Fin 4 → Fin 4096 → Fin 768 → ℝ
/-- A weight matrix, a bias vector. -/
abbrev Mat := Fin 768 → Fin 768 → ℝ
abbrev Bias := Fin 768 → ℝ

/-- An affine projection of the rows: `(x·Wᵀ + b)[b,t,e] = ∑_d x[b,t,d]·W[e,d] + b[e]`. -/
def proj (x : Rows) (W : Mat) (b : Bias) (bi : Fin 4) (t : Fin 4096) (e : Fin 768) : ℝ :=
  (∑ d : Fin 768, x bi t d * W e d) + b e

/-- The reference's arrangement: scores first, scaled, then the values. -/
def outRef (x : Rows) (Wq : Mat) (bq : Bias) (Wk : Mat) (bk : Bias) (Wv : Mat) (bv : Bias) (c : ℝ) (bi : Fin 4) (s : Fin 4096) (d : Fin 768) : ℝ :=
  ∑ t : Fin 4096, ((∑ e : Fin 768, proj x Wq bq bi s e * proj x Wk bk bi t e) * c) * proj x Wv bv bi t d

/-- The kernel's scaled values: the scalar folded into the weights and the bias. -/
def vScaled (x : Rows) (Wv : Mat) (bv : Bias) (c : ℝ) (bi : Fin 4) (t : Fin 4096) (d : Fin 768) : ℝ :=
  (∑ j : Fin 768, x bi t j * (Wv d j * c)) + bv d * c

/-- Row `r` of sequence tile `s`. -/
def tileRow (s : Fin 4) (r : Fin 1024) : Fin 4096 := ⟨s.val * 1024 + r.val, by omega⟩

/-- One tile's contribution to the key/value product. -/
def kvTile (x : Rows) (Wk : Mat) (bk : Bias) (Wv : Mat) (bv : Bias) (c : ℝ) (bi : Fin 4) (s : Fin 4) (e d : Fin 768) : ℝ :=
  ∑ r : Fin 1024, proj x Wk bk bi (tileRow s r) e * vScaled x Wv bv c bi (tileRow s r) d

/-- The key/value product as the kernel adds it up: from zero, tile after tile. -/
def kv (x : Rows) (Wk : Mat) (bk : Bias) (Wv : Mat) (bv : Bias) (c : ℝ) (bi : Fin 4) (e d : Fin 768) : ℝ :=
  (((0 + kvTile x Wk bk Wv bv c bi 0 e d) + kvTile x Wk bk Wv bv c bi 1 e d) + kvTile x Wk bk Wv bv c bi 2 e d) + kvTile x Wk bk Wv bv c bi 3 e d

/-- The kernel's arrangement. -/
def outKer (x : Rows) (Wq : Mat) (bq : Bias) (Wk : Mat) (bk : Bias) (Wv : Mat) (bv : Bias) (c : ℝ) (bi : Fin 4) (s : Fin 4096) (d : Fin 768) : ℝ :=
  ∑ e : Fin 768, proj x Wq bq bi s e * kv x Wk bk Wv bv c bi e d

end Cert.Attn
-- ==== Proof.RefSide.lean ====
/-
  The reference's result, element by element, as a real number.

  The reference computes the three affine projections q, k, v of the rows, the scores q·kᵀ, scales them by a float
  literal, and multiplies by v.  When every input entry is a real number (and the literal is one), the result at
  the index (b, s, d) is the real number  ∑ₜ ((∑ₑ q[b,s,e]·k[b,t,e])·c)·v[b,t,d]  — `Cert.Attn.outRef`.
-/
import proofs.«158100_j22514218565864_2_alg».proof.Proof.Gen.ReferenceIdeal.Read
import proofs.«158100_j22514218565864_2_alg».proof.Proof.Spec

noncomputable section

namespace Cert.RefSide

open Cert.ReferenceIdeal Cert.ReferenceIdeal.Gen Cert.ReferenceIdeal.Read Idealize.ShloMosaic Idealize.ShloMosaic.ValueIdx Cert.Attn
open scoped BigOperators

/-- The coercion of the reals into the extended reals goes through a finite sum. -/
theorem coe_sum {ι : Type} (s : Finset ι) (f : ι → ℝ) : ((∑ i ∈ s, f i : ℝ) : EReal) = ∑ i ∈ s, ((f i : ℝ) : EReal) := by
  classical
  refine Finset.induction_on s (by simp) (fun a s ha ih => ?_)
  rw [Finset.sum_insert ha, Finset.sum_insert ha, EReal.coe_add, ih]

/-- The scaling literal is a finite float: a real number. -/
theorem scale_real : ∃ cr : ℝ, (Ideal.ofBits .f32 0x3D13CD3A#32 : EReal) = ((cr : ℝ) : EReal) := by
  unfold Ideal.ofBits Ideal.ieee
  simp only []
  rw [if_neg (by decide), if_neg (by decide)]
  exact ⟨_, rfl⟩

/-! Each of the three affine projections (a contraction with the weights plus the broadcast bias) at an index. -/

/-- The queries. -/
theorem proj_q (xr : Rows) (W : Mat) (bb : Bias) (b : Fin 4) (t : Fin 4096) (e : Fin 768) :
    val_main_v3 (F := Ideal) (fun i => ((xr (i 0) (i 1) (i 2) : ℝ) : EReal)) (fun i => ((W (i 0) (i 1) : ℝ) : EReal))
        (fun i => ((bb (i 0) : ℝ) : EReal)) (ix3 b t e)
      = ((proj xr W bb b t e : ℝ) : EReal) := by
  rw [val_main_v3_apply, val_main_v0_apply, val_main_v2_apply, val_main_v1_apply]
  unfold proj
  rw [EReal.coe_add, coe_sum]
  simp only [EReal.coe_mul, Ideal.addf_def]
  rfl

/-- The keys. -/
theorem proj_k (xr : Rows) (W : Mat) (bb : Bias) (b : Fin 4) (t : Fin 4096) (e : Fin 768) :
    val_main_v7 (F := Ideal) (fun i => ((xr (i 0) (i 1) (i 2) : ℝ) : EReal)) (fun i => ((W (i 0) (i 1) : ℝ) : EReal))
        (fun i => ((bb (i 0) : ℝ) : EReal)) (ix3 b t e)
      = ((proj xr W bb b t e : ℝ) : EReal) := by
  rw [val_main_v7_apply, val_main_v4_apply, val_main_v6_apply, val_main_v5_apply]
  unfold proj
  rw [EReal.coe_add, coe_sum]
  simp only [EReal.coe_mul, Ideal.addf_def]
  rfl

/-- The values. -/
theorem proj_v (xr : Rows) (W : Mat) (bb : Bias) (b : Fin 4) (t : Fin 4096) (e : Fin 768) :
    val_main_v11 (F := Ideal) (fun i => ((xr (i 0) (i 1) (i 2) : ℝ) : EReal)) (fun i => ((W (i 0) (i 1) : ℝ) : EReal))
        (fun i => ((bb (i 0) : ℝ) : EReal)) (ix3 b t e)
      = ((proj xr W bb b t e : ℝ) : EReal) := by
  rw [val_main_v11_apply, val_main_v8_apply, val_main_v10_apply, val_main_v9_apply]
  unfold proj
  rw [EReal.coe_add, coe_sum]
  simp only [EReal.coe_mul, Ideal.addf_def]
  rfl

/-- THE REFERENCE'S RESULT AT AN INDEX: with real entries in every input and a real scaling literal, the reference's
    last stage at `(b, s, d)` is the real number `outRef`. -/
theorem ref_value (xr : Rows) (Wqr Wkr Wvr : Mat) (bqr bkr bvr : Bias) (cr : ℝ)
    (hc : (Ideal.ofBits .f32 0x3D13CD3A#32 : EReal) = ((cr : ℝ) : EReal))
    (a0 : FVec Ideal S4x4096x768 .f32) (a1 : FVec Ideal S768x768 .f32) (a2 : FVec Ideal S768 .f32)
    (a3 : FVec Ideal S768x768 .f32) (a4 : FVec Ideal S768 .f32) (a5 : FVec Ideal S768x768 .f32) (a6 : FVec Ideal S768 .f32)
    (h0 : a0 = fun i => ((xr (i 0) (i 1) (i 2) : ℝ) : EReal))
    (h1 : a1 = fun i => ((Wqr (i 0) (i 1) : ℝ) : EReal)) (h2 : a2 = fun i => ((bqr (i 0) : ℝ) : EReal))
    (h3 : a3 = fun i => ((Wkr (i 0) (i 1) : ℝ) : EReal)) (h4 : a4 = fun i => ((bkr (i 0) : ℝ) : EReal))
    (h5 : a5 = fun i => ((Wvr (i 0) (i 1) : ℝ) : EReal)) (h6 : a6 = fun i => ((bvr (i 0) : ℝ) : EReal))
    (b : Fin 4) (s : Fin 4096) (d : Fin 768) :
    val_main_v15 (F := Ideal) a0 a1 a2 a3 a4 a5 a6 (ix3 b s d)
      = ((outRef xr Wqr bqr Wkr bkr Wvr bvr cr b s d : ℝ) : EReal) := by
  subst h0 h1 h2 h3 h4 h5 h6
  rw [val_main_v15_apply]
  unfold outRef
  rw [coe_sum]
  refine Finset.sum_congr rfl fun t _ => ?_
  have el : lidx_main_v15 (ix3 b s d) t = ix3 b s t := by
    funext a; match a with | ⟨0, _⟩ => rfl | ⟨1, _⟩ => rfl | ⟨2, _⟩ => rfl
  have er : ridx_main_v15 (ix3 b s d) t = ix3 b t d := by
    funext a; match a with | ⟨0, _⟩ => rfl | ⟨1, _⟩ => rfl | ⟨2, _⟩ => rfl
  rw [el, er, val_main_v14_apply, val_main_v12_apply, val_main_v13_apply, val_main_cst_apply, proj_v,
    Ideal.mulf_def, Ideal.ofBits_def, hc, EReal.coe_mul, EReal.coe_mul, coe_sum]
  refine congrArg (fun z : EReal => z * ((cr : ℝ) : EReal) * ((proj xr Wvr bvr b t d : ℝ) : EReal)) ?_
  refine Finset.sum_congr rfl fun e _ => ?_
  have el' : lidx_main_v12 (ix3 b s t) e = ix3 b s e := by
    funext a; match a with | ⟨0, _⟩ => rfl | ⟨1, _⟩ => rfl | ⟨2, _⟩ => rfl
  have er' : ridx_main_v12 (ix3 b s t) e = ix3 b t e := by
    funext a; match a with | ⟨0, _⟩ => rfl | ⟨1, _⟩ => rfl | ⟨2, _⟩ => rfl
  rw [el', er', proj_q, proj_k, EReal.coe_mul]

/-- The same, as one equation between arrays: the reference's last stage is `outRef` at every index. -/
theorem ref_value_fun (xr : Rows) (Wqr Wkr Wvr : Mat) (bqr bkr bvr : Bias) (cr : ℝ)
    (hc : (Ideal.ofBits .f32 0x3D13CD3A#32 : EReal) = ((cr : ℝ) : EReal))
    (a0 : FVec Ideal S4x4096x768 .f32) (a1 : FVec Ideal S768x768 .f32) (a2 : FVec Ideal S768 .f32)
    (a3 : FVec Ideal S768x768 .f32) (a4 : FVec Ideal S768 .f32) (a5 : FVec Ideal S768x768 .f32) (a6 : FVec Ideal S768 .f32)
    (h0 : a0 = fun i => ((xr (i 0) (i 1) (i 2) : ℝ) : EReal))
    (h1 : a1 = fun i => ((Wqr (i 0) (i 1) : ℝ) : EReal)) (h2 : a2 = fun i => ((bqr (i 0) : ℝ) : EReal))
    (h3 : a3 = fun i => ((Wkr (i 0) (i 1) : ℝ) : EReal)) (h4 : a4 = fun i => ((bkr (i 0) : ℝ) : EReal))
    (h5 : a5 = fun i => ((Wvr (i 0) (i 1) : ℝ) : EReal)) (h6 : a6 = fun i => ((bvr (i 0) : ℝ) : EReal)) :
    val_main_v15 (F := Ideal) a0 a1 a2 a3 a4 a5 a6
      = fun i => ((outRef xr Wqr bqr Wkr bkr Wvr bvr cr (i 0) (i 1) (i 2) : ℝ) : EReal) := by
  funext i
  obtain ⟨b, s, d, rfl⟩ : ∃ (b : Fin 4) (s : Fin 4096) (d : Fin 768), i = ix3 b s d := ⟨i 0, i 1, i 2, eq_ix3 i⟩
  exact ref_value xr Wqr Wkr Wvr bqr bkr bvr cr hc a0 a1 a2 a3 a4 a5 a6 h0 h1 h2 h3 h4 h5 h6 b s d

end Cert.RefSide
-- ==== Proof.LibFiniteTest.lean ====
/-
  The elementwise finiteness test, read over the extended reals — a general module: it depends only on the ideal
  float instance.

  A precondition "every entry is finite" compares |x| with the f32 word of +∞, 0x7F800000, entry by entry, and reduces
  the one-bit answers by "and". Over the extended reals |x| = max x (−x), the word denotes +∞ (`inf_word`), and
  |x| < +∞ holds exactly when x is neither infinity; so an entry that passes the test is a real number
  (`real_of_test`). A one-bit word made from a Boolean is 1 only for true (`true_of_ofBool_one`).
-/
import Idealize.ShloMosaic.PureOps.Ideal.Laws

noncomputable section

namespace Cert.LibFiniteTest

open Idealize.ShloMosaic

/-- The f32 word 0x7F800000 is +∞. -/
theorem inf_word : Ideal.ofBits .f32 0x7F800000#32 = (⊤ : EReal) := by simp [Ideal.ofBits, Ideal.ieee]

/-- An extended real whose absolute value is below +∞ is a real number. -/
theorem real_of_abs_lt_top (x : EReal) (h : max x (-x) < ⊤) : ∃ q : ℝ, x = (q : EReal) := by
  induction x using EReal.rec with
  | bot => simp at h
  | coe q => exact ⟨q, rfl⟩
  | top => simp at h

/-- A one-bit word made from a Boolean is 1 only for true. -/
theorem true_of_ofBool_one {b : Bool} (h : BitVec.ofBool b = 1#1) : b = true := by
  cases b
  · exact absurd h (by decide)
  · rfl

/-- The elementwise test |x| < +∞ against the word of +∞, passed, gives a real number. -/
theorem real_of_test (x : EReal) (h : Ideal.cmp .olt (max x (-x)) (Ideal.ofBits .f32 0x7F800000#32) = 1#1) :
    ∃ q : ℝ, x = (q : EReal) := by
  rw [inf_word] at h
  exact real_of_abs_lt_top x (of_decide_eq_true (true_of_ofBool_one h))

end Cert.LibFiniteTest

end
-- ==== Proof.FinPre.lean ====
/-
  From the precondition to real numbers.

  The precondition tests every entry of every input array: |x| < +∞, the answers reduced by "and" within an array and
  the seven arrays' answers combined by "and".  If the combined answer is 1, every array's answer is 1, every entry
  passed its test, and an extended real whose absolute value is below +∞ is a real number.  So each input array is
  the coercion of an array of real numbers.
-/
import proofs.«158100_j22514218565864_2_alg».proof.Pre_finite_inputs
import proofs.«158100_j22514218565864_2_alg».proof.Proof.LibFiniteTest
import proofs.«158100_j22514218565864_2_alg».proof.Proof.Spec
import Idealize.ShloMosaic.Lib.ReduceAll
import Idealize.ShloMosaic.Lib.ValueIdx

noncomputable section

namespace Cert.FinPre

open Cert.Pre_finite_inputs Cert.Pre_finite_inputs.Facts Idealize.ShloMosaic Idealize.ShloMosaic.ValueIdx Cert.Attn

/-- The scalar shape has one index. -/
instance : Subsingleton S_.Idx := ⟨fun a b => funext fun d => d.elim0⟩

/-- One array's test: if "all entries have |x| < +∞" came out 1, every entry is a real number. -/
theorem real_entries {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ix0 = 1#1) (i : s.Idx) :
    ∃ q : ℝ, x i = (q : EReal) :=
  Cert.LibFiniteTest.real_of_test (x i) (Host.reduce_andi_all _ _ hr hu ix0 e i)

variable [Cert.Pre_finite_inputs.Facts]

/-- REAL WITNESSES FOR THE SEVEN INPUTS: under the precondition each input array is the coercion of an array of real
    numbers, indexed by its coordinates. -/
theorem reals_of_pre (a0 : FVec Ideal S4x4096x768 .f32) (a1 : FVec Ideal S768x768 .f32) (a2 : FVec Ideal S768 .f32)
    (a3 : FVec Ideal S768x768 .f32) (a4 : FVec Ideal S768 .f32) (a5 : FVec Ideal S768x768 .f32) (a6 : FVec Ideal S768 .f32)
    (h : Cert.Pre_finite_inputs.fn (F := Ideal) a0 a1 a2 a3 a4 a5 a6 = (fun _ => 1#1)) :
    ∃ (xr : Rows) (Wqr : Mat) (bqr : Bias) (Wkr : Mat) (bkr : Bias) (Wvr : Mat) (bvr : Bias),
      a0 = (fun i => ((xr (i 0) (i 1) (i 2) : ℝ) : EReal))
      ∧ a1 = (fun i => ((Wqr (i 0) (i 1) : ℝ) : EReal)) ∧ a2 = (fun i => ((bqr (i 0) : ℝ) : EReal))
      ∧ a3 = (fun i => ((Wkr (i 0) (i 1) : ℝ) : EReal)) ∧ a4 = (fun i => ((bkr (i 0) : ℝ) : EReal))
      ∧ a5 = (fun i => ((Wvr (i 0) (i 1) : ℝ) : EReal)) ∧ a6 = (fun i => ((bvr (i 0) : ℝ) : EReal)) := by
  have h0 := congrFun h ix0
  simp only [Cert.Pre_finite_inputs.fn, Cert.Pre_finite_inputs.fn_part1, andi, IntOp.andi_eq_one] at h0
  obtain ⟨⟨⟨⟨⟨⟨e0, e1⟩, e2⟩, e3⟩, e4⟩, e5⟩, e6⟩ := h0
  choose f0 hf0 using real_entries a0 _ _ _ e0
  choose f1 hf1 using real_entries a1 _ _ _ e1
  choose f2 hf2 using real_entries a2 _ _ _ e2
  choose f3 hf3 using real_entries a3 _ _ _ e3
  choose f4 hf4 using real_entries a4 _ _ _ e4
  choose f5 hf5 using real_entries a5 _ _ _ e5
  choose f6 hf6 using real_entries a6 _ _ _ e6
  refine ⟨fun b t d => f0 (ix3 b t d), fun e d => f1 (ix2 e d), fun e => f2 (ix1 e), fun e d => f3 (ix2 e d),
    fun e => f4 (ix1 e), fun e d => f5 (ix2 e d), fun e => f6 (ix1 e), ?_, ?_, ?_, ?_, ?_, ?_, ?_⟩
  · funext i; rw [hf0 i]; exact congrArg (fun j => ((f0 j : ℝ) : EReal)) (eq_ix3 i)
  · funext i; rw [hf1 i]; exact congrArg (fun j => ((f1 j : ℝ) : EReal)) (eq_ix2 i)
  · funext i; rw [hf2 i]; exact congrArg (fun j => ((f2 j : ℝ) : EReal)) (eq_ix1 i)
  · funext i; rw [hf3 i]; exact congrArg (fun j => ((f3 j : ℝ) : EReal)) (eq_ix2 i)
  · funext i; rw [hf4 i]; exact congrArg (fun j => ((f4 j : ℝ) : EReal)) (eq_ix1 i)
  · funext i; rw [hf5 i]; exact congrArg (fun j => ((f5 j : ℝ) : EReal)) (eq_ix2 i)
  · funext i; rw [hf6 i]; exact congrArg (fun j => ((f6 j : ℝ) : EReal)) (eq_ix1 i)

end Cert.FinPre
-- ==== Proof.Algebra.lean ====
/-
  The two arrangements of attention without a softmax agree over the real numbers.

  The kernel's key/value product  KV[b,e,d] = ∑ₜ k[b,t,e]·(c·v)[b,t,d]  is added up over four tiles of 1024 rows;
  the four tiles together are the whole range of 4096 rows (`sum_tiles`).  The folded scalar comes back out of the
  projection (`vScaled_eq`), and exchanging the sums over e and t gives the reference's arrangement.
-/
import proofs.«158100_j22514218565864_2_alg».proof.Proof.Spec
import Mathlib.Algebra.BigOperators.Ring.Finset
import Mathlib.Algebra.BigOperators.Fin
import Mathlib.Logic.Equiv.Fin.Basic
import Mathlib.Tactic.Ring

namespace Cert.Attn

open Finset

/-- Row `r` of tile `s` is the row the pairing of `Fin 4 × Fin 1024` with `Fin (4 * 1024)` names. -/
theorem tileRow_eq (s : Fin 4) (r : Fin 1024) : tileRow s r = (finProdFinEquiv (s, r) : Fin (4 * 1024)) := by
  apply Fin.ext
  simp only [tileRow, finProdFinEquiv_apply_val]
  omega

/-- A sum over the 4096 rows is the sum of the four tiles' sums, added up from zero, tile after tile. -/
theorem sum_tiles (f : Fin 4096 → ℝ) :
    ∑ t : Fin 4096, f t =
      (((0 + ∑ r : Fin 1024, f (tileRow 0 r)) + ∑ r : Fin 1024, f (tileRow 1 r)) + ∑ r : Fin 1024, f (tileRow 2 r))
        + ∑ r : Fin 1024, f (tileRow 3 r) := by
  have h : ∑ t : Fin 4096, f t = ∑ s : Fin 4, ∑ r : Fin 1024, f (tileRow s r) := by
    rw [← Finset.sum_product']
    have e := Equiv.sum_comp (finProdFinEquiv : Fin 4 × Fin 1024 ≃ Fin (4 * 1024)) f
    rw [← e]
    exact Finset.sum_congr rfl (fun p _ => by rw [tileRow_eq])
  rw [h, Fin.sum_univ_four]
  ring

/-- The scalar folded into the weights and the bias is the scalar times the projection. -/
theorem vScaled_eq (x : Rows) (Wv : Mat) (bv : Bias) (c : ℝ) (bi : Fin 4) (t : Fin 4096) (d : Fin 768) :
    vScaled x Wv bv c bi t d = c * proj x Wv bv bi t d := by
  unfold vScaled proj
  rw [mul_add, Finset.mul_sum]
  congr 1
  · exact Finset.sum_congr rfl (fun j _ => by ring)
  · ring

/-- The key/value product added up tile after tile is the sum over all rows. -/
theorem kv_eq (x : Rows) (Wk : Mat) (bk : Bias) (Wv : Mat) (bv : Bias) (c : ℝ) (bi : Fin 4) (e d : Fin 768) :
    kv x Wk bk Wv bv c bi e d = ∑ t : Fin 4096, proj x Wk bk bi t e * (c * proj x Wv bv bi t d) := by
  rw [sum_tiles (fun t => proj x Wk bk bi t e * (c * proj x Wv bv bi t d))]
  unfold kv kvTile
  simp only [vScaled_eq]

/-- The kernel's arrangement equals the reference's. -/
theorem outKer_eq_outRef (x : Rows) (Wq : Mat) (bq : Bias) (Wk : Mat) (bk : Bias) (Wv : Mat) (bv : Bias) (c : ℝ)
    (bi : Fin 4) (s : Fin 4096) (d : Fin 768) :
    outKer x Wq bq Wk bk Wv bv c bi s d = outRef x Wq bq Wk bk Wv bv c bi s d := by
  unfold outKer outRef
  simp only [kv_eq, Finset.mul_sum, Finset.sum_mul]
  rw [Finset.sum_comm]
  exact Finset.sum_congr rfl (fun t _ => Finset.sum_congr rfl (fun e _ => by ring))

end Cert.Attn
-- ==== Proof.RefFinal.lean ====
/-
  The reference side, assembled: under the precondition the seven inputs are arrays of real numbers, the scaling
  literal is a real number, and the reference's result is, index by index, the real number the KERNEL's arrangement
  `outKer` names (the reference's own arrangement `outRef`, moved across by the real-number algebra).
-/
import proofs.«158100_j22514218565864_2_alg».proof.Proof.RefSide
import proofs.«158100_j22514218565864_2_alg».proof.Proof.FinPre
import proofs.«158100_j22514218565864_2_alg».proof.Proof.Algebra

noncomputable section

namespace Cert.RefSide

open Cert.ReferenceIdeal Cert.ReferenceIdeal.Gen Cert.ReferenceIdeal.Read Idealize.ShloMosaic Idealize.ShloMosaic.ValueIdx Cert.Attn

/-- Under the precondition: real witnesses for the inputs and the literal, and the reference's last stage as the
    kernel's arrangement of them. -/
theorem ref_final [Cert.Pre_finite_inputs.Facts]
    (a0 : FVec Ideal S4x4096x768 .f32) (a1 : FVec Ideal S768x768 .f32) (a2 : FVec Ideal S768 .f32)
    (a3 : FVec Ideal S768x768 .f32) (a4 : FVec Ideal S768 .f32) (a5 : FVec Ideal S768x768 .f32) (a6 : FVec Ideal S768 .f32)
    (h : Cert.Pre_finite_inputs.fn (F := Ideal) a0 a1 a2 a3 a4 a5 a6 = (fun _ => 1#1)) :
    ∃ (xr : Rows) (Wqr : Mat) (bqr : Bias) (Wkr : Mat) (bkr : Bias) (Wvr : Mat) (bvr : Bias) (cr : ℝ),
      (Ideal.ofBits .f32 0x3D13CD3A#32 : EReal) = ((cr : ℝ) : EReal)
      ∧ a0 = (fun i => ((xr (i 0) (i 1) (i 2) : ℝ) : EReal))
      ∧ a1 = (fun i => ((Wqr (i 0) (i 1) : ℝ) : EReal)) ∧ a2 = (fun i => ((bqr (i 0) : ℝ) : EReal))
      ∧ a3 = (fun i => ((Wkr (i 0) (i 1) : ℝ) : EReal)) ∧ a4 = (fun i => ((bkr (i 0) : ℝ) : EReal))
      ∧ a5 = (fun i => ((Wvr (i 0) (i 1) : ℝ) : EReal)) ∧ a6 = (fun i => ((bvr (i 0) : ℝ) : EReal))
      ∧ val_main_v15 (F := Ideal) a0 a1 a2 a3 a4 a5 a6
          = (fun i => ((outKer xr Wqr bqr Wkr bkr Wvr bvr cr (i 0) (i 1) (i 2) : ℝ) : EReal)) := by
  obtain ⟨xr, Wqr, bqr, Wkr, bkr, Wvr, bvr, h0, h1, h2, h3, h4, h5, h6⟩ := Cert.FinPre.reals_of_pre a0 a1 a2 a3 a4 a5 a6 h
  obtain ⟨cr, hc⟩ := scale_real
  refine ⟨xr, Wqr, bqr, Wkr, bkr, Wvr, bvr, cr, hc, h0, h1, h2, h3, h4, h5, h6, ?_⟩
  rw [ref_value_fun xr Wqr Wkr Wvr bqr bkr bvr cr hc a0 a1 a2 a3 a4 a5 a6 h0 h1 h2 h3 h4 h5 h6]
  funext i
  exact congrArg (fun r : ℝ => (r : EReal)) (outKer_eq_outRef xr Wqr bqr Wkr bkr Wvr bvr cr (i 0) (i 1) (i 2)).symm

end Cert.RefSide
-- ==== Proof.KerCoe.lean ====
/-
  The kernel's arrangement, read over the extended reals with real entries, is the coercion of the real arrangement.

  Every step of the kernel's computation — an affine projection, the projection with the folded scalar, one tile's
  contribution to the key/value product, the product added up from zero over the four tiles, and the final contraction
  with the queries — is a finite sum of products of real numbers; the coercion of the reals into the extended reals
  goes through finite sums and products, so each step with coerced entries is the coercion of the real step.
-/
import proofs.«158100_j22514218565864_2_alg».proof.Proof.Spec
import Mathlib.Data.EReal.Basic

namespace Cert.Attn

open Finset

/-- The coercion of the reals into the extended reals goes through a finite sum. -/
theorem ereal_coe_sum {ι : Type} (s : Finset ι) (f : ι → ℝ) : ((∑ i ∈ s, f i : ℝ) : EReal) = ∑ i ∈ s, ((f i : ℝ) : EReal) := by
  classical
  refine Finset.induction_on s (by simp) (fun a s ha ih => ?_)
  rw [Finset.sum_insert ha, Finset.sum_insert ha, EReal.coe_add, ih]

/-- Row `r` of tile `s`, spelt by its value. -/
theorem tileRow_mk (s : Fin 4) (r : Fin 1024) (h : s.val * 1024 + r.val < 4096) :
    (⟨s.val * 1024 + r.val, h⟩ : Fin 4096) = tileRow s r := rfl

/-- An affine projection with coerced entries. -/
theorem coe_proj (xr : Rows) (W : Mat) (bb : Bias) (b : Fin 4) (t : Fin 4096) (e : Fin 768) :
    (∑ j : Fin 768, ((xr b t j : ℝ) : EReal) * ((W e j : ℝ) : EReal)) + ((bb e : ℝ) : EReal)
      = ((proj xr W bb b t e : ℝ) : EReal) := by
  unfold proj
  rw [EReal.coe_add, ereal_coe_sum]
  simp only [EReal.coe_mul]

/-- The projection with the scalar folded into the weights and the bias, with coerced entries. -/
theorem coe_vScaled (xr : Rows) (Wv : Mat) (bv : Bias) (cr : ℝ) (b : Fin 4) (t : Fin 4096) (d : Fin 768) :
    (∑ j : Fin 768, ((xr b t j : ℝ) : EReal) * (((Wv d j : ℝ) : EReal) * ((cr : ℝ) : EReal)))
        + ((bv d : ℝ) : EReal) * ((cr : ℝ) : EReal)
      = ((vScaled xr Wv bv cr b t d : ℝ) : EReal) := by
  unfold vScaled
  rw [EReal.coe_add, ereal_coe_sum]
  simp only [EReal.coe_mul]

/-- One tile's contribution to the key/value product, from coerced factors. -/
theorem coe_kvTile (xr : Rows) (Wk : Mat) (bk : Bias) (Wv : Mat) (bv : Bias) (cr : ℝ) (b : Fin 4) (s : Fin 4) (e d : Fin 768) :
    ∑ r : Fin 1024, ((proj xr Wk bk b (tileRow s r) e : ℝ) : EReal) * ((vScaled xr Wv bv cr b (tileRow s r) d : ℝ) : EReal)
      = ((kvTile xr Wk bk Wv bv cr b s e d : ℝ) : EReal) := by
  unfold kvTile
  rw [ereal_coe_sum]
  simp only [EReal.coe_mul]

/-- The key/value product added up from zero, tile after tile, from coerced tiles. -/
theorem coe_kv (xr : Rows) (Wk : Mat) (bk : Bias) (Wv : Mat) (bv : Bias) (cr : ℝ) (b : Fin 4) (e d : Fin 768) :
    ((((0 : EReal) + ((kvTile xr Wk bk Wv bv cr b 0 e d : ℝ) : EReal)) + ((kvTile xr Wk bk Wv bv cr b 1 e d : ℝ) : EReal))
        + ((kvTile xr Wk bk Wv bv cr b 2 e d : ℝ) : EReal)) + ((kvTile xr Wk bk Wv bv cr b 3 e d : ℝ) : EReal)
      = ((kv xr Wk bk Wv bv cr b e d : ℝ) : EReal) := by
  unfold kv
  rw [EReal.coe_add, EReal.coe_add, EReal.coe_add, EReal.coe_add, EReal.coe_zero]

/-- The final contraction with the queries, from coerced factors. -/
theorem coe_outKer (xr : Rows) (Wq : Mat) (bq : Bias) (Wk : Mat) (bk : Bias) (Wv : Mat) (bv : Bias) (cr : ℝ)
    (b : Fin 4) (s : Fin 4096) (d : Fin 768) :
    ∑ e : Fin 768, ((proj xr Wq bq b s e : ℝ) : EReal) * ((kv xr Wk bk Wv bv cr b e d : ℝ) : EReal)
      = ((outKer xr Wq bq Wk bk Wv bv cr b s d : ℝ) : EReal) := by
  unfold outKer
  rw [ereal_coe_sum]
  simp only [EReal.coe_mul]

/-- One tile's contribution with both factors written out over the coerced entries. -/
theorem coe_kvTile' (xr : Rows) (Wk : Mat) (bk : Bias) (Wv : Mat) (bv : Bias) (cr : ℝ) (b : Fin 4) (s : Fin 4) (e d : Fin 768) :
    (∑ r : Fin 1024, ((∑ j : Fin 768, ((xr b (tileRow s r) j : ℝ) : EReal) * ((Wk e j : ℝ) : EReal)) + ((bk e : ℝ) : EReal)) * ((∑ j : Fin 768, ((xr b (tileRow s r) j : ℝ) : EReal) * (((Wv d j : ℝ) : EReal) * ((cr : ℝ) : EReal))) + ((bv d : ℝ) : EReal) * ((cr : ℝ) : EReal)))
      = ((kvTile xr Wk bk Wv bv cr b s e d : ℝ) : EReal) := by
  rw [← coe_kvTile]
  exact Finset.sum_congr rfl fun r _ => by rw [coe_proj, coe_vScaled]

/-- The key/value product with every tile written out over the coerced entries. -/
theorem coe_kv' (xr : Rows) (Wk : Mat) (bk : Bias) (Wv : Mat) (bv : Bias) (cr : ℝ) (b : Fin 4) (e d : Fin 768) :
    ((((0 : EReal) + (∑ r : Fin 1024, ((∑ j : Fin 768, ((xr b (tileRow 0 r) j : ℝ) : EReal) * ((Wk e j : ℝ) : EReal)) + ((bk e : ℝ) : EReal)) * ((∑ j : Fin 768, ((xr b (tileRow 0 r) j : ℝ) : EReal) * (((Wv d j : ℝ) : EReal) * ((cr : ℝ) : EReal))) + ((bv d : ℝ) : EReal) * ((cr : ℝ) : EReal))))
        + (∑ r : Fin 1024, ((∑ j : Fin 768, ((xr b (tileRow 1 r) j : ℝ) : EReal) * ((Wk e j : ℝ) : EReal)) + ((bk e : ℝ) : EReal)) * ((∑ j : Fin 768, ((xr b (tileRow 1 r) j : ℝ) : EReal) * (((Wv d j : ℝ) : EReal) * ((cr : ℝ) : EReal))) + ((bv d : ℝ) : EReal) * ((cr : ℝ) : EReal))))
        + (∑ r : Fin 1024, ((∑ j : Fin 768, ((xr b (tileRow 2 r) j : ℝ) : EReal) * ((Wk e j : ℝ) : EReal)) + ((bk e : ℝ) : EReal)) * ((∑ j : Fin 768, ((xr b (tileRow 2 r) j : ℝ) : EReal) * (((Wv d j : ℝ) : EReal) * ((cr : ℝ) : EReal))) + ((bv d : ℝ) : EReal) * ((cr : ℝ) : EReal))))
        + (∑ r : Fin 1024, ((∑ j : Fin 768, ((xr b (tileRow 3 r) j : ℝ) : EReal) * ((Wk e j : ℝ) : EReal)) + ((bk e : ℝ) : EReal)) * ((∑ j : Fin 768, ((xr b (tileRow 3 r) j : ℝ) : EReal) * (((Wv d j : ℝ) : EReal) * ((cr : ℝ) : EReal))) + ((bv d : ℝ) : EReal) * ((cr : ℝ) : EReal)))
      = ((kv xr Wk bk Wv bv cr b e d : ℝ) : EReal) := by
  rw [coe_kvTile', coe_kvTile', coe_kvTile', coe_kvTile', coe_kv]

/-- THE KERNEL'S ARRANGEMENT over the coerced entries, whole: the coercion of `outKer`. -/
theorem kernel_form_eq (xr : Rows) (Wq : Mat) (bq : Bias) (Wk : Mat) (bk : Bias) (Wv : Mat) (bv : Bias) (cr : ℝ)
    (b : Fin 4) (s : Fin 4096) (d : Fin 768) :
    ∑ e : Fin 768, ((∑ j : Fin 768, ((xr b s j : ℝ) : EReal) * ((Wq e j : ℝ) : EReal)) + ((bq e : ℝ) : EReal)) *
        (((((0 : EReal) + (∑ r : Fin 1024, ((∑ j : Fin 768, ((xr b (tileRow 0 r) j : ℝ) : EReal) * ((Wk e j : ℝ) : EReal)) + ((bk e : ℝ) : EReal)) * ((∑ j : Fin 768, ((xr b (tileRow 0 r) j : ℝ) : EReal) * (((Wv d j : ℝ) : EReal) * ((cr : ℝ) : EReal))) + ((bv d : ℝ) : EReal) * ((cr : ℝ) : EReal))))
          + (∑ r : Fin 1024, ((∑ j : Fin 768, ((xr b (tileRow 1 r) j : ℝ) : EReal) * ((Wk e j : ℝ) : EReal)) + ((bk e : ℝ) : EReal)) * ((∑ j : Fin 768, ((xr b (tileRow 1 r) j : ℝ) : EReal) * (((Wv d j : ℝ) : EReal) * ((cr : ℝ) : EReal))) + ((bv d : ℝ) : EReal) * ((cr : ℝ) : EReal))))
          + (∑ r : Fin 1024, ((∑ j : Fin 768, ((xr b (tileRow 2 r) j : ℝ) : EReal) * ((Wk e j : ℝ) : EReal)) + ((bk e : ℝ) : EReal)) * ((∑ j : Fin 768, ((xr b (tileRow 2 r) j : ℝ) : EReal) * (((Wv d j : ℝ) : EReal) * ((cr : ℝ) : EReal))) + ((bv d : ℝ) : EReal) * ((cr : ℝ) : EReal))))
          + (∑ r : Fin 1024, ((∑ j : Fin 768, ((xr b (tileRow 3 r) j : ℝ) : EReal) * ((Wk e j : ℝ) : EReal)) + ((bk e : ℝ) : EReal)) * ((∑ j : Fin 768, ((xr b (tileRow 3 r) j : ℝ) : EReal) * (((Wv d j : ℝ) : EReal) * ((cr : ℝ) : EReal))) + ((bv d : ℝ) : EReal) * ((cr : ℝ) : EReal))))
      = ((outKer xr Wq bq Wk bk Wv bv cr b s d : ℝ) : EReal) := by
  rw [← coe_outKer]
  exact Finset.sum_congr rfl fun e _ => by rw [coe_proj, coe_kv']

end Cert.Attn
-- ==== Proof.Ideal.R1Pay.lean ====
/-
  Region 1's arithmetic, index by index.  The output kernel forms, for its tile of 1024 rows, the query projection
  q = x·Wqᵀ + bq (a matrix product into a zero accumulator, then the bias row added to every row) and multiplies it
  into the batch's key/value product: out = q·KV (a second matrix product into a zero accumulator).  At the exact
  extended reals a change of float format is the identity, so at row r and column d of the tile

      out[r, d] = ∑ₑ ((∑ⱼ x[r, j] · w[j, e]) + b[e]) · kv[e, d].

  Out1 is that function over the whole arrays (batch b, row s of 4096); pay1_apply reads the body's payload at an
  index of its block.
-/
import proofs.«158100_j22514218565864_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx
open scoped BigOperators

/-- The output kernel's result over the whole arrays: row s of batch b, projected by wq and bq, times the
    batch's key/value product. -/
def Out1 (xa : S4x4096x768.Idx → EReal) (wq : S768x768.Idx → EReal) (bq : S768.Idx → EReal) (kv : S4x768x768.Idx → EReal) :
    S4x4096x768.Idx → EReal := fun i =>
  ∑ e : Fin 768, ((∑ j : Fin 768, xa (ix3 (i 0) (i 1) j) * wq (ix2 j e)) + bq (ix1 e)) * kv (ix3 (i 0) e (i 2))

theorem Out1_apply (xa : S4x4096x768.Idx → EReal) (wq : S768x768.Idx → EReal) (bq : S768.Idx → EReal) (kv : S4x768x768.Idx → EReal)
    (b : Fin 4) (s : Fin 4096) (d : Fin 768) :
    Out1 xa wq bq kv (ix3 b s d)
      = ∑ e : Fin 768, ((∑ j : Fin 768, xa (ix3 b s j) * wq (ix2 j e)) + bq (ix1 e)) * kv (ix3 b e d) := rfl

/-- The matrix product's operand indices: the left operand is read at the result's row and the contraction position, the
    right operand at the contraction position and the result's column. -/
theorem dot1_lhs_0 (i : S1024x768.Idx) (q : dot_S1024x768_S768x768_S1024x768_1_0_0_1_n_n.contr.Idx) :
    (dot_S1024x768_S768x768_S1024x768_1_0_0_1_n_n.lhsIdx i q 0).val = (i 0).val := by
  unfold DotDims.lhsIdx
  rw [dif_neg (show ¬(0 : Fin S1024x768.rank) ∈ dot_S1024x768_S768x768_S1024x768_1_0_0_1_n_n.lhsBatch by decide), dif_pos (show (0 : Fin S1024x768.rank) ∈ dot_S1024x768_S768x768_S1024x768_1_0_0_1_n_n.lhsNonContracting by decide)]
  rfl
theorem dot1_lhs_1 (i : S1024x768.Idx) (q : dot_S1024x768_S768x768_S1024x768_1_0_0_1_n_n.contr.Idx) :
    (dot_S1024x768_S768x768_S1024x768_1_0_0_1_n_n.lhsIdx i q 1).val = (q ⟨0, by decide⟩).val :=
  dot_S1024x768_S768x768_S1024x768_1_0_0_1_n_n.lhsIdx_val_of_single rfl i q
theorem dot1_rhs_0 (i : S1024x768.Idx) (q : dot_S1024x768_S768x768_S1024x768_1_0_0_1_n_n.contr.Idx) :
    (dot_S1024x768_S768x768_S1024x768_1_0_0_1_n_n.rhsIdx i q 0).val = (q ⟨0, by decide⟩).val :=
  dot_S1024x768_S768x768_S1024x768_1_0_0_1_n_n.rhsIdx_val_of_single rfl i q
theorem dot1_rhs_1 (i : S1024x768.Idx) (q : dot_S1024x768_S768x768_S1024x768_1_0_0_1_n_n.contr.Idx) :
    (dot_S1024x768_S768x768_S1024x768_1_0_0_1_n_n.rhsIdx i q 1).val = (i 1).val := by
  unfold DotDims.rhsIdx
  rw [dif_neg (show ¬(1 : Fin S768x768.rank) ∈ dot_S1024x768_S768x768_S1024x768_1_0_0_1_n_n.rhsBatch by decide), dif_pos (show (1 : Fin S768x768.rank) ∈ dot_S1024x768_S768x768_S1024x768_1_0_0_1_n_n.rhsNonContracting by decide)]
  rfl

/-- A [1024,768] × [768,768] matrix product into the zero accumulator, at row r and column d: the sum over the
    contracted axis of the left operand's row times the right operand's column. -/
theorem matmul1_apply {φ₁ φ₂ : FTy} (lhs : FVec Ideal S1024x768 φ₁) (rhs : FVec Ideal S768x768 φ₂) (r : Fin 1024) (d : Fin 768) :
    matmul dot_S1024x768_S768x768_S1024x768_1_0_0_1_n_n none lhs rhs (constant (F := Ideal) S1024x768 .f32 0x00000000#32) (ix2 r d)
      = ∑ e : Fin 768, lhs (ix2 r e) * rhs (ix2 e d) := by
  simp only [matmul]
  rw [Ideal.matmul_constant_zero_apply, ← Equiv.sum_comp (contrEquiv1 dot_S1024x768_S768x768_S1024x768_1_0_0_1_n_n 768 rfl rfl).symm]
  refine Finset.sum_congr rfl fun k _ => ?_
  have hk := contrEquiv1_symm_val dot_S1024x768_S768x768_S1024x768_1_0_0_1_n_n 768 rfl rfl k
  have el : dot_S1024x768_S768x768_S1024x768_1_0_0_1_n_n.lhsIdx (ix2 r d) ((contrEquiv1 dot_S1024x768_S768x768_S1024x768_1_0_0_1_n_n 768 rfl rfl).symm k) = ix2 r k := funext fun a => Fin.ext (by
    match a with
    | ⟨0, _⟩ => exact dot1_lhs_0 _ _
    | ⟨1, _⟩ => exact (dot1_lhs_1 _ _).trans hk)
  have er : dot_S1024x768_S768x768_S1024x768_1_0_0_1_n_n.rhsIdx (ix2 r d) ((contrEquiv1 dot_S1024x768_S768x768_S1024x768_1_0_0_1_n_n 768 rfl rfl).symm k) = ix2 k d := funext fun a => Fin.ext (by
    match a with
    | ⟨0, _⟩ => exact (dot1_rhs_0 _ _).trans hk
    | ⟨1, _⟩ => exact dot1_rhs_1 _ _)
  rw [el, er]

/-- The body's payload at row r and column d of its block: the projected row times the key/value block's column. -/
theorem pay1_apply (x0 : Vec Ideal S1x1024x768 .bf16) (x1 : Vec Ideal S768x768 .bf16) (x2 : Vec Ideal S768 .f32) (x3 : Vec Ideal S1x768x768 .bf16)
    (u : Fin 1) (r : Fin 1024) (d : Fin 768) :
    k1_pay1 x0 x1 x2 x3 (ix3 u r d)
      = ∑ e : Fin 768, ((∑ j : Fin 768, x0 (ix3 (0 : Fin 1) r j) * x1 (ix2 j e)) + x2 (ix1 e)) * x3 (ix3 (0 : Fin 1) e d) := by
  unfold k1_pay1
  rw [shapeCast_ab_1ab_apply, matmul1_apply]
  refine Finset.sum_congr rfl fun e _ => ?_
  rw [truncf_apply, addf_apply, matmul1_apply, broadcastTo_1b_ab_apply, shapeCast_a_1a_apply, shapeCast_1ab_ab_apply]
  simp only [shapeCast_1ab_ab_apply, shapeCast_self]

/-- The payload over blocks read off whole arrays.  When the rows' block is block (p, q) of xa (batch p, rows from q·1024),
    the matrix and the bias are wq and bq, and the key/value block is batch p of kv, the payload at an index of its block
    is Out1 of the whole arrays at the index of the result that sits there. -/
theorem pay1_block (xa : S4x4096x768.Idx → EReal) (wq : S768x768.Idx → EReal) (bq : S768.Idx → EReal) (kv : S4x768x768.Idx → EReal)
    (x0 : Vec Ideal S1x1024x768 .bf16) (x1 : Vec Ideal S768x768 .bf16) (x2 : Vec Ideal S768 .f32) (x3 : Vec Ideal S1x768x768 .bf16)
    (p q : Nat)
    (h0 : ∀ (y : S1x1024x768.Idx) (k : S4x4096x768.Idx), (k 0).val = p → (k 1).val = q * 1024 + (y 1).val → (k 2).val = (y 2).val → x0 y = xa k)
    (h1 : ∀ y : S768x768.Idx, x1 y = wq y)
    (h2 : ∀ y : S768.Idx, x2 y = bq y)
    (h3 : ∀ (y : S1x768x768.Idx) (k : S4x768x768.Idx), (k 0).val = p → (k 1).val = (y 1).val → (k 2).val = (y 2).val → x3 y = kv k)
    (j : S1x1024x768.Idx) (i : S4x4096x768.Idx)
    (hi0 : (i 0).val = p) (hi1 : (i 1).val = q * 1024 + (j 1).val) (hi2 : (i 2).val = (j 2).val) :
    k1_pay1 x0 x1 x2 x3 j = Out1 xa wq bq kv i := by
  obtain ⟨u, r, d, rfl⟩ : ∃ (u : Fin 1) (r : Fin 1024) (d : Fin 768), j = ix3 u r d := ⟨j 0, j 1, j 2, eq_ix3 j⟩
  obtain ⟨b, s, d', rfl⟩ : ∃ (b : Fin 4) (s : Fin 4096) (d' : Fin 768), i = ix3 b s d' := ⟨i 0, i 1, i 2, eq_ix3 i⟩
  have hd : d' = d := Fin.ext hi2
  subst hd
  rw [pay1_apply, Out1_apply]
  refine Finset.sum_congr rfl fun e _ => ?_
  have hs : ∀ jj : Fin 768, x0 (ix3 (0 : Fin 1) r jj) * x1 (ix2 jj e) = xa (ix3 b s jj) * wq (ix2 jj e) := fun jj => by
    rw [h0 (ix3 (0 : Fin 1) r jj) (ix3 b s jj) hi0 hi1 rfl, h1]
  rw [Finset.sum_congr rfl fun jj _ => hs jj, h2, h3 (ix3 (0 : Fin 1) e d') (ix3 b e d') hi0 rfl rfl]

end Cert.KernelIdeal.Hand

end
-- ==== Proof.Ideal.R1ValueFlush.lean ====
/-
  What one grid point of region 1 writes back.  Point t writes the block (b, s) = (t / 4, t % 4) of the result: rows
  s·1024 … s·1024 + 1023 of batch b.  Its four input blocks sit where the result's block says: the rows' block of x at
  the same (b, s), the whole projection matrix and bias, and batch b's key/value product.  So what the point writes back
  is its block of the one function Out1 of the arrays as the region finds them.
-/
import proofs.«158100_j22514218565864_2_alg».proof.Proof.Ideal.R1Frame
import proofs.«158100_j22514218565864_2_alg».proof.Proof.Ideal.R1Pay
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

theorem hz1_3 : (![0, 0, 0] : Fin 3 → Nat) = fun _ => 0 := funext fun a => by fin_cases a <;> rfl
theorem hz1_2 : (![0, 0] : Fin 2 → Nat) = fun _ => 0 := funext fun a => by fin_cases a <;> rfl
theorem hz1_1 : (![0] : Fin 1 → Nat) = fun _ => 0 := funext fun a => by fin_cases a; rfl

/-- The printed index maps, decided over the grid: the rows' window moves with the result's; the projection matrix and
    the bias stay at block 0; the key/value window follows the result's batch; the result's block indices stay in range. -/
theorem idx_facts1 : ∀ t : Fin cfg1.N,
    win1_0.index t (0 : Fin 3) = win1_4.index t (0 : Fin 3) ∧ win1_0.index t (1 : Fin 3) = win1_4.index t (1 : Fin 3)
    ∧ win1_0.index t (2 : Fin 3) = 0 ∧ win1_4.index t (2 : Fin 3) = 0
    ∧ win1_1.index t (0 : Fin 2) = 0 ∧ win1_1.index t (1 : Fin 2) = 0
    ∧ win1_2.index t (0 : Fin 1) = 0
    ∧ win1_3.index t (0 : Fin 3) = win1_4.index t (0 : Fin 3) ∧ win1_3.index t (1 : Fin 3) = 0 ∧ win1_3.index t (2 : Fin 3) = 0
    ∧ win1_4.index t (0 : Fin 3) ≤ 3 ∧ win1_4.index t (1 : Fin 3) ≤ 3 :=
  (by decide +kernel : ∀ t : Fin grid1.N, _)

section Entry
variable (V : (c : Dev nD) → (b : Ref sig .tc) → Buf (Elt Ideal) ((c : Thread nD τ).loc b))

/-- What point t writes back is block t of Out1 of the arrays as the region finds them. -/
theorem flushed1_eq (c : Dev nD) (t : Fin cfg1.N) :
    (dat1 (F := Ideal) V c).flushed 4 t
      = ((cfg1.win 4).blk t).view.read (Elt Ideal) (Out1 (V c main_v10) (V c main_v1) (V c main_arg2) (V c main_v11)) := by
  show (cfg1.win 4).cut (grid1.coords t) ((dat1 V c).after 4 t) = _
  rw [after1_4]
  unfold out1_4
  rw [View.canon_unit_zero hz1_3]
  simp only [View.ld_unit_zero (S := S1x1024x768) hz1_3, View.ld_unit_zero (S := S768x768) hz1_2, View.ld_unit_zero (S := S768) hz1_1, View.ld_unit_zero (S := S1x768x768) hz1_3]
  obtain ⟨e0, e1, e2, e3, e4, e5, e6, e7, e8, e9, e10, e11⟩ := idx_facts1 t
  funext j
  show k1_pay1 (iblk1 V c 0 t) (iblk1 V c 1 t) (iblk1 V c 2 t) (iblk1 V c 3 t) j
      = Out1 (V c main_v10) (V c main_v1) (V c main_arg2) (V c main_v11) (((cfg1.win 4).blk t).view.emb j)
  refine pay1_block _ _ _ _ _ _ _ _ (win1_4.index t (0 : Fin 3)) (win1_4.index t (1 : Fin 3)) ?_ ?_ ?_ ?_ j _ ?_ ?_ ?_
  · intro y k hk0 hk1 hk2
    show V c main_v10 (((cfg1.win 0).blk t).view.emb y) = V c main_v10 k
    refine congrArg _ (funext fun a => Fin.ext ?_)
    match a with
    | ⟨0, _⟩ => show win1_0.index t (0 : Fin 3) * 1 + 1 * (y 0).val = (k 0).val; have hy : (y 0).val < 1 := (y 0).isLt; omega
    | ⟨1, _⟩ => show win1_0.index t (1 : Fin 3) * 1024 + 1 * (y 1).val = (k 1).val; omega
    | ⟨2, _⟩ => show win1_0.index t (2 : Fin 3) * 768 + 1 * (y 2).val = (k 2).val; omega
  · intro y
    show V c main_v1 (((cfg1.win 1).blk t).view.emb y) = V c main_v1 y
    refine congrArg _ (funext fun a => Fin.ext ?_)
    match a with
    | ⟨0, _⟩ => show win1_1.index t (0 : Fin 2) * 768 + 1 * (y 0).val = (y 0).val; omega
    | ⟨1, _⟩ => show win1_1.index t (1 : Fin 2) * 768 + 1 * (y 1).val = (y 1).val; omega
  · intro y
    show V c main_arg2 (((cfg1.win 2).blk t).view.emb y) = V c main_arg2 y
    refine congrArg _ (funext fun a => Fin.ext ?_)
    match a with
    | ⟨0, _⟩ => show win1_2.index t (0 : Fin 1) * 768 + 1 * (y 0).val = (y 0).val; omega
  · intro y k hk0 hk1 hk2
    show V c main_v11 (((cfg1.win 3).blk t).view.emb y) = V c main_v11 k
    refine congrArg _ (funext fun a => Fin.ext ?_)
    match a with
    | ⟨0, _⟩ => show win1_3.index t (0 : Fin 3) * 1 + 1 * (y 0).val = (k 0).val; have hy : (y 0).val < 1 := (y 0).isLt; omega
    | ⟨1, _⟩ => show win1_3.index t (1 : Fin 3) * 768 + 1 * (y 1).val = (k 1).val; omega
    | ⟨2, _⟩ => show win1_3.index t (2 : Fin 3) * 768 + 1 * (y 2).val = (k 2).val; omega
  · show win1_4.index t (0 : Fin 3) * 1 + 1 * (j 0).val = win1_4.index t (0 : Fin 3); have hj : (j 0).val < 1 := (j 0).isLt; omega
  · show win1_4.index t (1 : Fin 3) * 1024 + 1 * (j 1).val = win1_4.index t (1 : Fin 3) * 1024 + (j 1).val; omega
  · show win1_4.index t (2 : Fin 3) * 768 + 1 * (j 2).val = (j 2).val; omega

end Entry

end Cert.KernelIdeal.Hand

end
-- ==== Proof.Ideal.R1ValueCover.lean ====
/-
  The blocks of region 1's result tile it: index (b, s, d) lies in the block with block index (b, s / 1024, 0), and every
  such block index is some grid point's.
-/
import proofs.«158100_j22514218565864_2_alg».proof.Proof.Gen.KernelIdeal.Launch
import proofs.«158100_j22514218565864_2_alg».proof.Proof.Gen.KernelIdeal.Points
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-- Every block of the result is some point's. -/
theorem idx_onto1 : ∀ (q0 : Fin 4) (q1 : Fin 4), ∃ t : Fin cfg1.N, win1_4.index t = ![q0.val, q1.val, 0] :=
  (by decide +kernel : ∀ (q0 : Fin 4) (q1 : Fin 4), ∃ t : Fin grid1.N, win1_4.index t = ![q0.val, q1.val, 0])

/-- An index of the result is in point t's block iff each coordinate is in the block's range on its axis. -/
theorem mem_blk1 (t : Fin cfg1.N) (i : S4x4096x768.Idx) :
    i ∈ ((cfg1.win 4).blk t).view.set ↔ ∀ a : Fin 3, win1_4.index t a * S1x1024x768.size a ≤ (i a).val ∧ (i a).val < win1_4.index t a * S1x1024x768.size a + S1x1024x768.size a := by
  show i ∈ ((View.whole main_v12).slice (win1_4.rect t)).set ↔ _
  rw [View.set_slice_whole, Rect.mem_set_unit]
  exact Iff.rfl

/-- The sixteen blocks tile the result: index (b, s, d) is in the block of the point with block index (b, s / 1024, 0). -/
theorem cover1 (i : S4x4096x768.Idx) : ∃ t : Fin cfg1.N, (cfg1.win 4).flush t = true ∧ i ∈ ((cfg1.win 4).blk t).view.set := by
  have hi0 : (i 0).val < 4 := (i 0).isLt
  have hi1 : (i 1).val < 4096 := (i 1).isLt
  have hi2 : (i 2).val < 768 := (i 2).isLt
  obtain ⟨t, ht⟩ := idx_onto1 ⟨(i 0).val, hi0⟩ ⟨(i 1).val / 1024, by omega⟩
  have q0 : win1_4.index t (0 : Fin 3) = (i 0).val := congrFun ht 0
  have q1 : win1_4.index t (1 : Fin 3) = (i 1).val / 1024 := congrFun ht 1
  have q2 : win1_4.index t (2 : Fin 3) = 0 := congrFun ht 2
  refine ⟨t, flush1_4 t, ?_⟩
  rw [mem_blk1]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 1024 ≤ (i 1).val ∧ (i 1).val < win1_4.index t (1 : Fin 3) * 1024 + 1024; omega
  | ⟨2, _⟩ => show win1_4.index t (2 : Fin 3) * 768 ≤ (i 2).val ∧ (i 2).val < win1_4.index t (2 : Fin 3) * 768 + 768; omega

end Cert.KernelIdeal.Hand

end
-- ==== Proof.Ideal.R1Value.lean ====
/-
  Region 1's result array after its sixteen grid points: every point writes back its block of Out1 of the arrays as the
  region finds them, and the sixteen blocks tile the result, so the result ends holding Out1.
-/
import proofs.«158100_j22514218565864_2_alg».proof.Proof.Ideal.R1ValueFlush
import proofs.«158100_j22514218565864_2_alg».proof.Proof.Ideal.R1ValueCover

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

section Entry
variable (V : (c : Dev nD) → (b : Ref sig .tc) → Buf (Elt Ideal) ((c : Thread nD τ).loc b))

/-- The result array after region 1: Out1 of the arrays as the region finds them. -/
theorem arr1_value (c : Dev nD) :
    (dat1 (F := Ideal) V c).arrAt 4 cfg1.N = Out1 (V c main_v10) (V c main_v1) (V c main_arg2) (V c main_v11) :=
  (dat1 (F := Ideal) V c).arrAt_eq_of_cover 4 (Out1 (V c main_v10) (V c main_v1) (V c main_arg2) (V c main_v11))
    (fun t _ => flushed1_eq V c t) cover1

end Entry

end Cert.KernelIdeal.Hand

end
-- ==== Proof.Ideal.R0ValuePieces.lean ====
/-
  What each case of the key/value kernel's body leaves behind, as a value.  The body's stores are whole-buffer stores
  and its loads whole-buffer loads, so what a case leaves in the accumulator is the one payload of its last store into
  it, over the input blocks and over what the accumulator held: at a first sequence tile the accumulator was just
  cleared, so it held the zero block; at a middle or last tile it held what the tile before left.  At a last tile the
  output block is the accumulator the tile leaves, narrowed.
-/
import proofs.«158100_j22514218565864_2_alg».proof.Proof.Ideal.R0Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window)

variable {F : FTy → Type} [FloatOps F]

theorem kv0_hz1 : (![0] : Fin 1 → Nat) = fun _ => 0 := funext fun a => by fin_cases a; rfl
theorem kv0_hz2 : (![0, 0] : Fin 2 → Nat) = fun _ => 0 := funext fun a => by fin_cases a <;> rfl
theorem kv0_hz3 : (![0, 0, 0] : Fin 3 → Nat) = fun _ => 0 := funext fun a => by fin_cases a <;> rfl

/-- A middle tile leaves in the accumulator what it held plus the tile's product. -/
theorem sout0_B_0_eq (c : Dev nD) (i : grid0.Coords) (arg2 : Memref sig .tc .vmem S1x1024x768 .bf16) (harg2 : arg2.IsWhole) (arg3 : Memref sig .tc .vmem S768x768 .bf16) (harg3 : arg3.IsWhole) (arg4 : Memref sig .tc .vmem S768 .f32) (harg4 : arg4.IsWhole) (arg5 : Memref sig .tc .vmem S768x768 .bf16) (harg5 : arg5.IsWhole) (arg6 : Memref sig .tc .vmem S768 .f32) (harg6 : arg6.IsWhole) (arg7 : Memref sig .tc .vmem S1x768x768 .bf16) (harg7 : arg7.IsWhole) (arg8 : Memref sig .tc .vmem S768x768 .f32) (harg8 : arg8.IsWhole) (hc0 : ¬cond0_0 i) (hc1 : ¬cond0_1 i) (x0 : Vec F S1x1024x768 .bf16) (x1 : Vec F S768x768 .bf16) (x2 : Vec F S768 .f32) (x3 : Vec F S768x768 .bf16) (x4 : Vec F S768 .f32) (xs0 : Vec F S768x768 .f32) :
    sout0_B_0 c i arg2 harg2 arg3 harg3 arg4 harg4 arg5 harg5 arg6 harg6 arg7 harg7 arg8 harg8 hc0 hc1 x0 x1 x2 x3 x4 xs0 = k0_pay2 x0 x1 x3 x2 x4 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  rw [View.canon_unit_zero kv0_hz2]
  simp only [View.readAt_eq_ld, harg2.read_unread, harg3.read_unread, harg4.read_unread, harg5.read_unread, harg6.read_unread, harg8.read_unread,
    View.ld_unit_zero (S := S1x1024x768) kv0_hz3, View.ld_unit_zero (S := S768x768) kv0_hz2, View.ld_unit_zero (S := S768) kv0_hz1]

/-- A last tile leaves in the accumulator what it held plus the tile's product. -/
theorem sout0_C_0_eq (c : Dev nD) (i : grid0.Coords) (arg2 : Memref sig .tc .vmem S1x1024x768 .bf16) (harg2 : arg2.IsWhole) (arg3 : Memref sig .tc .vmem S768x768 .bf16) (harg3 : arg3.IsWhole) (arg4 : Memref sig .tc .vmem S768 .f32) (harg4 : arg4.IsWhole) (arg5 : Memref sig .tc .vmem S768x768 .bf16) (harg5 : arg5.IsWhole) (arg6 : Memref sig .tc .vmem S768 .f32) (harg6 : arg6.IsWhole) (arg7 : Memref sig .tc .vmem S1x768x768 .bf16) (harg7 : arg7.IsWhole) (arg8 : Memref sig .tc .vmem S768x768 .f32) (harg8 : arg8.IsWhole) (hc0 : ¬cond0_0 i) (hc1 : cond0_1 i) (x0 : Vec F S1x1024x768 .bf16) (x1 : Vec F S768x768 .bf16) (x2 : Vec F S768 .f32) (x3 : Vec F S768x768 .bf16) (x4 : Vec F S768 .f32) (xs0 : Vec F S768x768 .f32) :
    sout0_C_0 c i arg2 harg2 arg3 harg3 arg4 harg4 arg5 harg5 arg6 harg6 arg7 harg7 arg8 harg8 hc0 hc1 x0 x1 x2 x3 x4 xs0 = k0_pay2 x0 x1 x3 x2 x4 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero kv0_hz2]
  simp only [View.readAt_eq_ld, harg2.read_unread, harg3.read_unread, harg4.read_unread, harg5.read_unread, harg6.read_unread, harg8.read_unread,
    View.ld_unit_zero (S := S1x1024x768) kv0_hz3, View.ld_unit_zero (S := S768x768) kv0_hz2, View.ld_unit_zero (S := S768) kv0_hz1]

/-- A last tile stores, as the output block, the accumulator it leaves, narrowed. -/
theorem out0_C_5_eq (c : Dev nD) (i : grid0.Coords) (arg2 : Memref sig .tc .vmem S1x1024x768 .bf16) (harg2 : arg2.IsWhole) (arg3 : Memref sig .tc .vmem S768x768 .bf16) (harg3 : arg3.IsWhole) (arg4 : Memref sig .tc .vmem S768 .f32) (harg4 : arg4.IsWhole) (arg5 : Memref sig .tc .vmem S768x768 .bf16) (harg5 : arg5.IsWhole) (arg6 : Memref sig .tc .vmem S768 .f32) (harg6 : arg6.IsWhole) (arg7 : Memref sig .tc .vmem S1x768x768 .bf16) (harg7 : arg7.IsWhole) (arg8 : Memref sig .tc .vmem S768x768 .f32) (harg8 : arg8.IsWhole) (hc0 : ¬cond0_0 i) (hc1 : cond0_1 i) (x0 : Vec F S1x1024x768 .bf16) (x1 : Vec F S768x768 .bf16) (x2 : Vec F S768 .f32) (x3 : Vec F S768x768 .bf16) (x4 : Vec F S768 .f32) (xs0 : Vec F S768x768 .f32) :
    out0_C_5 c i arg2 harg2 arg3 harg3 arg4 harg4 arg5 harg5 arg6 harg6 arg7 harg7 arg8 harg8 hc0 hc1 x0 x1 x2 x3 x4 xs0 = k0_pay3 (k0_pay2 x0 x1 x3 x2 x4 xs0) := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only

  sl_unfold_words
  rw [View.canon_unit_zero kv0_hz3]

  simp only [View.readCov_unit_zero (S := S768x768) _ kv0_hz2, View.readAt_eq_ld, harg2.read_unread, harg3.read_unread, harg4.read_unread, harg5.read_unread, harg6.read_unread, harg8.read_unread,
    View.ld_unit_zero (S := S1x1024x768) kv0_hz3, View.ld_unit_zero (S := S768x768) kv0_hz2, View.ld_unit_zero (S := S768) kv0_hz1]

/-- A first tile clears the accumulator and leaves in it zero plus the tile's product. -/
theorem sout0_A_0_eq (c : Dev nD) (i : grid0.Coords) (arg2 : Memref sig .tc .vmem S1x1024x768 .bf16) (harg2 : arg2.IsWhole) (arg3 : Memref sig .tc .vmem S768x768 .bf16) (harg3 : arg3.IsWhole) (arg4 : Memref sig .tc .vmem S768 .f32) (harg4 : arg4.IsWhole) (arg5 : Memref sig .tc .vmem S768x768 .bf16) (harg5 : arg5.IsWhole) (arg6 : Memref sig .tc .vmem S768 .f32) (harg6 : arg6.IsWhole) (arg7 : Memref sig .tc .vmem S1x768x768 .bf16) (harg7 : arg7.IsWhole) (arg8 : Memref sig .tc .vmem S768x768 .f32) (harg8 : arg8.IsWhole) (hc0 : cond0_0 i) (hc1 : ¬cond0_1 i) (x0 : Vec F S1x1024x768 .bf16) (x1 : Vec F S768x768 .bf16) (x2 : Vec F S768 .f32) (x3 : Vec F S768x768 .bf16) (x4 : Vec F S768 .f32) :
    sout0_A_0 c i arg2 harg2 arg3 harg3 arg4 harg4 arg5 harg5 arg6 harg6 arg7 harg7 arg8 harg8 hc0 hc1 x0 x1 x2 x3 x4 = k0_pay2 x0 x1 x3 x2 x4 k0_pay1 := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only

  sl_unfold_words
  rw [View.canon_cons_unit_zero (S := S768x768) kv0_hz2]

  simp only [View.readCov_unit_zero (S := S768x768) _ kv0_hz2, View.readAt_eq_ld, harg2.read_unread, harg3.read_unread, harg4.read_unread, harg5.read_unread, harg6.read_unread, harg8.read_unread,
    View.ld_unit_zero (S := S1x1024x768) kv0_hz3, View.ld_unit_zero (S := S768x768) kv0_hz2, View.ld_unit_zero (S := S768) kv0_hz1]

end Cert.KernelIdeal.Hand
end
-- ==== Proof.Ideal.R0PayIdx.lean ====
/-
  The key/value kernel's arithmetic, read at an index over the extended reals.  A sequence tile of 1024 rows `x`
  (a block of shape [1, 1024, 768]) is projected twice, `K = x·Wk + bk` and `V = x·Wv + bv` (two matrix products over
  the 768 input features, each plus a bias row broadcast over the rows; the format changes are the identity), and the
  accumulator takes `acc[e, d] + ∑ᵣ K[r, e]·V[r, d]`, the product contracting the tile's 1024 rows.  The accumulator
  is cleared to the zero block; the output block is the accumulator with a leading unit axis, narrowed (the identity).
-/
import proofs.«158100_j22514218565864_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx

/-! ## The two matrix products at an index -/

theorem kv0_dp_lhs0 (i : S1024x768.Idx) (q : dot_S1024x768_S768x768_S1024x768_1_0_0_1_n_n.contr.Idx) :
    (dot_S1024x768_S768x768_S1024x768_1_0_0_1_n_n.lhsIdx i q 0).val = (i 0).val := by
  unfold DotDims.lhsIdx
  rw [dif_neg (show ¬(0 : Fin S1024x768.rank) ∈ dot_S1024x768_S768x768_S1024x768_1_0_0_1_n_n.lhsBatch by decide), dif_pos (show (0 : Fin S1024x768.rank) ∈ dot_S1024x768_S768x768_S1024x768_1_0_0_1_n_n.lhsNonContracting by decide)]
  rfl

theorem kv0_dp_rhs1 (i : S1024x768.Idx) (q : dot_S1024x768_S768x768_S1024x768_1_0_0_1_n_n.contr.Idx) :
    (dot_S1024x768_S768x768_S1024x768_1_0_0_1_n_n.rhsIdx i q 1).val = (i 1).val := by
  unfold DotDims.rhsIdx
  rw [dif_neg (show ¬(1 : Fin S768x768.rank) ∈ dot_S1024x768_S768x768_S1024x768_1_0_0_1_n_n.rhsBatch by decide), dif_pos (show (1 : Fin S768x768.rank) ∈ dot_S1024x768_S768x768_S1024x768_1_0_0_1_n_n.rhsNonContracting by decide)]
  rfl

theorem kv0_dk_lhs1 (i : S768x768.Idx) (q : dot_S1024x768_S1024x768_S768x768_0_0_1_1_n_n.contr.Idx) :
    (dot_S1024x768_S1024x768_S768x768_0_0_1_1_n_n.lhsIdx i q 1).val = (i 0).val := by
  unfold DotDims.lhsIdx
  rw [dif_neg (show ¬(1 : Fin S1024x768.rank) ∈ dot_S1024x768_S1024x768_S768x768_0_0_1_1_n_n.lhsBatch by decide), dif_pos (show (1 : Fin S1024x768.rank) ∈ dot_S1024x768_S1024x768_S768x768_0_0_1_1_n_n.lhsNonContracting by decide)]
  rfl

theorem kv0_dk_rhs1 (i : S768x768.Idx) (q : dot_S1024x768_S1024x768_S768x768_0_0_1_1_n_n.contr.Idx) :
    (dot_S1024x768_S1024x768_S768x768_0_0_1_1_n_n.rhsIdx i q 1).val = (i 1).val := by
  unfold DotDims.rhsIdx
  rw [dif_neg (show ¬(1 : Fin S1024x768.rank) ∈ dot_S1024x768_S1024x768_S768x768_0_0_1_1_n_n.rhsBatch by decide), dif_pos (show (1 : Fin S1024x768.rank) ∈ dot_S1024x768_S1024x768_S768x768_0_0_1_1_n_n.rhsNonContracting by decide)]
  rfl

/-- A projection's product `[1024, 768] × [768, 768]` into the zero block reads, at `(r, e)`, the sum over the 768
    input features of the row's entry times the weight's. -/
theorem kv0_mm_proj_apply (L : FVec Ideal S1024x768 .bf16) (R : FVec Ideal S768x768 .bf16) (r : Fin 1024) (e : Fin 768) :
    matmul dot_S1024x768_S768x768_S1024x768_1_0_0_1_n_n none L R (constant (F := Ideal) S1024x768 .f32 0x00000000#32) (ix2 r e)
      = ∑ j : Fin 768, L (ix2 r j) * R (ix2 j e) := by
  simp only [matmul]
  rw [Ideal.matmul_constant_zero_apply, ← Equiv.sum_comp (contrEquiv1 dot_S1024x768_S768x768_S1024x768_1_0_0_1_n_n 768 rfl rfl).symm]
  refine Finset.sum_congr rfl fun k _ => ?_
  have hk := contrEquiv1_symm_val dot_S1024x768_S768x768_S1024x768_1_0_0_1_n_n 768 rfl rfl k
  have el : dot_S1024x768_S768x768_S1024x768_1_0_0_1_n_n.lhsIdx (ix2 r e) ((contrEquiv1 dot_S1024x768_S768x768_S1024x768_1_0_0_1_n_n 768 rfl rfl).symm k) = ix2 r k := funext fun a => Fin.ext (by
    match a with
    | ⟨0, _⟩ => exact kv0_dp_lhs0 _ _
    | ⟨1, _⟩ => exact (dot_S1024x768_S768x768_S1024x768_1_0_0_1_n_n.lhsIdx_val_of_single rfl _ _).trans hk)
  have er : dot_S1024x768_S768x768_S1024x768_1_0_0_1_n_n.rhsIdx (ix2 r e) ((contrEquiv1 dot_S1024x768_S768x768_S1024x768_1_0_0_1_n_n 768 rfl rfl).symm k) = ix2 k e := funext fun a => Fin.ext (by
    match a with
    | ⟨0, _⟩ => exact (dot_S1024x768_S768x768_S1024x768_1_0_0_1_n_n.rhsIdx_val_of_single rfl _ _).trans hk
    | ⟨1, _⟩ => exact kv0_dp_rhs1 _ _)
  rw [el, er]

/-- The key/value product `[1024, 768]ᵀ × [1024, 768]` into the zero block reads, at `(e, d)`, the sum over the tile's
    1024 rows of the key's entry in column `e` times the value's in column `d`. -/
theorem kv0_mm_kv_apply (L R : FVec Ideal S1024x768 .bf16) (e d : Fin 768) :
    matmul dot_S1024x768_S1024x768_S768x768_0_0_1_1_n_n none L R (constant (F := Ideal) S768x768 .f32 0x00000000#32) (ix2 e d)
      = ∑ r : Fin 1024, L (ix2 r e) * R (ix2 r d) := by
  simp only [matmul]
  rw [Ideal.matmul_constant_zero_apply, ← Equiv.sum_comp (contrEquiv1 dot_S1024x768_S1024x768_S768x768_0_0_1_1_n_n 1024 rfl rfl).symm]
  refine Finset.sum_congr rfl fun k _ => ?_
  have hk := contrEquiv1_symm_val dot_S1024x768_S1024x768_S768x768_0_0_1_1_n_n 1024 rfl rfl k
  have el : dot_S1024x768_S1024x768_S768x768_0_0_1_1_n_n.lhsIdx (ix2 e d) ((contrEquiv1 dot_S1024x768_S1024x768_S768x768_0_0_1_1_n_n 1024 rfl rfl).symm k) = ix2 k e := funext fun a => Fin.ext (by
    match a with
    | ⟨0, _⟩ => exact (dot_S1024x768_S1024x768_S768x768_0_0_1_1_n_n.lhsIdx_val_of_single rfl _ _).trans hk
    | ⟨1, _⟩ => exact kv0_dk_lhs1 _ _)
  have er : dot_S1024x768_S1024x768_S768x768_0_0_1_1_n_n.rhsIdx (ix2 e d) ((contrEquiv1 dot_S1024x768_S1024x768_S768x768_0_0_1_1_n_n 1024 rfl rfl).symm k) = ix2 k d := funext fun a => Fin.ext (by
    match a with
    | ⟨0, _⟩ => exact (dot_S1024x768_S1024x768_S768x768_0_0_1_1_n_n.rhsIdx_val_of_single rfl _ _).trans hk
    | ⟨1, _⟩ => exact kv0_dk_rhs1 _ _)
  rw [el, er]
/-! ## A projection of the tile at an index -/

/-- The tile's rows times a weight matrix plus a bias row, at row `r` and output feature `e`. -/
def kv0_proj (x : FVec Ideal S1x1024x768 .bf16) (w : FVec Ideal S768x768 .bf16) (bias : FVec Ideal S768 .f32) (r : Fin 1024) (e : Fin 768) : EReal :=
  (∑ j : Fin 768, x (ix3 (0 : Fin 1) r j) * w (ix2 j e)) + bias (ix1 e)

/-- The body's projection term — the tile with its unit axis dropped, times the weights, plus the bias row broadcast
    over the rows, narrowed — is `kv0_proj` at every index. -/
theorem kv0_projTerm_apply (x : FVec Ideal S1x1024x768 .bf16) (w : FVec Ideal S768x768 .bf16) (bias : FVec Ideal S768 .f32) (r : Fin 1024) (e : Fin 768) :
    (truncf .bf16 (addf (matmul dot_S1024x768_S768x768_S1024x768_1_0_0_1_n_n none (shapeCast S1024x768 x shapeCasts_S1x1024x768_S1024x768 : FVec Ideal S1024x768 .bf16) w (constant (F := Ideal) S1024x768 .f32 0x00000000#32))
        (broadcastTo S1024x768 (shapeCast S1x768 bias shapeCasts_S768_S1x768 : FVec Ideal S1x768 .f32) broadcasts_S1x768_S1024x768)) bitsLt_bf16_f32 : FVec Ideal S1024x768 .bf16) (ix2 r e)
      = kv0_proj x w bias r e := by
  rw [truncf_apply, addf_apply, kv0_mm_proj_apply, broadcastTo_1b_ab_apply, shapeCast_a_1a_apply]
  unfold kv0_proj
  congr 1
  exact Finset.sum_congr rfl fun j _ => by rw [shapeCast_1ab_ab_apply]

/-! ## The payloads at an index -/

/-- The cleared accumulator is zero everywhere. -/
theorem kv0_pay1_apply (j : S768x768.Idx) : k0_pay1 (F := Ideal) j = 0 := by
  unfold k0_pay1
  try dsimp only
  rw [shapeCast_self]
  exact Ideal.ofBits_zero_f32

/-- What a tile leaves in the accumulator, at `(e, d)`: what it held there plus the sum over the tile's rows of the
    key projection in column `e` times the value projection in column `d`. -/
theorem kv0_pay2_apply (x : FVec Ideal S1x1024x768 .bf16) (wk wv : FVec Ideal S768x768 .bf16) (bk bv : FVec Ideal S768 .f32) (acc : FVec Ideal S768x768 .f32) (e d : Fin 768) :
    k0_pay2 x wk wv bk bv acc (ix2 e d) = acc (ix2 e d) + ∑ r : Fin 1024, kv0_proj x wk bk r e * kv0_proj x wv bv r d := by
  unfold k0_pay2
  try dsimp only
  simp only [shapeCast_self]
  refine (addf_apply _ _ _).trans ?_
  congr 1
  refine (kv0_mm_kv_apply _ _ e d).trans ?_
  exact Finset.sum_congr rfl fun r _ => by rw [kv0_projTerm_apply, kv0_projTerm_apply]

/-- The output block is the accumulator under a leading unit axis. -/
theorem kv0_pay3_apply (acc : FVec Ideal S768x768 .f32) (u : Fin 1) (e d : Fin 768) :
    k0_pay3 (F := Ideal) acc (ix3 u e d) = acc (ix2 e d) := by
  unfold k0_pay3
  try dsimp only
  rw [shapeCast_ab_1ab_apply, truncf_apply]

end Cert.KernelIdeal.Hand
end
-- ==== Proof.Ideal.R0ValueStep.lean ====
/-
  The accumulator of the key/value kernel from one grid point to the next, at an index over the extended reals.  At
  a first sequence tile the accumulator ends at zero plus the tile's product; at every other tile at what the tile
  before left plus the tile's product; so at a last tile (the fourth of its batch) it is the four tiles' products
  added up from zero in order, and the output block stored there is the accumulator under a leading unit axis.
  The tile's product at `(e, d)` is the sum over the tile's 1024 rows of the key projection in column `e` times the
  value projection in column `d`, of the blocks the windows hold at the point.
-/
import proofs.«158100_j22514218565864_2_alg».proof.Proof.Ideal.R0ValuePieces
import proofs.«158100_j22514218565864_2_alg».proof.Proof.Ideal.R0PayIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

section Entry
variable (V : (c : Dev nD) → (b : Ref sig .tc) → Buf (Elt Ideal) ((c : Thread nD τ).loc b))

/-- The product of the tile the windows hold at point `t`, at `(e, d)`. -/
def kv0_tile (c : Dev nD) (t : Fin cfg0.N) (e d : Fin 768) : EReal :=
  ∑ r : Fin 1024, kv0_proj (iblk0 V c 0 t) (iblk0 V c 1 t) (iblk0 V c 2 t) r e * kv0_proj (iblk0 V c 0 t) (iblk0 V c 3 t) (iblk0 V c 4 t) r d

/-- At a first sequence tile the accumulator ends at zero plus the tile's product. -/
theorem kv0_acc_first (c : Dev nD) (t : Fin cfg0.N) (h0 : t.val % 4 = 0) (e d : Fin 768) :
    (outsAt0 V c t.val t.isLt).2 (ix2 e d) = 0 + kv0_tile V c t e d := by
  have h1 : ¬t.val % 4 = 3 := by omega
  rw [outsAt0_A V c t h0 h1]
  dsimp only
  refine (congrFun (sout0_A_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t)) (ix2 e d)).trans ?_
  refine (kv0_pay2_apply (iblk0 V c 0 t) (iblk0 V c 1 t) (iblk0 V c 3 t) (iblk0 V c 2 t) (iblk0 V c 4 t) k0_pay1 e d).trans ?_
  rw [kv0_pay1_apply]
  rfl

/-- At any other tile it ends at what the tile before left plus the tile's product. -/
theorem kv0_acc_next (c : Dev nD) (t : Fin cfg0.N) (h0 : ¬t.val % 4 = 0) (e d : Fin 768) :
    (outsAt0 V c t.val t.isLt).2 (ix2 e d) = (outsAt0 V c (t.val - 1) (Nat.lt_of_le_of_lt (Nat.sub_le _ _) t.isLt)).2 (ix2 e d) + kv0_tile V c t e d := by
  by_cases h1 : t.val % 4 = 3
  · rw [outsAt0_C V c t h0 h1]
    dsimp only
    refine (congrFun (sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2) (ix2 e d)).trans ?_
    exact kv0_pay2_apply (iblk0 V c 0 t) (iblk0 V c 1 t) (iblk0 V c 3 t) (iblk0 V c 2 t) (iblk0 V c 4 t) (outsAt0 V c (t.val - 1) (Nat.lt_of_le_of_lt (Nat.sub_le _ _) t.isLt)).2 e d
  · rw [outsAt0_B V c t h0 h1]
    dsimp only
    refine (congrFun (sout0_B_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2) (ix2 e d)).trans ?_
    exact kv0_pay2_apply (iblk0 V c 0 t) (iblk0 V c 1 t) (iblk0 V c 3 t) (iblk0 V c 2 t) (iblk0 V c 4 t) (outsAt0 V c (t.val - 1) (Nat.lt_of_le_of_lt (Nat.sub_le _ _) t.isLt)).2 e d

/-- At a last tile the output block stored is the accumulator the tile leaves, under a leading unit axis. -/
theorem kv0_out_last (c : Dev nD) (t : Fin cfg0.N) (h3 : t.val % 4 = 3) (u : Fin 1) (e d : Fin 768) :
    (outsAt0 V c t.val t.isLt).1 (ix3 u e d) = (outsAt0 V c t.val t.isLt).2 (ix2 e d) := by
  have h0 : ¬t.val % 4 = 0 := by omega
  rw [outsAt0_C V c t h0 h3]
  dsimp only
  refine (congrFun (out0_C_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h3) (iblk0 V c 0 t) (iblk0 V c 1 t) (iblk0 V c 2 t) (iblk0 V c 3 t) (iblk0 V c 4 t) (outsAt0 V c (t.val - 1) (Nat.lt_of_le_of_lt (Nat.sub_le _ _) t.isLt)).2) (ix3 u e d)).trans ?_
  refine (kv0_pay3_apply _ u e d).trans ?_
  exact (congrFun (sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h3) (iblk0 V c 0 t) (iblk0 V c 1 t) (iblk0 V c 2 t) (iblk0 V c 3 t) (iblk0 V c 4 t) (outsAt0 V c (t.val - 1) (Nat.lt_of_le_of_lt (Nat.sub_le _ _) t.isLt)).2) (ix2 e d)).symm
/-- So at a last tile the accumulator is the products of the four tiles of its batch, added up from zero in order. -/
theorem kv0_acc_last (c : Dev nD) (t : Fin cfg0.N) (h3 : t.val % 4 = 3) (e d : Fin 768) :
    (outsAt0 V c t.val t.isLt).2 (ix2 e d)
      = (((0 + kv0_tile V c ⟨t.val - 1 - 1 - 1, by have := t.isLt; omega⟩ e d) + kv0_tile V c ⟨t.val - 1 - 1, by have := t.isLt; omega⟩ e d)
          + kv0_tile V c ⟨t.val - 1, by have := t.isLt; omega⟩ e d) + kv0_tile V c t e d := by
  have hlt := t.isLt
  have a0 := kv0_acc_next V c t (by omega) e d
  have a1 := kv0_acc_next V c ⟨t.val - 1, by omega⟩ (by dsimp only; omega) e d
  have a2 := kv0_acc_next V c ⟨t.val - 1 - 1, by omega⟩ (by dsimp only; omega) e d
  have a3 := kv0_acc_first V c ⟨t.val - 1 - 1 - 1, by omega⟩ (by dsimp only; omega) e d
  exact a0.trans (congrArg (· + kv0_tile V c t e d) (a1.trans (congrArg (· + kv0_tile V c ⟨t.val - 1, by omega⟩ e d) (a2.trans (congrArg (· + kv0_tile V c ⟨t.val - 1 - 1, by omega⟩ e d) a3)))))

end Entry

end Cert.KernelIdeal.Hand
end
-- ==== Proof.Ideal.R0Value.lean ====
/-
  The key/value product as an array.  Grid point `t = 4·b + s` holds tile `s` (rows `1024·s … 1024·s + 1023`) of batch
  `b` of the rows, and the weights and biases whole; so the product of the tile at the point is the product of those
  rows of the array, and the accumulator at the last tile of batch `b` is

      KV[b, e, d] = (((0 + T₀) + T₁) + T₂) + T₃,    Tₛ = ∑ᵣ K[b, 1024·s + r, e] · V[b, 1024·s + r, d],

  with `K = x·Wk + bk` and `V = x·Wv + bv` the two projections.  The output block is written back at the last tile of
  each batch only, as block `b` of the result; those four blocks cover the result, which therefore ends holding `KV`.
-/
import proofs.«158100_j22514218565864_2_alg».proof.Proof.Ideal.R0ValueStep
import proofs.«158100_j22514218565864_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Attn (tileRow)

/-! ## The result as one function of the arrays -/

/-- The key/value product of the arrays at `[b, e, d]`: the four tiles' products added up from zero in order. -/
def KV0 (xa : S4x4096x768.Idx → EReal) (wk : S768x768.Idx → EReal) (bk : S768.Idx → EReal) (wv : S768x768.Idx → EReal) (bv : S768.Idx → EReal) :
    S4x768x768.Idx → EReal := fun i =>
  (((0
    + ∑ r : Fin 1024, ((∑ j : Fin 768, xa (ix3 (i 0) (tileRow 0 r) j) * wk (ix2 j (i 1))) + bk (ix1 (i 1))) * ((∑ j : Fin 768, xa (ix3 (i 0) (tileRow 0 r) j) * wv (ix2 j (i 2))) + bv (ix1 (i 2))))
    + ∑ r : Fin 1024, ((∑ j : Fin 768, xa (ix3 (i 0) (tileRow 1 r) j) * wk (ix2 j (i 1))) + bk (ix1 (i 1))) * ((∑ j : Fin 768, xa (ix3 (i 0) (tileRow 1 r) j) * wv (ix2 j (i 2))) + bv (ix1 (i 2))))
    + ∑ r : Fin 1024, ((∑ j : Fin 768, xa (ix3 (i 0) (tileRow 2 r) j) * wk (ix2 j (i 1))) + bk (ix1 (i 1))) * ((∑ j : Fin 768, xa (ix3 (i 0) (tileRow 2 r) j) * wv (ix2 j (i 2))) + bv (ix1 (i 2))))
    + ∑ r : Fin 1024, ((∑ j : Fin 768, xa (ix3 (i 0) (tileRow 3 r) j) * wk (ix2 j (i 1))) + bk (ix1 (i 1))) * ((∑ j : Fin 768, xa (ix3 (i 0) (tileRow 3 r) j) * wv (ix2 j (i 2))) + bv (ix1 (i 2)))

theorem KV0_apply (xa : S4x4096x768.Idx → EReal) (wk : S768x768.Idx → EReal) (bk : S768.Idx → EReal) (wv : S768x768.Idx → EReal) (bv : S768.Idx → EReal)
    (b : Fin 4) (e d : Fin 768) :
    KV0 xa wk bk wv bv (ix3 b e d)
      = ((((0 : EReal)
        + ∑ r : Fin 1024, ((∑ j : Fin 768, xa (ix3 b (tileRow 0 r) j) * wk (ix2 j e)) + bk (ix1 e)) * ((∑ j : Fin 768, xa (ix3 b (tileRow 0 r) j) * wv (ix2 j d)) + bv (ix1 d)))
        + ∑ r : Fin 1024, ((∑ j : Fin 768, xa (ix3 b (tileRow 1 r) j) * wk (ix2 j e)) + bk (ix1 e)) * ((∑ j : Fin 768, xa (ix3 b (tileRow 1 r) j) * wv (ix2 j d)) + bv (ix1 d)))
        + ∑ r : Fin 1024, ((∑ j : Fin 768, xa (ix3 b (tileRow 2 r) j) * wk (ix2 j e)) + bk (ix1 e)) * ((∑ j : Fin 768, xa (ix3 b (tileRow 2 r) j) * wv (ix2 j d)) + bv (ix1 d)))
        + ∑ r : Fin 1024, ((∑ j : Fin 768, xa (ix3 b (tileRow 3 r) j) * wk (ix2 j e)) + bk (ix1 e)) * ((∑ j : Fin 768, xa (ix3 b (tileRow 3 r) j) * wv (ix2 j d)) + bv (ix1 d)) := rfl

/-- One tile's product of the arrays: rows `1024·s …` of batch `b`, at `(e, d)`. -/
def kv0_tileA (xa : S4x4096x768.Idx → EReal) (wk : S768x768.Idx → EReal) (bk : S768.Idx → EReal) (wv : S768x768.Idx → EReal) (bv : S768.Idx → EReal)
    (b s : Fin 4) (e d : Fin 768) : EReal :=
  ∑ r : Fin 1024, ((∑ j : Fin 768, xa (ix3 b (tileRow s r) j) * wk (ix2 j e)) + bk (ix1 e)) * ((∑ j : Fin 768, xa (ix3 b (tileRow s r) j) * wv (ix2 j d)) + bv (ix1 d))

/-! ## The windows' blocks, read off the arrays -/

/-- The printed index maps over the grid: the rows' window is at block `(t / 4, t % 4, 0)`, the result's at
    `(t / 4, 0, 0)`, the weights' and biases' at zero. -/
theorem kv0_idx_facts : ∀ t : Fin cfg0.N,
    win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 3) = t.val / 4 ∧ win0_5.index t (1 : Fin 3) = 0 ∧ win0_5.index t (2 : Fin 3) = 0 :=
  (by decide +kernel : ∀ t : Fin grid0.N, _)

section Entry
variable (V : (c : Dev nD) → (b : Ref sig .tc) → Buf (Elt Ideal) ((c : Thread nD τ).loc b))

/-- The rows' block at point `4·b + s` is tile `s` of batch `b`. -/
theorem kv0_blk0_apply (c : Dev nD) (t : Fin cfg0.N) (b s : Fin 4) (ht : t.val = 4 * b.val + s.val) (r : Fin 1024) (j : Fin 768) :
    iblk0 V c 0 t (ix3 (0 : Fin 1) r j) = V c main_v10 (ix3 b (tileRow s r) j) := by
  obtain ⟨e0, e1, e2, -⟩ := kv0_idx_facts t
  unfold iblk0
  rw [View.read_apply]
  show V c main_v10 _ = V c main_v10 _
  refine congrArg (V c main_v10) (funext fun a => Fin.ext ?_)
  match a with
  | ⟨0, _⟩ => show win0_0.index t (0 : Fin 3) * 1 + 1 * 0 = b.val; omega
  | ⟨1, _⟩ => show win0_0.index t (1 : Fin 3) * 1024 + 1 * r.val = s.val * 1024 + r.val; omega
  | ⟨2, _⟩ => show win0_0.index t (2 : Fin 3) * 768 + 1 * j.val = j.val; omega

/-- The key weights' block is the whole matrix. -/
theorem kv0_blk1_apply (c : Dev nD) (t : Fin cfg0.N) (j e : Fin 768) : iblk0 V c 1 t (ix2 j e) = V c main_v3 (ix2 j e) := by
  obtain ⟨-, -, -, e0, e1, -⟩ := kv0_idx_facts t
  unfold iblk0
  rw [View.read_apply]
  show V c main_v3 _ = V c main_v3 _
  refine congrArg (V c main_v3) (funext fun a => Fin.ext ?_)
  match a with
  | ⟨0, _⟩ => show win0_1.index t (0 : Fin 2) * 768 + 1 * j.val = j.val; omega
  | ⟨1, _⟩ => show win0_1.index t (1 : Fin 2) * 768 + 1 * e.val = e.val; omega

/-- The key bias's block is the whole vector. -/
theorem kv0_blk2_apply (c : Dev nD) (t : Fin cfg0.N) (e : Fin 768) : iblk0 V c 2 t (ix1 e) = V c main_arg4 (ix1 e) := by
  obtain ⟨-, -, -, -, -, e0, -⟩ := kv0_idx_facts t
  unfold iblk0
  rw [View.read_apply]
  show V c main_arg4 _ = V c main_arg4 _
  refine congrArg (V c main_arg4) (funext fun a => Fin.ext ?_)
  match a with
  | ⟨0, _⟩ => show win0_2.index t (0 : Fin 1) * 768 + 1 * e.val = e.val; omega

/-- The value weights' block is the whole matrix. -/
theorem kv0_blk3_apply (c : Dev nD) (t : Fin cfg0.N) (j e : Fin 768) : iblk0 V c 3 t (ix2 j e) = V c main_v7 (ix2 j e) := by
  obtain ⟨-, -, -, -, -, -, e0, e1, -⟩ := kv0_idx_facts t
  unfold iblk0
  rw [View.read_apply]
  show V c main_v7 _ = V c main_v7 _
  refine congrArg (V c main_v7) (funext fun a => Fin.ext ?_)
  match a with
  | ⟨0, _⟩ => show win0_3.index t (0 : Fin 2) * 768 + 1 * j.val = j.val; omega
  | ⟨1, _⟩ => show win0_3.index t (1 : Fin 2) * 768 + 1 * e.val = e.val; omega

/-- The value bias's block is the whole vector. -/
theorem kv0_blk4_apply (c : Dev nD) (t : Fin cfg0.N) (e : Fin 768) : iblk0 V c 4 t (ix1 e) = V c main_v9 (ix1 e) := by
  obtain ⟨-, -, -, -, -, -, -, -, e0, -⟩ := kv0_idx_facts t
  unfold iblk0
  rw [View.read_apply]
  show V c main_v9 _ = V c main_v9 _
  refine congrArg (V c main_v9) (funext fun a => Fin.ext ?_)
  match a with
  | ⟨0, _⟩ => show win0_4.index t (0 : Fin 1) * 768 + 1 * e.val = e.val; omega

/-- So the product of the tile at point `4·b + s` is the product of rows `1024·s …` of batch `b` of the arrays. -/
theorem kv0_tile_eq (c : Dev nD) (t : Fin cfg0.N) (b s : Fin 4) (ht : t.val = 4 * b.val + s.val) (e d : Fin 768) :
    kv0_tile V c t e d = kv0_tileA (V c main_v10) (V c main_v3) (V c main_arg4) (V c main_v7) (V c main_v9) b s e d := by
  unfold kv0_tile kv0_proj kv0_tileA
  refine Finset.sum_congr rfl fun r _ => ?_
  refine congrArg₂ (fun (a b : EReal) => a * b) ?_ ?_
  · exact congrArg₂ (fun (a b : EReal) => a + b) (Finset.sum_congr rfl fun j _ => congrArg₂ (fun (a b : EReal) => a * b) (kv0_blk0_apply V c t b s ht r j) (kv0_blk1_apply V c t j e)) (kv0_blk2_apply V c t e)
  · exact congrArg₂ (fun (a b : EReal) => a + b) (Finset.sum_congr rfl fun j _ => congrArg₂ (fun (a b : EReal) => a * b) (kv0_blk0_apply V c t b s ht r j) (kv0_blk3_apply V c t j d)) (kv0_blk4_apply V c t d)

/-! ## What is written back, and where -/

/-- What the last tile of a batch writes back is its block of `KV0` of the arrays. -/
theorem kv0_flushed_eq (c : Dev nD) (t : Fin cfg0.N) (hf : (cfg0.win 5).flush t = true) :
    (dat0 V c).flushed 5 t = ((cfg0.win 5).blk t).view.read (Elt Ideal) (KV0 (V c main_v10) (V c main_v3) (V c main_arg4) (V c main_v7) (V c main_v9)) := by
  have h3 : t.val % 4 = 3 := (flush0_5 t).mp hf
  have hN : cfg0.N = 16 := N_0
  have hlt := t.isLt
  show (cfg0.win 5).cut (grid0.coords t) ((dat0 V c).after 5 t) = _
  rw [after0_5]
  refine funext fun (y : S1x768x768.Idx) => ?_
  obtain ⟨u, e, d, rfl⟩ : ∃ (u : Fin 1) (e d : Fin 768), y = ix3 u e d := ⟨y 0, y 1, y 2, eq_ix3 y⟩
  have hemb : ((cfg0.win 5).blk t).view.emb (ix3 u e d) = ix3 (⟨t.val / 4, by omega⟩ : Fin 4) e d := by
    obtain ⟨-, -, -, -, -, -, -, -, -, e0, e1, e2⟩ := kv0_idx_facts t
    refine funext fun a => Fin.ext ?_
    match a with
    | ⟨0, _⟩ => show win0_5.index t (0 : Fin 3) * 1 + 1 * u.val = t.val / 4; omega
    | ⟨1, _⟩ => show win0_5.index t (1 : Fin 3) * 768 + 1 * e.val = e.val; omega
    | ⟨2, _⟩ => show win0_5.index t (2 : Fin 3) * 768 + 1 * d.val = d.val; omega
  show (outsAt0 V c t.val t.isLt).1 (ix3 u e d) = KV0 (V c main_v10) (V c main_v3) (V c main_arg4) (V c main_v7) (V c main_v9) (((cfg0.win 5).blk t).view.emb (ix3 u e d))
  rw [hemb, KV0_apply, kv0_out_last V c t h3 u e d, kv0_acc_last V c t h3 e d,
    kv0_tile_eq V c ⟨t.val - 1 - 1 - 1, by omega⟩ ⟨t.val / 4, by omega⟩ 0 (by dsimp only; omega) e d,
    kv0_tile_eq V c ⟨t.val - 1 - 1, by omega⟩ ⟨t.val / 4, by omega⟩ 1 (by dsimp only; omega) e d,
    kv0_tile_eq V c ⟨t.val - 1, by omega⟩ ⟨t.val / 4, by omega⟩ 2 (by dsimp only; omega) e d,
    kv0_tile_eq V c t ⟨t.val / 4, by omega⟩ 3 (by dsimp only; omega) e d]
  rfl

/-- An index of the result is in the block written back at point `t` iff each coordinate is in the block's range. -/
theorem kv0_mem_blk (t : Fin cfg0.N) (i : S4x768x768.Idx) :
    i ∈ ((cfg0.win 5).blk t).view.set ↔ ∀ a : Fin 3, win0_5.index t a * S1x768x768.size a ≤ (i a).val ∧ (i a).val < win0_5.index t a * S1x768x768.size a + S1x768x768.size a := by
  show i ∈ ((View.whole main_v11).slice (win0_5.rect t)).set ↔ _
  rw [View.set_slice_whole, Rect.mem_set_unit]
  exact Iff.rfl

/-- Every index `[b, e, d]` of the result is in the block written back at the last tile of batch `b`. -/
theorem kv0_cover (i : S4x768x768.Idx) : ∃ t : Fin cfg0.N, (cfg0.win 5).flush t = true ∧ i ∈ ((cfg0.win 5).blk t).view.set := by
  have hN : cfg0.N = 16 := N_0
  have h0 : (i 0).val < 4 := (i 0).isLt
  have h1 : (i 1).val < 768 := (i 1).isLt
  have h2 : (i 2).val < 768 := (i 2).isLt
  refine ⟨⟨4 * (i 0).val + 3, by omega⟩, (flush0_5 _).mpr (by dsimp only; omega), ?_⟩
  rw [kv0_mem_blk]
  obtain ⟨-, -, -, -, -, -, -, -, -, e0, e1, e2⟩ := kv0_idx_facts ⟨4 * (i 0).val + 3, by omega⟩
  dsimp only at e0
  intro a
  match a with
  | ⟨0, _⟩ => show win0_5.index _ (0 : Fin 3) * 1 ≤ (i 0).val ∧ (i 0).val < win0_5.index _ (0 : Fin 3) * 1 + 1; omega
  | ⟨1, _⟩ => show win0_5.index _ (1 : Fin 3) * 768 ≤ (i 1).val ∧ (i 1).val < win0_5.index _ (1 : Fin 3) * 768 + 768; omega
  | ⟨2, _⟩ => show win0_5.index _ (2 : Fin 3) * 768 ≤ (i 2).val ∧ (i 2).val < win0_5.index _ (2 : Fin 3) * 768 + 768; omega

/-- The result array of the key/value kernel ends holding the key/value product of the arrays the region finds. -/
theorem arr0_value (c : Dev nD) :
    (dat0 (F := Ideal) V c).arrAt 5 cfg0.N = KV0 (V c main_v10) (V c main_v3) (V c main_arg4) (V c main_v7) (V c main_v9) :=
  (dat0 V c).arrAt_eq_of_cover 5 (KV0 (V c main_v10) (V c main_v3) (V c main_arg4) (V c main_v7) (V c main_v9))
    (kv0_flushed_eq V c) kv0_cover

end Entry

end Cert.KernelIdeal.Hand
end
-- ==== Proof.Algebraic.lean ====
/-
  The two idealized programs end with one result.  The kernel's run ends with the output region's array at the last
  boundary's contents; the reference's run ends at its composed term of the arguments; under the precondition the
  arguments are arrays of real numbers, and both results are, index by index, the real number  ∑ₑ q·KV  of them.
-/
import proofs.«158100_j22514218565864_2_alg».proof.Defs
import proofs.«158100_j22514218565864_2_alg».proof.Proof.Ideal.HostVals
import proofs.«158100_j22514218565864_2_alg».proof.Proof.RefFinal
import proofs.«158100_j22514218565864_2_alg».proof.Proof.Gen.KernelIdeal
import proofs.«158100_j22514218565864_2_alg».proof.Proof.Gen.ReferenceIdeal
import proofs.«158100_j22514218565864_2_alg».proof.Proof.Gen.Pre_finite_inputs
import proofs.«158100_j22514218565864_2_alg».proof.Proof.KerCoe
import proofs.«158100_j22514218565864_2_alg».proof.Proof.Ideal.R1Value
import proofs.«158100_j22514218565864_2_alg».proof.Proof.Ideal.R0Value

set_option maxRecDepth 16384

noncomputable section

namespace Cert.Proof

open Idealize.ShloMosaic Idealize.ShloMosaic.TcCoe Idealize.SL.Sem Idealize.ShloMosaic.ValueIdx
open Cert.KernelIdeal Cert.KernelIdeal.Hand Cert.Attn

/-- The kernel's result array, for arguments that are real numbers: the kernel's arrangement of them. -/
theorem kernel_result (m : (ℓ : Loc nD τ sig) → Buf (Elt Ideal) ℓ) (c : Dev nD)
    (xr : Rows) (Wqr : Mat) (bqr : Bias) (Wkr : Mat) (bkr : Bias) (Wvr : Mat) (bvr : Bias) (cr : ℝ)
    (hc : (Ideal.ofBits .f32 0x3D13CD3A#32 : EReal) = ((cr : ℝ) : EReal))
    (h0 : A0 m c = fun i => ((xr (i 0) (i 1) (i 2) : ℝ) : EReal))
    (h1 : A1 m c = fun i => ((Wqr (i 0) (i 1) : ℝ) : EReal)) (h2 : A2 m c = fun i => ((bqr (i 0) : ℝ) : EReal))
    (h3 : A3 m c = fun i => ((Wkr (i 0) (i 1) : ℝ) : EReal)) (h4 : A4 m c = fun i => ((bkr (i 0) : ℝ) : EReal))
    (h5 : A5 m c = fun i => ((Wvr (i 0) (i 1) : ℝ) : EReal)) (h6 : A6 m c = fun i => ((bvr (i 0) : ℝ) : EReal)) :
    (W3 m c (Proc.devRef .tc main_v12) : S4x4096x768.Idx → EReal)
      = fun i => ((outKer xr Wqr bqr Wkr bkr Wvr bvr cr (i 0) (i 1) (i 2) : ℝ) : EReal) := by
  have hx1 : ∀ (b : Fin 4) (t : Fin 4096) (j : Fin 768), (E1 m c main_v10 : S4x4096x768.Idx → EReal) (ix3 b t j) = ((xr b t j : ℝ) : EReal) := fun b t j => by
    rw [E1_x, h0]
  have hx2 : ∀ (b : Fin 4) (t : Fin 4096) (j : Fin 768), (E2 m c main_v10 : S4x4096x768.Idx → EReal) (ix3 b t j) = ((xr b t j : ℝ) : EReal) := fun b t j => by
    rw [E2_x]; exact hx1 b t j
  have hwq : ∀ (j e : Fin 768), (E2 m c main_v1 : S768x768.Idx → EReal) (ix2 j e) = ((Wqr e j : ℝ) : EReal) := fun j e => by
    rw [E2_wq, E1_wq, h1]
  have hbq : ∀ (e : Fin 768), (E2 m c main_arg2 : S768.Idx → EReal) (ix1 e) = ((bqr e : ℝ) : EReal) := fun e => by
    rw [E2_bq, E1_bq, h2]
  have hwk : ∀ (j e : Fin 768), (E1 m c main_v3 : S768x768.Idx → EReal) (ix2 j e) = ((Wkr e j : ℝ) : EReal) := fun j e => by
    rw [E1_wk, h3]
  have hbk : ∀ (e : Fin 768), (E1 m c main_arg4 : S768.Idx → EReal) (ix1 e) = ((bkr e : ℝ) : EReal) := fun e => by
    rw [E1_bk, h4]
  have hwv : ∀ (j d : Fin 768), (E1 m c main_v7 : S768x768.Idx → EReal) (ix2 j d) = ((Wvr d j : ℝ) : EReal) * ((cr : ℝ) : EReal) := fun j d => by
    rw [E1_wv, h5, ← hc]
  have hbv : ∀ (d : Fin 768), (E1 m c main_v9 : S768.Idx → EReal) (ix1 d) = ((bvr d : ℝ) : EReal) * ((cr : ℝ) : EReal) := fun d => by
    rw [E1_bv, h6, ← hc]
  funext i
  obtain ⟨b, s, d, rfl⟩ : ∃ (b : Fin 4) (s : Fin 4096) (d : Fin 768), i = ix3 b s d := ⟨i 0, i 1, i 2, eq_ix3 i⟩
  show _ = ((outKer xr Wqr bqr Wkr bkr Wvr bvr cr b s d : ℝ) : EReal)
  rw [W3_out, arr1_value, Out1_apply, ← kernel_form_eq xr Wqr bqr Wkr bkr Wvr bvr cr b s d]
  refine Finset.sum_congr rfl fun e _ => ?_
  simp only [hx2, hwq, hbq]
  refine congrArg (HMul.hMul _) ?_
  rw [E2_kv, arr0_value, KV0_apply]
  simp only [hx1, hwk, hbk, hwv, hbv]

theorem algebraic : Cert.algebraic_KernelIdeal_ReferenceIdeal := by
  intro m ρ m' ρ' hpre hagree
  refine ⟨fun c => W3 m c (Proc.devRef .tc main_v12), ?_, ?_⟩
  · exact (θ_run Cert.KernelIdeal.defs _ _).mono (fun r h c =>
      ⟨h c _ (mem_uc main_v12 (by decide)),
       (h c _ (mem_uc main_arg0 (by decide))).trans (W3_main_arg0 m c),
       (h c _ (mem_uc main_arg1 (by decide))).trans (W3_main_arg1 m c),
       (h c _ (mem_uc main_arg2 (by decide))).trans (W3_main_arg2 m c),
       (h c _ (mem_uc main_arg3 (by decide))).trans (W3_main_arg3 m c),
       (h c _ (mem_uc main_arg4 (by decide))).trans (W3_main_arg4 m c),
       (h c _ (mem_uc main_arg5 (by decide))).trans (W3_main_arg5 m c),
       (h c _ (mem_uc main_arg6 (by decide))).trans (W3_main_arg6 m c)⟩) (run_all m ρ)
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2.1, (hagree c).2.2.2.2.2.2]
    obtain ⟨xr, Wqr, bqr, Wkr, bkr, Wvr, bvr, cr, hc, h0, h1, h2, h3, h4, h5, h6, href⟩ :=
      Cert.RefSide.ref_final (A0 m c) (A1 m c) (A2 m c) (A3 m c) (A4 m c) (A5 m c) (A6 m c) (hpre c)
    refine (Cert.ReferenceIdeal.Read.val_main_v15_eq (F := Ideal) (A0 m c) (A1 m c) (A2 m c) (A3 m c) (A4 m c) (A5 m c) (A6 m c)).trans ?_
    rw [href]
    exact (kernel_result m c xr Wqr bqr Wkr bkr Wvr bvr cr hc h0 h1 h2 h3 h4 h5 h6).symm

end Cert.Proof

end
-- ==== Proof.lean ====
/-
  The certificate of the attention-without-softmax kernel against its einsum reference.

  The kernel's program is a stretch of host operations (weights transposed, the scale folded into the value
  projection), a region that adds up the key/value product KV[b] = k[b]ᵀ·(c·v[b]) over four tiles of 1024 rows in an
  accumulator carried between grid points, and a region that forms q[b]·KV[b] tile by tile.  Each program's frame —
  it runs to the end, nothing faults, the arguments end as launched — comes from its run as a list of segments; the
  idealization rewrote nothing; and at the exact values the two programs' results are one function of finite
  arguments: over the reals the scalar distributes over the projection and the sums over rows and features exchange.
-/
import proofs.«158100_j22514218565864_2_alg».proof.Defs
import proofs.«158100_j22514218565864_2_alg».proof.Proof.Gen.Kernel
import proofs.«158100_j22514218565864_2_alg».proof.Proof.Gen.KernelIdeal
import proofs.«158100_j22514218565864_2_alg».proof.Proof.Gen.ReferenceIdeal
import proofs.«158100_j22514218565864_2_alg».proof.Proof.Gen.Pre_finite_inputs
import proofs.«158100_j22514218565864_2_alg».proof.Proof.Gen.ReferenceIdeal.Run
import proofs.«158100_j22514218565864_2_alg».proof.Proof.Bits.Run
import proofs.«158100_j22514218565864_2_alg».proof.Proof.Ideal.Run
import proofs.«158100_j22514218565864_2_alg».proof.Proof.Algebraic

noncomputable section

namespace Cert.Proof

open Idealize.ShloMosaic Idealize.SL.Sem

/-- The word-level kernel's frame: its run as segments, read at the arguments. -/
theorem frame_k : Cert.frame_Kernel := fun m ρ _ => Cert.Kernel.Hand.frame m ρ

/-- The idealized kernel's frame, the same run at the exact values. -/
theorem frame_ki : Cert.frame_KernelIdeal := fun m ρ _ => Cert.KernelIdeal.Hand.frame m ρ

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
